-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S32000x1024 : Shape := ⟨2, ![32000, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S32000x1024 : S_.BroadcastsInDim S32000x1024 (![] : Fin 0 → Fin S32000x1024.rank)
  reducesTo_S32000x1024_S_d0_1 : S32000x1024.ReducesTo [0, 1] S_

variable [Facts]

def fn_part1 {F : FTy → Type} [FloatOps F] (main_v13 : IVec S_ 1) (main_v16 : IVec S32000x1024 1) : IVec S_ 1 :=
  let main_c_5 : IVec S_ 1 := constantI S_ 1 1#1
  let main_v17 : IVec S_ 1 := (fun x v => Host.reduce IntOp.andi x v reducesTo_S32000x1024_S_d0_1 h_S_) main_v16 main_c_5
  let main_v18 : IVec S_ 1 := andi main_v13 main_v17
  main_v18

def fn {F : FTy → Type} [FloatOps F] (main_arg0 : FVec F S4096x1024 .f32) (main_arg1 : FVec F S4096x1024 .f32) (main_arg2 : FVec F S32000x1024 .f32) (main_arg3 : FVec F S32000x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S32000x1024 .f32 := Host.absf main_arg2
  let main_cst_2 : FVec F S_ .f32 := constant S_ .f32 0x7F800000#32
  let main_v10 : FVec F S32000x1024 .f32 := broadcastInDim S32000x1024 ![] bcast_S_S32000x1024 main_cst_2
  let main_v11 : IVec S32000x1024 1 := cmpf .olt main_v9 main_v10
  let main_c_3 : IVec S_ 1 := constantI S_ 1 1#1
  let main_v12 : IVec S_ 1 := (fun x v => Host.reduce IntOp.andi x v reducesTo_S32000x1024_S_d0_1 h_S_) main_v11 main_c_3
  let main_v13 : IVec S_ 1 := andi main_v8 main_v12
  let main_v14 : FVec F S32000x1024 .f32 := Host.absf main_arg3
  let main_cst_4 : FVec F S_ .f32 := constant S_ .f32 0x7F800000#32
  let main_v15 : FVec F S32000x1024 .f32 := broadcastInDim S32000x1024 ![] bcast_S_S32000x1024 main_cst_4
  let main_v16 : IVec S32000x1024 1 := cmpf .olt main_v14 main_v15
  fn_part1 (F := F) main_v13 main_v16
-- ==== Kernel.lean ====
abbrev S4096x1024 : Shape := ⟨2, ![4096, 1024]⟩
abbrev S32000x1024 : Shape := ⟨2, ![32000, 1024]⟩
abbrev S4096x1 : Shape := ⟨2, ![4096, 1]⟩
abbrev S2048x1024 : Shape := ⟨2, ![2048, 1024]⟩
abbrev S256x1024 : Shape := ⟨2, ![256, 1024]⟩
abbrev S2048x1 : Shape := ⟨2, ![2048, 1]⟩
abbrev S2048x8 : Shape := ⟨2, ![2048, 8]⟩
abbrev S2048x256 : Shape := ⟨2, ![2048, 256]⟩
abbrev S2048 : Shape := ⟨1, ![2048]⟩
abbrev S_ : Shape := ⟨0, ![]⟩

abbrev nBuf : Space → Nat
  | .hbm => 13
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S32000x1024, .f32⟩
  | .hbm, ⟨3, _⟩ => ⟨S32000x1024, .f32⟩
  | .hbm, ⟨4, _⟩ => ⟨S4096x1024, .bf16⟩
  | .hbm, ⟨5, _⟩ => ⟨S4096x1024, .bf16⟩
  | .hbm, ⟨6, _⟩ => ⟨S32000x1024, .bf16⟩
  | .hbm, ⟨7, _⟩ => ⟨S32000x1024, .bf16⟩
  | .hbm, ⟨8, _⟩ => ⟨S4096x1, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S2048x1, .f32⟩
  | .local _ .vmem, ⟨9, _⟩ => ⟨S2048x1, .f32⟩
  | .local _ .vmem, ⟨10, _⟩ => ⟨S2048x8, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 125], ![false, false]⟩

def k0_cond2 (i : grid0.Coords) : BitVec 1 :=
  let arg1 : BitVec 32 := BitVec.ofNat 32 (i 1).val
  let c124_i32 : BitVec 32 := 124#32
  let v63 : BitVec 1 := Scalar.cmpi .eq arg1 c124_i32
  let v64 : BitVec 32 := Scalar.extui v63
  let c0_i32_30 : BitVec 32 := 0#32
  let v65 : BitVec 1 := Scalar.cmpi .ne v64 c0_i32_30
  v65

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  bitsLt_bf16_f32 : FTy.bits .bf16 < FTy.bits .f32
  inb_S2048x8_S2048x1_0_0 : ∀ a, (![0, 0] : Fin 2 → Nat) a + S2048x1.size a ≤ S2048x8.size a
  h_S2048x1 : 0 < S2048x1.numel
  shapeCasts_S2048x1_S2048x1 : S2048x1.ShapeCasts S2048x1
  inb_S2048x8_S2048x1_0_1 : ∀ a, (![0, 1] : Fin 2 → Nat) a + S2048x1.size a ≤ S2048x8.size a
  inb_S2048x8_S2048x1_0_2 : ∀ a, (![0, 2] : Fin 2 → Nat) a + S2048x1.size a ≤ S2048x8.size a
  inb_S2048x8_S2048x1_0_3 : ∀ a, (![0, 3] : Fin 2 → Nat) a + S2048x1.size a ≤ S2048x8.size a
  inb_S2048x8_S2048x1_0_4 : ∀ a, (![0, 4] : Fin 2 → Nat) a + S2048x1.size a ≤ S2048x8.size a
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  reduces_S2048x256_S2048 : S2048x256.Reduces [1] S2048
  shapeCasts_S2048_S2048x1 : S2048.ShapeCasts S2048x1
  broadcasts_S2048x1_S2048x256 : S2048x1.Broadcasts S2048x256
  inb_S2048x1_S2048x1_0_0 : ∀ a, (![0, 0] : Fin 2 → Nat) a + S2048x1.size a ≤ S2048x1.size a
  reducesTo_S4096x1_S_d0_1 : S4096x1.ReducesTo [0, 1] S_
  h_S_ : 0 < S_.numel
  dot_S2048x1024_S256x1024_S2048x256_1_1_0_0_n_n_wf : DotDims.WF S2048x1024 S256x1024 S2048x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S4096x1024.size a
  hwx0_0 : ∀ i : grid0.Coords, EltTy.bits .bf16 = 32 ∨ (Rect.block (s := S4096x1024) S2048x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S4096x1024.size a
  hwx0_1 : ∀ i : grid0.Coords, EltTy.bits .bf16 = 32 ∨ (Rect.block (s := S4096x1024) S2048x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S32000x1024.size a
  hwx0_2 : ∀ i : grid0.Coords, EltTy.bits .bf16 = 32 ∨ (Rect.block (s := S32000x1024) S256x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1024.size a ≤ S32000x1024.size a
  hwx0_3 : ∀ i : grid0.Coords, EltTy.bits .bf16 = 32 ∨ (Rect.block (s := S32000x1024) S256x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x1.size a ≤ S4096x1.size a
  hwx0_4 : ∀ i : grid0.Coords, EltTy.bits .f32 = 32 ∨ (Rect.block (s := S4096x1) S2048x1.size (cc0_transform_4 i) (hinb0_4 i)).WholeWords (EltTy.packing .f32)

variable [Facts₀]

def dot_S2048x1024_S256x1024_S2048x256_1_1_0_0_n_n : DotDims S2048x1024 S256x1024 S2048x256 where
  lhsContracting := [1]
  rhsContracting := [1]
  lhsNonContracting := [0]
  rhsNonContracting := [0]
  lhsBatch := []
  rhsBatch := []
  wf := dot_S2048x1024_S256x1024_S2048x256_1_1_0_0_n_n_wf

abbrev win0_0 : Pipeline.Window sig grid0 :=
  Pipeline.Window.ofSpec (Memref.whole main_v0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S256x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S2048x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S4096x1024 : Shape := ⟨2, ![4096, 1024]⟩
abbrev S32000x1024 : Shape := ⟨2, ![32000, 1024]⟩
abbrev S4096x32000 : Shape := ⟨2, ![4096, 32000]⟩
abbrev S_ : Shape := ⟨0, ![]⟩
abbrev S4096 : Shape := ⟨1, ![4096]⟩
abbrev S4096x1 : Shape := ⟨2, ![4096, 1]⟩

abbrev nBuf : Space → Nat
  | .hbm => 45
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S32000x1024, .f32⟩
  | .hbm, ⟨3, _⟩ => ⟨S32000x1024, .f32⟩
  | .hbm, ⟨4, _⟩ => ⟨S4096x32000, .f32⟩
  | .hbm, ⟨5, _⟩ => ⟨S4096x32000, .f32⟩
  | .hbm, ⟨6, _⟩ => ⟨S_, .f32⟩
  | .hbm, ⟨7, _⟩ => ⟨S4096, .f32⟩
  | .hbm, ⟨8, _⟩ => ⟨S_, .f32⟩
  | .hbm, ⟨9, _⟩ => ⟨S4096, .f32⟩
  | .hbm, ⟨10, _⟩ => ⟨S4096, .f32⟩
  | .hbm, ⟨11, _⟩ => ⟨S4096x1, .f32⟩
  | .hbm, ⟨12, _⟩ => ⟨S4096x32000, .f32⟩
  | .hbm, ⟨13, _⟩ => ⟨S4096x32000, .f32⟩
  | .hbm, ⟨14, _⟩ => ⟨S4096x32000, .f32⟩
  | .hbm, ⟨15, _⟩ => ⟨S_, .f32⟩
  | .hbm, ⟨16, _⟩ => ⟨S4096, .f32⟩
  | .hbm, ⟨17, _⟩ => ⟨S4096x1, .f32⟩
  | .hbm, ⟨18, _⟩ => ⟨S4096x1, .f32⟩
  | .hbm, ⟨19, _⟩ => ⟨S4096x32000, .f32⟩
  | .hbm, ⟨20, _⟩ => ⟨S4096x32000, .f32⟩
  | .hbm, ⟨21, _⟩ => ⟨S_, .f32⟩
  | .hbm, ⟨22, _⟩ => ⟨S4096, .f32⟩
  | .hbm, ⟨23, _⟩ => ⟨S_, .f32⟩
  | .hbm, ⟨24, _⟩ => ⟨S4096, .f32⟩
  | .hbm, ⟨25, _⟩ => ⟨S4096, .f32⟩
  | .hbm, ⟨26, _⟩ => ⟨S4096x1, .f32⟩
  | .hbm, ⟨27, _⟩ => ⟨S4096x32000, .f32⟩
  | .hbm, ⟨28, _⟩ => ⟨S4096x32000, .f32⟩
  | .hbm, ⟨29, _⟩ => ⟨S4096x32000, .f32⟩
  | .hbm, ⟨30, _⟩ => ⟨S_, .f32⟩
  | .hbm, ⟨31, _⟩ => ⟨S4096, .f32⟩
  | .hbm, ⟨32, _⟩ => ⟨S4096x1, .f32⟩
  | .hbm, ⟨33, _⟩ => ⟨S4096x1, .f32⟩
  | .hbm, ⟨34, _⟩ => ⟨S4096x32000, .f32⟩
  | .hbm, ⟨35, _⟩ => ⟨S4096x32000, .f32⟩
  | .hbm, ⟨36, _⟩ => ⟨S4096x32000, .f32⟩
  | .hbm, ⟨37, _⟩ => ⟨S4096x32000, .f32⟩
  | .hbm, ⟨38, _⟩ => ⟨S4096x32000, .f32⟩
  | .hbm, ⟨39, _⟩ => ⟨S_, .f32⟩
  | .hbm, ⟨40, _⟩ => ⟨S4096, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_cst : Ref sig .tc := ⟨.hbm, 6, rfl⟩
abbrev main_call0_v0 : Ref sig .tc := ⟨.hbm, 7, rfl⟩
abbrev main_call0_cst_0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_cst_1 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_v2 : Ref sig .tc := ⟨.hbm, 20, rfl⟩
abbrev main_call1_cst : Ref sig .tc := ⟨.hbm, 21, rfl⟩
abbrev main_call1_v0 : Ref sig .tc := ⟨.hbm, 22, rfl⟩
abbrev main_call1_cst_0 : Ref sig .tc := ⟨.hbm, 23, rfl⟩
abbrev main_call1_v1 : Ref sig .tc := ⟨.hbm, 24, rfl⟩
abbrev main_call1_v2 : Ref sig .tc := ⟨.hbm, 25, rfl⟩
abbrev main_call1_v3 : Ref sig .tc := ⟨.hbm, 26, rfl⟩
abbrev main_call1_v4 : Ref sig .tc := ⟨.hbm, 27, rfl⟩
abbrev main_call1_v5 : Ref sig .tc := ⟨.hbm, 28, rfl⟩
abbrev main_call1_v6 : Ref sig .tc := ⟨.hbm, 29, rfl⟩
abbrev main_call1_cst_1 : Ref sig .tc := ⟨.hbm, 30, rfl⟩
abbrev main_call1_v7 : Ref sig .tc := ⟨.hbm, 31, rfl⟩
abbrev main_call1_v8 : Ref sig .tc := ⟨.hbm, 32, rfl⟩
abbrev main_call1_v9 : Ref sig .tc := ⟨.hbm, 33, rfl⟩
abbrev main_call1_v10 : Ref sig .tc := ⟨.hbm, 34, rfl⟩
abbrev main_v3 : Ref sig .tc := ⟨.hbm, 35, rfl⟩
abbrev main_v4 : Ref sig .tc := ⟨.hbm, 36, rfl⟩
abbrev main_v5 : Ref sig .tc := ⟨.hbm, 37, rfl⟩
abbrev main_v6 : Ref sig .tc := ⟨.hbm, 38, rfl⟩
abbrev main_cst : Ref sig .tc := ⟨.hbm, 39, rfl⟩
abbrev main_v7 : Ref sig .tc := ⟨.hbm, 40, rfl⟩
abbrev main_cst_0 : Ref sig .tc := ⟨.hbm, 41, rfl⟩
abbrev main_v8 : Ref sig .tc := ⟨.hbm, 42, rfl⟩
abbrev main_cst_1 : Ref sig .tc := ⟨.hbm, 43, rfl⟩
abbrev main_v9 : Ref sig .tc := ⟨.hbm, 44, rfl⟩

abbrev nD : Nat := 1
abbrev τ : Topo := Topo.v7x

variable {F : FTy → Type} [FloatOps F]

class Facts₀ : Prop where
  reducesTo_S4096x32000_S4096_d1 : S4096x32000.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x32000_0_1 : S4096x1.BroadcastsInDim S4096x32000 (![0, 1] : Fin 2 → Fin S4096x32000.rank)
  reducesTo_S4096_S_d0 : S4096.ReducesTo [0] S_
  dot_S4096x1024_S32000x1024_S4096x32000_1_1_0_0_n_n_wf : DotDims.WF S4096x1024 S32000x1024 S4096x32000 [1] [1] [0] [0] [] []

variable [Facts₀]

def dot_S4096x1024_S32000x1024_S4096x32000_1_1_0_0_n_n : DotDims S4096x1024 S32000x1024 S4096x32000 where
  lhsContracting := [1]
  rhsContracting := [1]
  lhsNonContracting := [0]
  rhsNonContracting := [0]
  lhsBatch := []
  rhsBatch := []
  wf := dot_S4096x1024_S32000x1024_S4096x32000_1_1_0_0_n_n_wf

class Facts : Prop extends Facts₀ where

variable [Facts]
-- ==== Proof.KRuns.lean ====
import proofs.«130548_j68985764708849_2_alg».proof.Proof.Gen.Kernel.Frame
import proofs.«130548_j68985764708849_2_alg».proof.Proof.Gen.Kernel.Skeleton

set_option maxRecDepth 16384

noncomputable section

namespace Cert.Kernel.Body

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## When the two conditionals of the body are taken

The grid is 2 row-tiles by 125 vocabulary chunks, the chunk the fast coordinate. The first conditional (reset the running
statistics) is taken at chunk 0, the second (write the row-tile's result) at chunk 124. -/

/-- The first conditional's condition: the chunk coordinate is 0. -/
abbrev cond0 (i : grid0.Coords) : Prop := (Scalar.cmpi .ne (Scalar.extui (Scalar.cmpi .eq (BitVec.ofNat 32 (i 1).val) 0#32)) 0#32) = 1#1
/-- The second conditional's condition: the chunk coordinate is 124. -/
abbrev cond1 (i : grid0.Coords) : Prop := k0_cond2 i = 1#1

theorem hcond0 : ∀ t : Fin cfg0.N, cond0 (grid0.coords t) ↔ t.val % 125 = 0 :=
  (by decide +kernel : ∀ t : Fin grid0.N, cond0 (grid0.coords t) ↔ t.val % 125 = 0)
theorem hcond1 : ∀ t : Fin cfg0.N, cond1 (grid0.coords t) ↔ t.val % 125 = 124 :=
  (by decide +kernel : ∀ t : Fin grid0.N, cond1 (grid0.coords t) ↔ t.val % 125 = 124)

/-- The input windows are never idle. -/
theorem live0 : ∀ t : Fin cfg0.N, cfg0.idle 0 (grid0.coords t) = false := fun _ => rfl
theorem live1 : ∀ t : Fin cfg0.N, cfg0.idle 1 (grid0.coords t) = false := fun _ => rfl
theorem live2 : ∀ t : Fin cfg0.N, cfg0.idle 2 (grid0.coords t) = false := fun _ => rfl
theorem live3 : ∀ t : Fin cfg0.N, cfg0.idle 3 (grid0.coords t) = false := fun _ => rfl
/-- The output window is idle away from chunk 124, and not written back there; at chunk 124 it is live. -/
theorem idle4 : ∀ t : Fin cfg0.N, ¬cond1 (grid0.coords t) → cfg0.idle 4 (grid0.coords t) = true := by decide +kernel
theorem noFlush4 : ∀ t : Fin cfg0.N, ¬cond1 (grid0.coords t) → (cfg0.win 4).flush t = false := by decide +kernel
theorem live4 : ∀ t : Fin cfg0.N, cond1 (grid0.coords t) → cfg0.idle 4 (grid0.coords t) = false := by decide +kernel

/-! ## The memrefs the body is called with -/

abbrev ms0 (t : Fin cfg0.N) : Memref sig .tc .vmem S2048x1024 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S2048x1024 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S256x1024 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S256x1024 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S2048x1 .f32 := win0_4.stage (cfg0.slots t 4)
abbrev hs4 (t : Fin cfg0.N) : (ms4 t).IsWhole := hstage0_4 ((cfg0.slots t 4).cast nbuf0_4)
/-- The scratch that carries the five running statistics (columns 0 to 4 of a [2048, 8] buffer). -/
abbrev scM : Memref sig .tc .vmem S2048x8 .f32 := Memref.whole cc0_scratch0
theorem hscM : (scM).IsWhole := Memref.isWhole_whole _

/-- What the launch hands the region: the scratch at some contents and the generator register at some state. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-! ## The body run once per case

Each run takes the four input blocks, the scratch at any contents `xs` and the output buffer at any contents, and ends with
the inputs as they were and the scratch (and, at chunk 124, the output buffer) at its old contents overwritten by the
stores the run met, listed last first. -/

set_option maxHeartbeats 4000000 in
/-- Chunk 0 of a row-tile: the statistics are reset, then updated by the chunk. -/
noncomputable def runA (c : Dev nD) (i : grid0.Coords) (arg2 : Memref sig .tc .vmem S2048x1024 .bf16) (harg2 : arg2.IsWhole) (arg3 : Memref sig .tc .vmem S2048x1024 .bf16) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S2048x1 .f32) (harg6 : arg6.IsWhole) (arg7 : Memref sig .tc .vmem S2048x8 .f32) (harg7 : arg7.IsWhole) (hc0 : cond0 i) (hc1 : ¬cond1 i)
    (x0 : Vec F S2048x1024 .bf16) (x1 : Vec F S2048x1024 .bf16) (x2 : Vec F S256x1024 .bf16) (x3 : Vec F S256x1024 .bf16) (xs : Vec F S2048x8 .f32) :
    { LS : List (View.Piece (Elt F) S2048x8 .f32) //
      ∀ (xi4 : Vec F S2048x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (arg7.view.loc (c : Thread nD τ) ↦[arg7.view.set]{fullShare} arg7.view.writes (Elt F) (harg7.unread xs) LS)) -∗ K ⟨⟩))
          ⊢ wp frame (wpE (defs₀ (F := F)) Variants.none c none) E (cc0__kl_kernel i arg2 harg2 arg3 harg3 arg4 harg4 arg5 harg5 arg6 harg6 arg7 harg7) K } := by
  refine ⟨?_, fun xi4 E K => ?run⟩
  case run =>
    simp only [cc0__kl_kernel_eq_skeleton]; unfold cc0__kl_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexact HS0

set_option maxHeartbeats 4000000 in
/-- A middle chunk: the statistics are updated by the chunk. -/
noncomputable def runB (c : Dev nD) (i : grid0.Coords) (arg2 : Memref sig .tc .vmem S2048x1024 .bf16) (harg2 : arg2.IsWhole) (arg3 : Memref sig .tc .vmem S2048x1024 .bf16) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S2048x1 .f32) (harg6 : arg6.IsWhole) (arg7 : Memref sig .tc .vmem S2048x8 .f32) (harg7 : arg7.IsWhole) (hc0 : ¬cond0 i) (hc1 : ¬cond1 i)
    (x0 : Vec F S2048x1024 .bf16) (x1 : Vec F S2048x1024 .bf16) (x2 : Vec F S256x1024 .bf16) (x3 : Vec F S256x1024 .bf16) (xs : Vec F S2048x8 .f32) :
    { LS : List (View.Piece (Elt F) S2048x8 .f32) //
      ∀ (xi4 : Vec F S2048x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (arg7.view.loc (c : Thread nD τ) ↦[arg7.view.set]{fullShare} arg7.view.writes (Elt F) (harg7.unread xs) LS)) -∗ K ⟨⟩))
          ⊢ wp frame (wpE (defs₀ (F := F)) Variants.none c none) E (cc0__kl_kernel i arg2 harg2 arg3 harg3 arg4 harg4 arg5 harg5 arg6 harg6 arg7 harg7) K } := by
  refine ⟨?_, fun xi4 E K => ?run⟩
  case run =>
    simp only [cc0__kl_kernel_eq_skeleton]; unfold cc0__kl_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexact HS0

set_option maxHeartbeats 4000000 in
/-- Chunk 124: the statistics are updated by the chunk, then the row-tile's result is stored into the output buffer. -/
noncomputable def runC (c : Dev nD) (i : grid0.Coords) (arg2 : Memref sig .tc .vmem S2048x1024 .bf16) (harg2 : arg2.IsWhole) (arg3 : Memref sig .tc .vmem S2048x1024 .bf16) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S2048x1 .f32) (harg6 : arg6.IsWhole) (arg7 : Memref sig .tc .vmem S2048x8 .f32) (harg7 : arg7.IsWhole) (hc0 : ¬cond0 i) (hc1 : cond1 i)
    (x0 : Vec F S2048x1024 .bf16) (x1 : Vec F S2048x1024 .bf16) (x2 : Vec F S256x1024 .bf16) (x3 : Vec F S256x1024 .bf16) (xs : Vec F S2048x8 .f32) (xi4 : Vec F S2048x1 .f32) :
    Σ' (L4 : List (View.Piece (Elt F) S2048x1 .f32)), { LS : List (View.Piece (Elt F) S2048x8 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ (arg6.view.loc (c : Thread nD τ) ↦[arg6.view.set]{fullShare} arg6.view.writes (Elt F) (harg6.unread xi4) L4) ∗ (arg7.view.loc (c : Thread nD τ) ↦[arg7.view.set]{fullShare} arg7.view.writes (Elt F) (harg7.unread xs) LS)) -∗ K ⟨⟩))
          ⊢ wp frame (wpE (defs₀ (F := F)) Variants.none c none) E (cc0__kl_kernel i arg2 harg2 arg3 harg3 arg4 harg4 arg5 harg5 arg6 harg6 arg7 harg7) K } := by
  refine ⟨?_, ?_, fun E K => ?run⟩
  case run =>
    simp only [cc0__kl_kernel_eq_skeleton]; unfold cc0__kl_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexact H4
    iexact HS0

end Cert.Kernel.Body

end
-- ==== Proof.KCols.lean ====
import proofs.«130548_j68985764708849_2_alg».proof.Proof.KRuns
import Idealize.ShloMosaic.Lib.Pipeline.Value
import Idealize.ShloMosaic.Lib.Writes

set_option maxRecDepth 16384

noncomputable section

namespace Cert.Kernel.Body

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The scratch, column by column

The scratch is a [2048, 8] buffer of which the body only ever touches columns 0 to 4, one whole column at a time. A read of
a column after a list of column stores is the payload of the latest store into that column, and the old contents if there
is none. -/

/-- Column `j` of the scratch as a rectangle. -/
abbrev cr (j : ℕ) (h : ∀ a, (![0, j] : Fin 2 → Nat) a + S2048x1.size a ≤ S2048x8.size a) : Rect S2048x8 :=
  Rect.unit (s := S2048x8) ![0, j] S2048x1.size h

/-- Column `j` of contents `X` of the scratch's shape. -/
def colOf (j : ℕ) (h : ∀ a, (![0, j] : Fin 2 → Nat) a + S2048x1.size a ≤ S2048x8.size a) (X : Vec F S2048x8 .f32) :
    Vec F S2048x1 .f32 := View.ld X (cr j h)

/-- A column read back right after a store into it is the store's payload. -/
theorem col_hit {κ : Kind} {sp : Space} (v : View sig κ sp S2048x8 .f32) (f : v.ty.Contents (Elt F)) (j : ℕ) (h h')
    (w : (cr j h').shape.Idx → Elt F .f32) (L : List (View.Piece (Elt F) S2048x8 .f32)) :
    colOf j h (v.read (Elt F) (v.writes (Elt F) f (⟨cr j h', w⟩ :: L))) = w := by
  funext y
  exact View.read_writes_cons_emb (v := v) (f := f) (cr j h') w L y

/-- A store into another column does not show in this one. -/
theorem col_miss {κ : Kind} {sp : Space} (v : View sig κ sp S2048x8 .f32) (f : v.ty.Contents (Elt F)) (j k : ℕ) (hne : j ≠ k) (h h')
    (w : (cr k h').shape.Idx → Elt F .f32) (L : List (View.Piece (Elt F) S2048x8 .f32)) :
    colOf j h (v.read (Elt F) (v.writes (Elt F) f (⟨cr k h', w⟩ :: L))) = colOf j h (v.read (Elt F) (v.writes (Elt F) f L)) := by
  funext y
  show v.read (Elt F) (v.writes (Elt F) f (_ :: L)) ((cr j h).emb y) = v.read (Elt F) (v.writes (Elt F) f L) ((cr j h).emb y)
  rw [View.writes_cons]
  apply View.read_slice_write_of_not_mem
  rw [Rect.map_emb_univ]
  intro hm
  have hm' : (cr j h).emb y ∈ (cr k h').set := hm
  have h1 := (Rect.mem_set_unit.mp hm') 1
  have h2 : (((cr j h).emb y) 1 : ℕ) = j + 1 * (y 1).val := rfl
  have h3 : (y 1).val < 1 := (y 1).isLt
  simp only [Matrix.cons_val_one, Matrix.cons_val_zero, Matrix.head_cons] at h1
  have h4 : S2048x1.size 1 = 1 := rfl
  omega

/-- A covered load of a column is the column of the stores read back over any prior contents. -/
theorem readCov_col {κ : Kind} {sp : Space} (v : View sig κ sp S2048x8 .f32) (L : List (View.Piece (Elt F) S2048x8 .f32)) (j : ℕ) (h) :
    v.readCov L (cr j h).toLoadRect = colOf j h (v.read (Elt F) (v.writes (Elt F) v.junk L)) := rfl

/-- A load of a column off the scratch's entry contents. -/
theorem readAt_col (m7 : Memref sig .tc .vmem S2048x8 .f32) (h7 : m7.IsWhole) (xs : Vec F S2048x8 .f32) (j : ℕ) (h) :
    View.readAt (Elt F) m7.view (cr j h).toLoadRect (h7.unread xs) = colOf j h xs := by
  rw [View.readAt_eq_ld, h7.read_unread]; rfl

/-- The five running statistics of the 2048 rows of a row-tile, a column each: the student's running maximum and sum, the
    teacher's running maximum and sum, the weighted-difference sum. -/
structure Cols (F : FTy → Type) [FloatOps F] where
  c0 : Vec F S2048x1 .f32
  c1 : Vec F S2048x1 .f32
  c2 : Vec F S2048x1 .f32
  c3 : Vec F S2048x1 .f32
  c4 : Vec F S2048x1 .f32

/-- The five columns of the scratch's contents. -/
def colsOf (X : Vec F S2048x8 .f32) : Cols F :=
  ⟨colOf 0 inb_S2048x8_S2048x1_0_0 X, colOf 1 inb_S2048x8_S2048x1_0_1 X, colOf 2 inb_S2048x8_S2048x1_0_2 X,
   colOf 3 inb_S2048x8_S2048x1_0_3 X, colOf 4 inb_S2048x8_S2048x1_0_4 X⟩

/-- The statistics as the reset leaves them: maxima at the −∞ word, sums at the zero word. -/
def initCols : Cols F := ⟨k0_pay10, k0_pay11, k0_pay12, k0_pay13, k0_pay14⟩

/-- One chunk's update of the statistics, from the four input blocks (student activations, teacher activations, student
    weights, teacher weights): the body's arithmetic, by its named payloads. -/
def next (x0 x1 : Vec F S2048x1024 .bf16) (x2 x3 : Vec F S256x1024 .bf16) (k : Cols F) : Cols F :=
  ⟨k0_pay18 x0 x2 k.c0, k0_pay19 x0 x2 k.c0 k.c1, k0_pay4 (k0_pay16 x1 x3) k.c2, k0_pay5 (k0_pay16 x1 x3) k.c2 k.c3,
   k0_pay6 (k0_pay15 x0 x2) (k0_pay16 x1 x3) k.c2 k.c4⟩

/-- The row-tile's result from the final statistics. -/
def outOf (k : Cols F) : Vec F S2048x1 .f32 := k0_pay7 k.c0 k.c1 k.c2 k.c3 k.c4

theorem hz2 : (![0, 0] : Fin 2 → ℕ) = fun _ => 0 := by funext a; fin_cases a <;> rfl

/-- A middle chunk leaves the statistics updated by the chunk. -/
theorem runB_cols (c : Dev nD) (i : grid0.Coords) (arg2 : Memref sig .tc .vmem S2048x1024 .bf16) (harg2 : arg2.IsWhole) (arg3 : Memref sig .tc .vmem S2048x1024 .bf16) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S2048x1 .f32) (harg6 : arg6.IsWhole) (arg7 : Memref sig .tc .vmem S2048x8 .f32) (harg7 : arg7.IsWhole) (hc0 : ¬cond0 i) (hc1 : ¬cond1 i)
    (x0 : Vec F S2048x1024 .bf16) (x1 : Vec F S2048x1024 .bf16) (x2 : Vec F S256x1024 .bf16) (x3 : Vec F S256x1024 .bf16) (xs : Vec F S2048x8 .f32) :
    colsOf (arg7.view.read (Elt F) (arg7.view.writes (Elt F) (harg7.unread xs) (runB c i arg2 harg2 arg3 harg3 arg4 harg4 arg5 harg5 arg6 harg6 arg7 harg7 hc0 hc1 x0 x1 x2 x3 xs).1))
      = next x0 x1 x2 x3 (colsOf xs) := by
  show Cols.mk _ _ _ _ _ = Cols.mk _ _ _ _ _
  congr 1
  all_goals
    unfold runB; dsimp only; sl_unfold_words
    simp only [readCov_col _ _ 0, readCov_col _ _ 1, readCov_col _ _ 2, readCov_col _ _ 3, readCov_col _ _ 4, readAt_col _ _ _ 0, readAt_col _ _ _ 1, readAt_col _ _ _ 2, readAt_col _ _ _ 3, readAt_col _ _ _ 4]
    simp only [col_hit _ _ 0, col_hit _ _ 1, col_hit _ _ 2, col_hit _ _ 3, col_hit _ _ 4, col_miss _ _ 0 1 (by decide), col_miss _ _ 0 2 (by decide), col_miss _ _ 0 3 (by decide), col_miss _ _ 0 4 (by decide), col_miss _ _ 1 0 (by decide), col_miss _ _ 1 2 (by decide), col_miss _ _ 1 3 (by decide), col_miss _ _ 1 4 (by decide), col_miss _ _ 2 0 (by decide), col_miss _ _ 2 1 (by decide), col_miss _ _ 2 3 (by decide), col_miss _ _ 2 4 (by decide), col_miss _ _ 3 0 (by decide), col_miss _ _ 3 1 (by decide), col_miss _ _ 3 2 (by decide), col_miss _ _ 3 4 (by decide), col_miss _ _ 4 0 (by decide), col_miss _ _ 4 1 (by decide), col_miss _ _ 4 2 (by decide), col_miss _ _ 4 3 (by decide)]
    simp only [View.readAt_eq_ld, Memref.IsWhole.read_unread, View.ld_unit_zero (S := S2048x1024) hz2, View.ld_unit_zero (S := S256x1024) hz2]
    try rfl

/-- Chunk 0 leaves the reset statistics updated by the chunk, whatever the scratch held. -/
theorem runA_cols (c : Dev nD) (i : grid0.Coords) (arg2 : Memref sig .tc .vmem S2048x1024 .bf16) (harg2 : arg2.IsWhole) (arg3 : Memref sig .tc .vmem S2048x1024 .bf16) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S2048x1 .f32) (harg6 : arg6.IsWhole) (arg7 : Memref sig .tc .vmem S2048x8 .f32) (harg7 : arg7.IsWhole) (hc0 : cond0 i) (hc1 : ¬cond1 i)
    (x0 : Vec F S2048x1024 .bf16) (x1 : Vec F S2048x1024 .bf16) (x2 : Vec F S256x1024 .bf16) (x3 : Vec F S256x1024 .bf16) (xs : Vec F S2048x8 .f32) :
    colsOf (arg7.view.read (Elt F) (arg7.view.writes (Elt F) (harg7.unread xs) (runA c i arg2 harg2 arg3 harg3 arg4 harg4 arg5 harg5 arg6 harg6 arg7 harg7 hc0 hc1 x0 x1 x2 x3 xs).1))
      = next x0 x1 x2 x3 initCols := by
  show Cols.mk _ _ _ _ _ = Cols.mk _ _ _ _ _
  congr 1
  all_goals
    unfold runA; dsimp only; sl_unfold_words
    simp only [readCov_col _ _ 0, readCov_col _ _ 1, readCov_col _ _ 2, readCov_col _ _ 3, readCov_col _ _ 4, readAt_col _ _ _ 0, readAt_col _ _ _ 1, readAt_col _ _ _ 2, readAt_col _ _ _ 3, readAt_col _ _ _ 4]
    simp only [col_hit _ _ 0, col_hit _ _ 1, col_hit _ _ 2, col_hit _ _ 3, col_hit _ _ 4, col_miss _ _ 0 1 (by decide), col_miss _ _ 0 2 (by decide), col_miss _ _ 0 3 (by decide), col_miss _ _ 0 4 (by decide), col_miss _ _ 1 0 (by decide), col_miss _ _ 1 2 (by decide), col_miss _ _ 1 3 (by decide), col_miss _ _ 1 4 (by decide), col_miss _ _ 2 0 (by decide), col_miss _ _ 2 1 (by decide), col_miss _ _ 2 3 (by decide), col_miss _ _ 2 4 (by decide), col_miss _ _ 3 0 (by decide), col_miss _ _ 3 1 (by decide), col_miss _ _ 3 2 (by decide), col_miss _ _ 3 4 (by decide), col_miss _ _ 4 0 (by decide), col_miss _ _ 4 1 (by decide), col_miss _ _ 4 2 (by decide), col_miss _ _ 4 3 (by decide)]
    simp only [View.readAt_eq_ld, Memref.IsWhole.read_unread, View.ld_unit_zero (S := S2048x1024) hz2, View.ld_unit_zero (S := S256x1024) hz2]
    try rfl

/-- Chunk 124 leaves the statistics updated by the chunk, -/
theorem runC_cols (c : Dev nD) (i : grid0.Coords) (arg2 : Memref sig .tc .vmem S2048x1024 .bf16) (harg2 : arg2.IsWhole) (arg3 : Memref sig .tc .vmem S2048x1024 .bf16) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S2048x1 .f32) (harg6 : arg6.IsWhole) (arg7 : Memref sig .tc .vmem S2048x8 .f32) (harg7 : arg7.IsWhole) (hc0 : ¬cond0 i) (hc1 : cond1 i)
    (x0 : Vec F S2048x1024 .bf16) (x1 : Vec F S2048x1024 .bf16) (x2 : Vec F S256x1024 .bf16) (x3 : Vec F S256x1024 .bf16) (xs : Vec F S2048x8 .f32) (xi4 : Vec F S2048x1 .f32) :
    colsOf (arg7.view.read (Elt F) (arg7.view.writes (Elt F) (harg7.unread xs) (runC c i arg2 harg2 arg3 harg3 arg4 harg4 arg5 harg5 arg6 harg6 arg7 harg7 hc0 hc1 x0 x1 x2 x3 xs xi4).2.1))
      = next x0 x1 x2 x3 (colsOf xs) := by
  show Cols.mk _ _ _ _ _ = Cols.mk _ _ _ _ _
  congr 1
  all_goals
    unfold runC; dsimp only; sl_unfold_words
    simp only [readCov_col _ _ 0, readCov_col _ _ 1, readCov_col _ _ 2, readCov_col _ _ 3, readCov_col _ _ 4, readAt_col _ _ _ 0, readAt_col _ _ _ 1, readAt_col _ _ _ 2, readAt_col _ _ _ 3, readAt_col _ _ _ 4]
    simp only [col_hit _ _ 0, col_hit _ _ 1, col_hit _ _ 2, col_hit _ _ 3, col_hit _ _ 4, col_miss _ _ 0 1 (by decide), col_miss _ _ 0 2 (by decide), col_miss _ _ 0 3 (by decide), col_miss _ _ 0 4 (by decide), col_miss _ _ 1 0 (by decide), col_miss _ _ 1 2 (by decide), col_miss _ _ 1 3 (by decide), col_miss _ _ 1 4 (by decide), col_miss _ _ 2 0 (by decide), col_miss _ _ 2 1 (by decide), col_miss _ _ 2 3 (by decide), col_miss _ _ 2 4 (by decide), col_miss _ _ 3 0 (by decide), col_miss _ _ 3 1 (by decide), col_miss _ _ 3 2 (by decide), col_miss _ _ 3 4 (by decide), col_miss _ _ 4 0 (by decide), col_miss _ _ 4 1 (by decide), col_miss _ _ 4 2 (by decide), col_miss _ _ 4 3 (by decide)]
    simp only [View.readAt_eq_ld, Memref.IsWhole.read_unread, View.ld_unit_zero (S := S2048x1024) hz2, View.ld_unit_zero (S := S256x1024) hz2]
    try rfl

theorem hz2' : (![0, 0] : Fin 2 → ℕ) = fun _ => 0 := hz2

/-- and the output buffer at the result of the updated statistics. -/
theorem runC_out (c : Dev nD) (i : grid0.Coords) (arg2 : Memref sig .tc .vmem S2048x1024 .bf16) (harg2 : arg2.IsWhole) (arg3 : Memref sig .tc .vmem S2048x1024 .bf16) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S2048x1 .f32) (harg6 : arg6.IsWhole) (arg7 : Memref sig .tc .vmem S2048x8 .f32) (harg7 : arg7.IsWhole) (hc0 : ¬cond0 i) (hc1 : cond1 i)
    (x0 : Vec F S2048x1024 .bf16) (x1 : Vec F S2048x1024 .bf16) (x2 : Vec F S256x1024 .bf16) (x3 : Vec F S256x1024 .bf16) (xs : Vec F S2048x8 .f32) (xi4 : Vec F S2048x1 .f32) :
    arg6.view.read (Elt F) (arg6.view.writes (Elt F) (harg6.unread xi4) (runC c i arg2 harg2 arg3 harg3 arg4 harg4 arg5 harg5 arg6 harg6 arg7 harg7 hc0 hc1 x0 x1 x2 x3 xs xi4).1)
      = outOf (next x0 x1 x2 x3 (colsOf xs)) := by
  unfold runC; dsimp only; sl_unfold_words
  rw [View.read_writes_eq_canon _ _ _ (fun y => ⟨_, List.mem_singleton_self _, View.mem_set_unit_zero hz2 inb_S2048x1_S2048x1_0_0 y⟩), View.canon_unit_zero hz2]
  simp only [readCov_col _ _ 0, readCov_col _ _ 1, readCov_col _ _ 2, readCov_col _ _ 3, readCov_col _ _ 4, readAt_col _ _ _ 0, readAt_col _ _ _ 1, readAt_col _ _ _ 2, readAt_col _ _ _ 3, readAt_col _ _ _ 4]
  simp only [col_hit _ _ 0, col_hit _ _ 1, col_hit _ _ 2, col_hit _ _ 3, col_hit _ _ 4, col_miss _ _ 0 1 (by decide), col_miss _ _ 0 2 (by decide), col_miss _ _ 0 3 (by decide), col_miss _ _ 0 4 (by decide), col_miss _ _ 1 0 (by decide), col_miss _ _ 1 2 (by decide), col_miss _ _ 1 3 (by decide), col_miss _ _ 1 4 (by decide), col_miss _ _ 2 0 (by decide), col_miss _ _ 2 1 (by decide), col_miss _ _ 2 3 (by decide), col_miss _ _ 2 4 (by decide), col_miss _ _ 3 0 (by decide), col_miss _ _ 3 1 (by decide), col_miss _ _ 3 2 (by decide), col_miss _ _ 3 4 (by decide), col_miss _ _ 4 0 (by decide), col_miss _ _ 4 1 (by decide), col_miss _ _ 4 2 (by decide), col_miss _ _ 4 3 (by decide)]
  simp only [View.readAt_eq_ld, Memref.IsWhole.read_unread, View.ld_unit_zero (S := S2048x1024) hz2, View.ld_unit_zero (S := S256x1024) hz2]
  try rfl

end Cert.Kernel.Body

end
-- ==== Proof.KFrame.lean ====
import proofs.«130548_j68985764708849_2_alg».proof.Proof.KCols

set_option maxRecDepth 16384

noncomputable section

namespace Cert.Kernel.Body

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The statistics after each grid point

Point `n` is chunk `n % 125` of row-tile `n / 125`. At chunk 0 the statistics are reset and then updated by the chunk; at
every other chunk what the point before left is updated by the chunk. -/

/-- The five columns of the scratch after the body at point `n`. -/
def colsAt (c : Dev nD) : (n : ℕ) → n < cfg0.N → Cols F
  | 0, hn => next (iblk m c 0 ⟨0, hn⟩) (iblk m c 1 ⟨0, hn⟩) (iblk m c 2 ⟨0, hn⟩) (iblk m c 3 ⟨0, hn⟩) initCols
  | n + 1, hn =>
    if (n + 1) % 125 = 0 then next (iblk m c 0 ⟨n + 1, hn⟩) (iblk m c 1 ⟨n + 1, hn⟩) (iblk m c 2 ⟨n + 1, hn⟩) (iblk m c 3 ⟨n + 1, hn⟩) initCols
    else next (iblk m c 0 ⟨n + 1, hn⟩) (iblk m c 1 ⟨n + 1, hn⟩) (iblk m c 2 ⟨n + 1, hn⟩) (iblk m c 3 ⟨n + 1, hn⟩) (colsAt c n (Nat.lt_of_succ_lt hn))

theorem colsAt_first (c : Dev nD) (t : Fin cfg0.N) (h0 : t.val % 125 = 0) :
    colsAt m c t.val t.isLt = next (iblk m c 0 t) (iblk m c 1 t) (iblk m c 2 t) (iblk m c 3 t) initCols := by
  obtain ⟨n, hn⟩ := t
  cases n with
  | zero => rfl
  | succ n => exact (if_pos h0)

theorem colsAt_later (c : Dev nD) (t : Fin cfg0.N) (h0 : ¬t.val % 125 = 0) :
    colsAt m c t.val t.isLt = next (iblk m c 0 t) (iblk m c 1 t) (iblk m c 2 t) (iblk m c 3 t) (colsAt m c (t.val - 1) (Nat.lt_of_le_of_lt (Nat.sub_le _ _) t.isLt)) := by
  obtain ⟨n, hn⟩ := t
  cases n with
  | zero => exact absurd (Nat.zero_mod _) h0
  | succ n => exact (if_neg h0)

/-- The region invariant before position `n`: before the first point the launch's (the scratch at anything); afterwards
    the scratch at SOME contents whose five statistic columns are what the point before left, and the generator register
    at some state. (Columns 5 to 7 of the scratch are never stored, so its whole contents are not a function of the
    arguments; its first five columns are.) -/
def PhiS (c : Dev nD) : (n : ℕ) → n ≤ cfg0.N → sProp 𝕄
  | 0, _ => Pipeline.ΦA spec0 c
  | n + 1, hn => iprop(iprop(∃ xs, owns (c : Thread nD τ) scM fullShare xs ∗ ⌜colsOf xs = colsAt m c n hn⌝) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(∃ xs, owns (c : Thread nD τ) scM fullShare xs ∗ ⌜colsOf xs = colsAt m c n hn⌝) ∗ (∃ r, prngReg c r)) := rfl

theorem PhiS_pos (c : Dev nD) (n : ℕ) (h : n ≤ cfg0.N) (hz : n ≠ 0) :
    PhiS m c n h = iprop(iprop(∃ xs, owns (c : Thread nD τ) scM fullShare xs ∗ ⌜colsOf xs = colsAt m c (n - 1) (by omega)⌝) ∗ (∃ r, prngReg c r)) := by
  cases n with
  | zero => exact absurd rfl hz
  | succ n => rfl

/-! ## The pipeline's proof data -/

/-- The arrays as the region finds them; after the body each input's buffer at its block, the output's at the result of
    the statistics so far (meaningful at chunk 124, where it is stored and written back; elsewhere the window is idle). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outOf (colsAt m c t.val t.isLt)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = outOf (colsAt m c t.val t.isLt) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem leaves0 (c : Dev nD) (t : Fin cfg0.N) : (dats m 0 c).leavesExact 0 t = owns (c : Thread nD τ) (ms0 t) fullShare (iblk m c 0 t) := by
  unfold Dat.leavesExact; rw [live0 t, after0]
theorem leaves1 (c : Dev nD) (t : Fin cfg0.N) : (dats m 0 c).leavesExact 1 t = owns (c : Thread nD τ) (ms1 t) fullShare (iblk m c 1 t) := by
  unfold Dat.leavesExact; rw [live1 t, after1]
theorem leaves2 (c : Dev nD) (t : Fin cfg0.N) : (dats m 0 c).leavesExact 2 t = owns (c : Thread nD τ) (ms2 t) fullShare (iblk m c 2 t) := by
  unfold Dat.leavesExact; rw [live2 t, after2]
theorem leaves3 (c : Dev nD) (t : Fin cfg0.N) : (dats m 0 c).leavesExact 3 t = owns (c : Thread nD τ) (ms3 t) fullShare (iblk m c 3 t) := by
  unfold Dat.leavesExact; rw [live3 t, after3]

set_option maxHeartbeats 4800000 in
/-- The body at any point, case by case on the chunk: chunk 0 resets and updates (whatever the scratch held), a middle chunk
    and chunk 124 update what the point before left; chunk 124 also stores the result; elsewhere the output window is idle
    and its buffer handed back untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves3]
  have hN : t.val < 250 := lt_of_lt_of_eq t.isLt (show cfg0.N = 250 from N_0)
  by_cases h0 : t.val % 125 = 0
  · have h1 : ¬t.val % 125 = 124 := by omega
    have hc0 : cond0 (grid0.coords t) := (hcond0 t).mpr h0
    have hc1 : ¬cond1 (grid0.coords t) := fun h => h1 ((hcond1 t).mp h)
    rw [Dat.leavesExact_idle (dats m 0 c) 4 t (idle4 t hc1) (noFlush4 t hc1)]
    by_cases hz : t.val = 0
    · rw [PhiS_castSucc m c t, PhiS_zero m c _ _ hz, PhiA_eq]
      iintro ⟨⟨⟨%ds, HS0⟩, Hg⟩, Ho, ⟨%d0, H0⟩, ⟨%d1, H1⟩, ⟨%d2, H2⟩, ⟨%d3, H3⟩, ⟨%d4, H4⟩⟩
      iapply ((runA c (grid0.coords t) _ _ _ _ _ _ _ _ _ _ _ _ hc0 hc1 (iblk m c 0 t) (iblk m c 1 t) (iblk m c 2 t) (iblk m c 3 t) ds).2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, HS0⟩
      isplitl [HS0 Hg]
      · isplitl [HS0]
        · iexists _; isplitl [HS0]
          · unfold owns; iexists _; isplitr
            swap; · iexact HS0
            ipureintro; rfl
          ipureintro
          exact (runA_cols c (grid0.coords t) _ _ _ _ _ _ _ _ _ _ _ _ hc0 hc1 (iblk m c 0 t) (iblk m c 1 t) (iblk m c 2 t) (iblk m c 3 t) ds).trans (colsAt_first m c t h0).symm
        iexact Hg
      isplitl [Ho]; · iexact Ho
      isplitl [H0]; · iexact H0
      isplitl [H1]; · iexact H1
      isplitl [H2]; · iexact H2
      isplitl [H3]; · iexact H3
      iexists _; iexact H4
    · rw [PhiS_castSucc m c t, PhiS_pos m c _ _ hz]
      iintro ⟨⟨⟨%ds, HS0, %hds⟩, Hg⟩, Ho, ⟨%d0, H0⟩, ⟨%d1, H1⟩, ⟨%d2, H2⟩, ⟨%d3, H3⟩, ⟨%d4, H4⟩⟩
      iapply ((runA c (grid0.coords t) _ _ _ _ _ _ _ _ _ _ _ _ hc0 hc1 (iblk m c 0 t) (iblk m c 1 t) (iblk m c 2 t) (iblk m c 3 t) ds).2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, HS0⟩
      isplitl [HS0 Hg]
      · isplitl [HS0]
        · iexists _; isplitl [HS0]
          · unfold owns; iexists _; isplitr
            swap; · iexact HS0
            ipureintro; rfl
          ipureintro
          exact (runA_cols c (grid0.coords t) _ _ _ _ _ _ _ _ _ _ _ _ hc0 hc1 (iblk m c 0 t) (iblk m c 1 t) (iblk m c 2 t) (iblk m c 3 t) ds).trans (colsAt_first m c t h0).symm
        iexact Hg
      isplitl [Ho]; · iexact Ho
      isplitl [H0]; · iexact H0
      isplitl [H1]; · iexact H1
      isplitl [H2]; · iexact H2
      isplitl [H3]; · iexact H3
      iexists _; iexact H4
  · have hc0 : ¬cond0 (grid0.coords t) := fun h => h0 ((hcond0 t).mp h)
    have hz : t.val ≠ 0 := fun hz => h0 (by rw [hz])
    rw [PhiS_castSucc m c t, PhiS_pos m c _ _ hz]
    by_cases h1 : t.val % 125 = 124
    · have hc1 : cond1 (grid0.coords t) := (hcond1 t).mpr h1
      rw [show (dats m 0 c).leavesExact 4 t = owns (c : Thread nD τ) (ms4 t) fullShare ((dats m 0 c).after 4 t) from by
        unfold Dat.leavesExact; rw [live4 t hc1], after4]
      iintro ⟨⟨⟨%ds, HS0, %hds⟩, Hg⟩, Ho, ⟨%d0, H0⟩, ⟨%d1, H1⟩, ⟨%d2, H2⟩, ⟨%d3, H3⟩, ⟨%d4, H4⟩⟩
      iapply ((runC c (grid0.coords t) _ _ _ _ _ _ _ _ _ _ _ _ hc0 hc1 (iblk m c 0 t) (iblk m c 1 t) (iblk m c 2 t) (iblk m c 3 t) ds _).2.2 Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, HS0⟩
      isplitl [HS0 Hg]
      · isplitl [HS0]
        · iexists _; isplitl [HS0]
          · unfold owns; iexists _; isplitr
            swap; · iexact HS0
            ipureintro; rfl
          ipureintro
          exact (runC_cols c (grid0.coords t) _ _ _ _ _ _ _ _ _ _ _ _ hc0 hc1 (iblk m c 0 t) (iblk m c 1 t) (iblk m c 2 t) (iblk m c 3 t) ds _).trans
            ((congrArg (next (iblk m c 0 t) (iblk m c 1 t) (iblk m c 2 t) (iblk m c 3 t)) hds).trans (colsAt_later m c t h0).symm)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro
      exact (runC_out c (grid0.coords t) _ _ _ _ _ _ _ _ _ _ _ _ hc0 hc1 (iblk m c 0 t) (iblk m c 1 t) (iblk m c 2 t) (iblk m c 3 t) ds _).trans
        (congrArg outOf ((congrArg (next (iblk m c 0 t) (iblk m c 1 t) (iblk m c 2 t) (iblk m c 3 t)) hds).trans (colsAt_later m c t h0).symm))
    · have hc1 : ¬cond1 (grid0.coords t) := fun h => h1 ((hcond1 t).mp h)
      rw [Dat.leavesExact_idle (dats m 0 c) 4 t (idle4 t hc1) (noFlush4 t hc1)]
      iintro ⟨⟨⟨%ds, HS0, %hds⟩, Hg⟩, Ho, ⟨%d0, H0⟩, ⟨%d1, H1⟩, ⟨%d2, H2⟩, ⟨%d3, H3⟩, ⟨%d4, H4⟩⟩
      iapply ((runB c (grid0.coords t) _ _ _ _ _ _ _ _ _ _ _ _ hc0 hc1 (iblk m c 0 t) (iblk m c 1 t) (iblk m c 2 t) (iblk m c 3 t) ds).2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, HS0⟩
      isplitl [HS0 Hg]
      · isplitl [HS0]
        · iexists _; isplitl [HS0]
          · unfold owns; iexists _; isplitr
            swap; · iexact HS0
            ipureintro; rfl
          ipureintro
          exact (runB_cols c (grid0.coords t) _ _ _ _ _ _ _ _ _ _ _ _ hc0 hc1 (iblk m c 0 t) (iblk m c 1 t) (iblk m c 2 t) (iblk m c 3 t) ds).trans
            ((congrArg (next (iblk m c 0 t) (iblk m c 1 t) (iblk m c 2 t) (iblk m c 3 t)) hds).trans (colsAt_later m c t h0).symm)
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨⟨%xs, HS0, -⟩, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 250 := N_0; omega)

/-! ## The run and the frame -/

set_option backward.isDefEq.respectTransparency.types false in
/-- Every weakly fair execution of @main terminates, nothing faulting, with every array of the pipeline at what the proof data
    says and every other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs to the end, faults nowhere, and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Body

end
-- ==== Proof.KIRuns.lean ====
import proofs.«130548_j68985764708849_2_alg».proof.Proof.Gen.KernelIdeal.Frame
import proofs.«130548_j68985764708849_2_alg».proof.Proof.Gen.KernelIdeal.Skeleton

set_option maxRecDepth 16384

noncomputable section

namespace Cert.KernelIdeal.Body

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## When the two conditionals of the body are taken

The grid is 2 row-tiles by 125 vocabulary chunks, the chunk the fast coordinate. The first conditional (reset the running
statistics) is taken at chunk 0, the second (write the row-tile's result) at chunk 124. -/

/-- The first conditional's condition: the chunk coordinate is 0. -/
abbrev cond0 (i : grid0.Coords) : Prop := (Scalar.cmpi .ne (Scalar.extui (Scalar.cmpi .eq (BitVec.ofNat 32 (i 1).val) 0#32)) 0#32) = 1#1
/-- The second conditional's condition: the chunk coordinate is 124. -/
abbrev cond1 (i : grid0.Coords) : Prop := k0_cond2 i = 1#1

theorem hcond0 : ∀ t : Fin cfg0.N, cond0 (grid0.coords t) ↔ t.val % 125 = 0 :=
  (by decide +kernel : ∀ t : Fin grid0.N, cond0 (grid0.coords t) ↔ t.val % 125 = 0)
theorem hcond1 : ∀ t : Fin cfg0.N, cond1 (grid0.coords t) ↔ t.val % 125 = 124 :=
  (by decide +kernel : ∀ t : Fin grid0.N, cond1 (grid0.coords t) ↔ t.val % 125 = 124)

/-- The input windows are never idle. -/
theorem live0 : ∀ t : Fin cfg0.N, cfg0.idle 0 (grid0.coords t) = false := fun _ => rfl
theorem live1 : ∀ t : Fin cfg0.N, cfg0.idle 1 (grid0.coords t) = false := fun _ => rfl
theorem live2 : ∀ t : Fin cfg0.N, cfg0.idle 2 (grid0.coords t) = false := fun _ => rfl
theorem live3 : ∀ t : Fin cfg0.N, cfg0.idle 3 (grid0.coords t) = false := fun _ => rfl
/-- The output window is idle away from chunk 124, and not written back there; at chunk 124 it is live. -/
theorem idle4 : ∀ t : Fin cfg0.N, ¬cond1 (grid0.coords t) → cfg0.idle 4 (grid0.coords t) = true := by decide +kernel
theorem noFlush4 : ∀ t : Fin cfg0.N, ¬cond1 (grid0.coords t) → (cfg0.win 4).flush t = false := by decide +kernel
theorem live4 : ∀ t : Fin cfg0.N, cond1 (grid0.coords t) → cfg0.idle 4 (grid0.coords t) = false := by decide +kernel

/-! ## The memrefs the body is called with -/

abbrev ms0 (t : Fin cfg0.N) : Memref sig .tc .vmem S2048x1024 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S2048x1024 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S256x1024 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S256x1024 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S2048x1 .f32 := win0_4.stage (cfg0.slots t 4)
abbrev hs4 (t : Fin cfg0.N) : (ms4 t).IsWhole := hstage0_4 ((cfg0.slots t 4).cast nbuf0_4)
/-- The scratch that carries the five running statistics (columns 0 to 4 of a [2048, 8] buffer). -/
abbrev scM : Memref sig .tc .vmem S2048x8 .f32 := Memref.whole cc0_scratch0
theorem hscM : (scM).IsWhole := Memref.isWhole_whole _

/-- What the launch hands the region: the scratch at some contents and the generator register at some state. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-! ## The body run once per case

Each run takes the four input blocks, the scratch at any contents `xs` and the output buffer at any contents, and ends with
the inputs as they were and the scratch (and, at chunk 124, the output buffer) at its old contents overwritten by the
stores the run met, listed last first. -/

set_option maxHeartbeats 4000000 in
/-- Chunk 0 of a row-tile: the statistics are reset, then updated by the chunk. -/
noncomputable def runA (c : Dev nD) (i : grid0.Coords) (arg2 : Memref sig .tc .vmem S2048x1024 .bf16) (harg2 : arg2.IsWhole) (arg3 : Memref sig .tc .vmem S2048x1024 .bf16) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S2048x1 .f32) (harg6 : arg6.IsWhole) (arg7 : Memref sig .tc .vmem S2048x8 .f32) (harg7 : arg7.IsWhole) (hc0 : cond0 i) (hc1 : ¬cond1 i)
    (x0 : Vec F S2048x1024 .bf16) (x1 : Vec F S2048x1024 .bf16) (x2 : Vec F S256x1024 .bf16) (x3 : Vec F S256x1024 .bf16) (xs : Vec F S2048x8 .f32) :
    { LS : List (View.Piece (Elt F) S2048x8 .f32) //
      ∀ (xi4 : Vec F S2048x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (arg7.view.loc (c : Thread nD τ) ↦[arg7.view.set]{fullShare} arg7.view.writes (Elt F) (harg7.unread xs) LS)) -∗ K ⟨⟩))
          ⊢ wp frame (wpE (defs₀ (F := F)) Variants.none c none) E (cc0__kl_kernel i arg2 harg2 arg3 harg3 arg4 harg4 arg5 harg5 arg6 harg6 arg7 harg7) K } := by
  refine ⟨?_, fun xi4 E K => ?run⟩
  case run =>
    simp only [cc0__kl_kernel_eq_skeleton]; unfold cc0__kl_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexact HS0

set_option maxHeartbeats 4000000 in
/-- A middle chunk: the statistics are updated by the chunk. -/
noncomputable def runB (c : Dev nD) (i : grid0.Coords) (arg2 : Memref sig .tc .vmem S2048x1024 .bf16) (harg2 : arg2.IsWhole) (arg3 : Memref sig .tc .vmem S2048x1024 .bf16) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S2048x1 .f32) (harg6 : arg6.IsWhole) (arg7 : Memref sig .tc .vmem S2048x8 .f32) (harg7 : arg7.IsWhole) (hc0 : ¬cond0 i) (hc1 : ¬cond1 i)
    (x0 : Vec F S2048x1024 .bf16) (x1 : Vec F S2048x1024 .bf16) (x2 : Vec F S256x1024 .bf16) (x3 : Vec F S256x1024 .bf16) (xs : Vec F S2048x8 .f32) :
    { LS : List (View.Piece (Elt F) S2048x8 .f32) //
      ∀ (xi4 : Vec F S2048x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (arg7.view.loc (c : Thread nD τ) ↦[arg7.view.set]{fullShare} arg7.view.writes (Elt F) (harg7.unread xs) LS)) -∗ K ⟨⟩))
          ⊢ wp frame (wpE (defs₀ (F := F)) Variants.none c none) E (cc0__kl_kernel i arg2 harg2 arg3 harg3 arg4 harg4 arg5 harg5 arg6 harg6 arg7 harg7) K } := by
  refine ⟨?_, fun xi4 E K => ?run⟩
  case run =>
    simp only [cc0__kl_kernel_eq_skeleton]; unfold cc0__kl_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexact HS0

set_option maxHeartbeats 4000000 in
/-- Chunk 124: the statistics are updated by the chunk, then the row-tile's result is stored into the output buffer. -/
noncomputable def runC (c : Dev nD) (i : grid0.Coords) (arg2 : Memref sig .tc .vmem S2048x1024 .bf16) (harg2 : arg2.IsWhole) (arg3 : Memref sig .tc .vmem S2048x1024 .bf16) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S2048x1 .f32) (harg6 : arg6.IsWhole) (arg7 : Memref sig .tc .vmem S2048x8 .f32) (harg7 : arg7.IsWhole) (hc0 : ¬cond0 i) (hc1 : cond1 i)
    (x0 : Vec F S2048x1024 .bf16) (x1 : Vec F S2048x1024 .bf16) (x2 : Vec F S256x1024 .bf16) (x3 : Vec F S256x1024 .bf16) (xs : Vec F S2048x8 .f32) (xi4 : Vec F S2048x1 .f32) :
    Σ' (L4 : List (View.Piece (Elt F) S2048x1 .f32)), { LS : List (View.Piece (Elt F) S2048x8 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ (arg6.view.loc (c : Thread nD τ) ↦[arg6.view.set]{fullShare} arg6.view.writes (Elt F) (harg6.unread xi4) L4) ∗ (arg7.view.loc (c : Thread nD τ) ↦[arg7.view.set]{fullShare} arg7.view.writes (Elt F) (harg7.unread xs) LS)) -∗ K ⟨⟩))
          ⊢ wp frame (wpE (defs₀ (F := F)) Variants.none c none) E (cc0__kl_kernel i arg2 harg2 arg3 harg3 arg4 harg4 arg5 harg5 arg6 harg6 arg7 harg7) K } := by
  refine ⟨?_, ?_, fun E K => ?run⟩
  case run =>
    simp only [cc0__kl_kernel_eq_skeleton]; unfold cc0__kl_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexact H4
    iexact HS0

end Cert.KernelIdeal.Body

end
-- ==== Proof.KICols.lean ====
import proofs.«130548_j68985764708849_2_alg».proof.Proof.KIRuns
import Idealize.ShloMosaic.Lib.Pipeline.Value
import Idealize.ShloMosaic.Lib.Writes

set_option maxRecDepth 16384

noncomputable section

namespace Cert.KernelIdeal.Body

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The scratch, column by column

The scratch is a [2048, 8] buffer of which the body only ever touches columns 0 to 4, one whole column at a time. A read of
a column after a list of column stores is the payload of the latest store into that column, and the old contents if there
is none. -/

/-- Column `j` of the scratch as a rectangle. -/
abbrev cr (j : ℕ) (h : ∀ a, (![0, j] : Fin 2 → Nat) a + S2048x1.size a ≤ S2048x8.size a) : Rect S2048x8 :=
  Rect.unit (s := S2048x8) ![0, j] S2048x1.size h

/-- Column `j` of contents `X` of the scratch's shape. -/
def colOf (j : ℕ) (h : ∀ a, (![0, j] : Fin 2 → Nat) a + S2048x1.size a ≤ S2048x8.size a) (X : Vec F S2048x8 .f32) :
    Vec F S2048x1 .f32 := View.ld X (cr j h)

/-- A column read back right after a store into it is the store's payload. -/
theorem col_hit {κ : Kind} {sp : Space} (v : View sig κ sp S2048x8 .f32) (f : v.ty.Contents (Elt F)) (j : ℕ) (h h')
    (w : (cr j h').shape.Idx → Elt F .f32) (L : List (View.Piece (Elt F) S2048x8 .f32)) :
    colOf j h (v.read (Elt F) (v.writes (Elt F) f (⟨cr j h', w⟩ :: L))) = w := by
  funext y
  exact View.read_writes_cons_emb (v := v) (f := f) (cr j h') w L y

/-- A store into another column does not show in this one. -/
theorem col_miss {κ : Kind} {sp : Space} (v : View sig κ sp S2048x8 .f32) (f : v.ty.Contents (Elt F)) (j k : ℕ) (hne : j ≠ k) (h h')
    (w : (cr k h').shape.Idx → Elt F .f32) (L : List (View.Piece (Elt F) S2048x8 .f32)) :
    colOf j h (v.read (Elt F) (v.writes (Elt F) f (⟨cr k h', w⟩ :: L))) = colOf j h (v.read (Elt F) (v.writes (Elt F) f L)) := by
  funext y
  show v.read (Elt F) (v.writes (Elt F) f (_ :: L)) ((cr j h).emb y) = v.read (Elt F) (v.writes (Elt F) f L) ((cr j h).emb y)
  rw [View.writes_cons]
  apply View.read_slice_write_of_not_mem
  rw [Rect.map_emb_univ]
  intro hm
  have hm' : (cr j h).emb y ∈ (cr k h').set := hm
  have h1 := (Rect.mem_set_unit.mp hm') 1
  have h2 : (((cr j h).emb y) 1 : ℕ) = j + 1 * (y 1).val := rfl
  have h3 : (y 1).val < 1 := (y 1).isLt
  simp only [Matrix.cons_val_one, Matrix.cons_val_zero, Matrix.head_cons] at h1
  have h4 : S2048x1.size 1 = 1 := rfl
  omega

/-- A covered load of a column is the column of the stores read back over any prior contents. -/
theorem readCov_col {κ : Kind} {sp : Space} (v : View sig κ sp S2048x8 .f32) (L : List (View.Piece (Elt F) S2048x8 .f32)) (j : ℕ) (h) :
    v.readCov L (cr j h).toLoadRect = colOf j h (v.read (Elt F) (v.writes (Elt F) v.junk L)) := rfl

/-- A load of a column off the scratch's entry contents. -/
theorem readAt_col (m7 : Memref sig .tc .vmem S2048x8 .f32) (h7 : m7.IsWhole) (xs : Vec F S2048x8 .f32) (j : ℕ) (h) :
    View.readAt (Elt F) m7.view (cr j h).toLoadRect (h7.unread xs) = colOf j h xs := by
  rw [View.readAt_eq_ld, h7.read_unread]; rfl

/-- The five running statistics of the 2048 rows of a row-tile, a column each: the student's running maximum and sum, the
    teacher's running maximum and sum, the weighted-difference sum. -/
structure Cols (F : FTy → Type) [FloatOps F] where
  c0 : Vec F S2048x1 .f32
  c1 : Vec F S2048x1 .f32
  c2 : Vec F S2048x1 .f32
  c3 : Vec F S2048x1 .f32
  c4 : Vec F S2048x1 .f32

/-- The five columns of the scratch's contents. -/
def colsOf (X : Vec F S2048x8 .f32) : Cols F :=
  ⟨colOf 0 inb_S2048x8_S2048x1_0_0 X, colOf 1 inb_S2048x8_S2048x1_0_1 X, colOf 2 inb_S2048x8_S2048x1_0_2 X,
   colOf 3 inb_S2048x8_S2048x1_0_3 X, colOf 4 inb_S2048x8_S2048x1_0_4 X⟩

/-- The statistics as the reset leaves them: maxima at the −∞ word, sums at the zero word. -/
def initCols : Cols F := ⟨k0_pay10, k0_pay11, k0_pay12, k0_pay13, k0_pay14⟩

/-- One chunk's update of the statistics, from the four input blocks (student activations, teacher activations, student
    weights, teacher weights): the body's arithmetic, by its named payloads. -/
def next (x0 x1 : Vec F S2048x1024 .bf16) (x2 x3 : Vec F S256x1024 .bf16) (k : Cols F) : Cols F :=
  ⟨k0_pay18 x0 x2 k.c0, k0_pay19 x0 x2 k.c0 k.c1, k0_pay4 (k0_pay16 x1 x3) k.c2, k0_pay5 (k0_pay16 x1 x3) k.c2 k.c3,
   k0_pay6 (k0_pay15 x0 x2) (k0_pay16 x1 x3) k.c2 k.c4⟩

/-- The row-tile's result from the final statistics. -/
def outOf (k : Cols F) : Vec F S2048x1 .f32 := k0_pay7 k.c0 k.c1 k.c2 k.c3 k.c4

theorem hz2 : (![0, 0] : Fin 2 → ℕ) = fun _ => 0 := by funext a; fin_cases a <;> rfl

/-- A middle chunk leaves the statistics updated by the chunk. -/
theorem runB_cols (c : Dev nD) (i : grid0.Coords) (arg2 : Memref sig .tc .vmem S2048x1024 .bf16) (harg2 : arg2.IsWhole) (arg3 : Memref sig .tc .vmem S2048x1024 .bf16) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S2048x1 .f32) (harg6 : arg6.IsWhole) (arg7 : Memref sig .tc .vmem S2048x8 .f32) (harg7 : arg7.IsWhole) (hc0 : ¬cond0 i) (hc1 : ¬cond1 i)
    (x0 : Vec F S2048x1024 .bf16) (x1 : Vec F S2048x1024 .bf16) (x2 : Vec F S256x1024 .bf16) (x3 : Vec F S256x1024 .bf16) (xs : Vec F S2048x8 .f32) :
    colsOf (arg7.view.read (Elt F) (arg7.view.writes (Elt F) (harg7.unread xs) (runB c i arg2 harg2 arg3 harg3 arg4 harg4 arg5 harg5 arg6 harg6 arg7 harg7 hc0 hc1 x0 x1 x2 x3 xs).1))
      = next x0 x1 x2 x3 (colsOf xs) := by
  show Cols.mk _ _ _ _ _ = Cols.mk _ _ _ _ _
  congr 1
  all_goals
    unfold runB; dsimp only; sl_unfold_words
    simp only [readCov_col _ _ 0, readCov_col _ _ 1, readCov_col _ _ 2, readCov_col _ _ 3, readCov_col _ _ 4, readAt_col _ _ _ 0, readAt_col _ _ _ 1, readAt_col _ _ _ 2, readAt_col _ _ _ 3, readAt_col _ _ _ 4]
    simp only [col_hit _ _ 0, col_hit _ _ 1, col_hit _ _ 2, col_hit _ _ 3, col_hit _ _ 4, col_miss _ _ 0 1 (by decide), col_miss _ _ 0 2 (by decide), col_miss _ _ 0 3 (by decide), col_miss _ _ 0 4 (by decide), col_miss _ _ 1 0 (by decide), col_miss _ _ 1 2 (by decide), col_miss _ _ 1 3 (by decide), col_miss _ _ 1 4 (by decide), col_miss _ _ 2 0 (by decide), col_miss _ _ 2 1 (by decide), col_miss _ _ 2 3 (by decide), col_miss _ _ 2 4 (by decide), col_miss _ _ 3 0 (by decide), col_miss _ _ 3 1 (by decide), col_miss _ _ 3 2 (by decide), col_miss _ _ 3 4 (by decide), col_miss _ _ 4 0 (by decide), col_miss _ _ 4 1 (by decide), col_miss _ _ 4 2 (by decide), col_miss _ _ 4 3 (by decide)]
    simp only [View.readAt_eq_ld, Memref.IsWhole.read_unread, View.ld_unit_zero (S := S2048x1024) hz2, View.ld_unit_zero (S := S256x1024) hz2]
    try rfl

/-- Chunk 0 leaves the reset statistics updated by the chunk, whatever the scratch held. -/
theorem runA_cols (c : Dev nD) (i : grid0.Coords) (arg2 : Memref sig .tc .vmem S2048x1024 .bf16) (harg2 : arg2.IsWhole) (arg3 : Memref sig .tc .vmem S2048x1024 .bf16) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S2048x1 .f32) (harg6 : arg6.IsWhole) (arg7 : Memref sig .tc .vmem S2048x8 .f32) (harg7 : arg7.IsWhole) (hc0 : cond0 i) (hc1 : ¬cond1 i)
    (x0 : Vec F S2048x1024 .bf16) (x1 : Vec F S2048x1024 .bf16) (x2 : Vec F S256x1024 .bf16) (x3 : Vec F S256x1024 .bf16) (xs : Vec F S2048x8 .f32) :
    colsOf (arg7.view.read (Elt F) (arg7.view.writes (Elt F) (harg7.unread xs) (runA c i arg2 harg2 arg3 harg3 arg4 harg4 arg5 harg5 arg6 harg6 arg7 harg7 hc0 hc1 x0 x1 x2 x3 xs).1))
      = next x0 x1 x2 x3 initCols := by
  show Cols.mk _ _ _ _ _ = Cols.mk _ _ _ _ _
  congr 1
  all_goals
    unfold runA; dsimp only; sl_unfold_words
    simp only [readCov_col _ _ 0, readCov_col _ _ 1, readCov_col _ _ 2, readCov_col _ _ 3, readCov_col _ _ 4, readAt_col _ _ _ 0, readAt_col _ _ _ 1, readAt_col _ _ _ 2, readAt_col _ _ _ 3, readAt_col _ _ _ 4]
    simp only [col_hit _ _ 0, col_hit _ _ 1, col_hit _ _ 2, col_hit _ _ 3, col_hit _ _ 4, col_miss _ _ 0 1 (by decide), col_miss _ _ 0 2 (by decide), col_miss _ _ 0 3 (by decide), col_miss _ _ 0 4 (by decide), col_miss _ _ 1 0 (by decide), col_miss _ _ 1 2 (by decide), col_miss _ _ 1 3 (by decide), col_miss _ _ 1 4 (by decide), col_miss _ _ 2 0 (by decide), col_miss _ _ 2 1 (by decide), col_miss _ _ 2 3 (by decide), col_miss _ _ 2 4 (by decide), col_miss _ _ 3 0 (by decide), col_miss _ _ 3 1 (by decide), col_miss _ _ 3 2 (by decide), col_miss _ _ 3 4 (by decide), col_miss _ _ 4 0 (by decide), col_miss _ _ 4 1 (by decide), col_miss _ _ 4 2 (by decide), col_miss _ _ 4 3 (by decide)]
    simp only [View.readAt_eq_ld, Memref.IsWhole.read_unread, View.ld_unit_zero (S := S2048x1024) hz2, View.ld_unit_zero (S := S256x1024) hz2]
    try rfl

/-- Chunk 124 leaves the statistics updated by the chunk, -/
theorem runC_cols (c : Dev nD) (i : grid0.Coords) (arg2 : Memref sig .tc .vmem S2048x1024 .bf16) (harg2 : arg2.IsWhole) (arg3 : Memref sig .tc .vmem S2048x1024 .bf16) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S2048x1 .f32) (harg6 : arg6.IsWhole) (arg7 : Memref sig .tc .vmem S2048x8 .f32) (harg7 : arg7.IsWhole) (hc0 : ¬cond0 i) (hc1 : cond1 i)
    (x0 : Vec F S2048x1024 .bf16) (x1 : Vec F S2048x1024 .bf16) (x2 : Vec F S256x1024 .bf16) (x3 : Vec F S256x1024 .bf16) (xs : Vec F S2048x8 .f32) (xi4 : Vec F S2048x1 .f32) :
    colsOf (arg7.view.read (Elt F) (arg7.view.writes (Elt F) (harg7.unread xs) (runC c i arg2 harg2 arg3 harg3 arg4 harg4 arg5 harg5 arg6 harg6 arg7 harg7 hc0 hc1 x0 x1 x2 x3 xs xi4).2.1))
      = next x0 x1 x2 x3 (colsOf xs) := by
  show Cols.mk _ _ _ _ _ = Cols.mk _ _ _ _ _
  congr 1
  all_goals
    unfold runC; dsimp only; sl_unfold_words
    simp only [readCov_col _ _ 0, readCov_col _ _ 1, readCov_col _ _ 2, readCov_col _ _ 3, readCov_col _ _ 4, readAt_col _ _ _ 0, readAt_col _ _ _ 1, readAt_col _ _ _ 2, readAt_col _ _ _ 3, readAt_col _ _ _ 4]
    simp only [col_hit _ _ 0, col_hit _ _ 1, col_hit _ _ 2, col_hit _ _ 3, col_hit _ _ 4, col_miss _ _ 0 1 (by decide), col_miss _ _ 0 2 (by decide), col_miss _ _ 0 3 (by decide), col_miss _ _ 0 4 (by decide), col_miss _ _ 1 0 (by decide), col_miss _ _ 1 2 (by decide), col_miss _ _ 1 3 (by decide), col_miss _ _ 1 4 (by decide), col_miss _ _ 2 0 (by decide), col_miss _ _ 2 1 (by decide), col_miss _ _ 2 3 (by decide), col_miss _ _ 2 4 (by decide), col_miss _ _ 3 0 (by decide), col_miss _ _ 3 1 (by decide), col_miss _ _ 3 2 (by decide), col_miss _ _ 3 4 (by decide), col_miss _ _ 4 0 (by decide), col_miss _ _ 4 1 (by decide), col_miss _ _ 4 2 (by decide), col_miss _ _ 4 3 (by decide)]
    simp only [View.readAt_eq_ld, Memref.IsWhole.read_unread, View.ld_unit_zero (S := S2048x1024) hz2, View.ld_unit_zero (S := S256x1024) hz2]
    try rfl

theorem hz2' : (![0, 0] : Fin 2 → ℕ) = fun _ => 0 := hz2

/-- and the output buffer at the result of the updated statistics. -/
theorem runC_out (c : Dev nD) (i : grid0.Coords) (arg2 : Memref sig .tc .vmem S2048x1024 .bf16) (harg2 : arg2.IsWhole) (arg3 : Memref sig .tc .vmem S2048x1024 .bf16) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S2048x1 .f32) (harg6 : arg6.IsWhole) (arg7 : Memref sig .tc .vmem S2048x8 .f32) (harg7 : arg7.IsWhole) (hc0 : ¬cond0 i) (hc1 : cond1 i)
    (x0 : Vec F S2048x1024 .bf16) (x1 : Vec F S2048x1024 .bf16) (x2 : Vec F S256x1024 .bf16) (x3 : Vec F S256x1024 .bf16) (xs : Vec F S2048x8 .f32) (xi4 : Vec F S2048x1 .f32) :
    arg6.view.read (Elt F) (arg6.view.writes (Elt F) (harg6.unread xi4) (runC c i arg2 harg2 arg3 harg3 arg4 harg4 arg5 harg5 arg6 harg6 arg7 harg7 hc0 hc1 x0 x1 x2 x3 xs xi4).1)
      = outOf (next x0 x1 x2 x3 (colsOf xs)) := by
  unfold runC; dsimp only; sl_unfold_words
  rw [View.read_writes_eq_canon _ _ _ (fun y => ⟨_, List.mem_singleton_self _, View.mem_set_unit_zero hz2 inb_S2048x1_S2048x1_0_0 y⟩), View.canon_unit_zero hz2]
  simp only [readCov_col _ _ 0, readCov_col _ _ 1, readCov_col _ _ 2, readCov_col _ _ 3, readCov_col _ _ 4, readAt_col _ _ _ 0, readAt_col _ _ _ 1, readAt_col _ _ _ 2, readAt_col _ _ _ 3, readAt_col _ _ _ 4]
  simp only [col_hit _ _ 0, col_hit _ _ 1, col_hit _ _ 2, col_hit _ _ 3, col_hit _ _ 4, col_miss _ _ 0 1 (by decide), col_miss _ _ 0 2 (by decide), col_miss _ _ 0 3 (by decide), col_miss _ _ 0 4 (by decide), col_miss _ _ 1 0 (by decide), col_miss _ _ 1 2 (by decide), col_miss _ _ 1 3 (by decide), col_miss _ _ 1 4 (by decide), col_miss _ _ 2 0 (by decide), col_miss _ _ 2 1 (by decide), col_miss _ _ 2 3 (by decide), col_miss _ _ 2 4 (by decide), col_miss _ _ 3 0 (by decide), col_miss _ _ 3 1 (by decide), col_miss _ _ 3 2 (by decide), col_miss _ _ 3 4 (by decide), col_miss _ _ 4 0 (by decide), col_miss _ _ 4 1 (by decide), col_miss _ _ 4 2 (by decide), col_miss _ _ 4 3 (by decide)]
  simp only [View.readAt_eq_ld, Memref.IsWhole.read_unread, View.ld_unit_zero (S := S2048x1024) hz2, View.ld_unit_zero (S := S256x1024) hz2]
  try rfl

end Cert.KernelIdeal.Body

end
-- ==== Proof.KIFrame.lean ====
import proofs.«130548_j68985764708849_2_alg».proof.Proof.KICols

set_option maxRecDepth 16384

noncomputable section

namespace Cert.KernelIdeal.Body

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The statistics after each grid point

Point `n` is chunk `n % 125` of row-tile `n / 125`. At chunk 0 the statistics are reset and then updated by the chunk; at
every other chunk what the point before left is updated by the chunk. -/

/-- The five columns of the scratch after the body at point `n`. -/
def colsAt (c : Dev nD) : (n : ℕ) → n < cfg0.N → Cols F
  | 0, hn => next (iblk m c 0 ⟨0, hn⟩) (iblk m c 1 ⟨0, hn⟩) (iblk m c 2 ⟨0, hn⟩) (iblk m c 3 ⟨0, hn⟩) initCols
  | n + 1, hn =>
    if (n + 1) % 125 = 0 then next (iblk m c 0 ⟨n + 1, hn⟩) (iblk m c 1 ⟨n + 1, hn⟩) (iblk m c 2 ⟨n + 1, hn⟩) (iblk m c 3 ⟨n + 1, hn⟩) initCols
    else next (iblk m c 0 ⟨n + 1, hn⟩) (iblk m c 1 ⟨n + 1, hn⟩) (iblk m c 2 ⟨n + 1, hn⟩) (iblk m c 3 ⟨n + 1, hn⟩) (colsAt c n (Nat.lt_of_succ_lt hn))

theorem colsAt_first (c : Dev nD) (t : Fin cfg0.N) (h0 : t.val % 125 = 0) :
    colsAt m c t.val t.isLt = next (iblk m c 0 t) (iblk m c 1 t) (iblk m c 2 t) (iblk m c 3 t) initCols := by
  obtain ⟨n, hn⟩ := t
  cases n with
  | zero => rfl
  | succ n => exact (if_pos h0)

theorem colsAt_later (c : Dev nD) (t : Fin cfg0.N) (h0 : ¬t.val % 125 = 0) :
    colsAt m c t.val t.isLt = next (iblk m c 0 t) (iblk m c 1 t) (iblk m c 2 t) (iblk m c 3 t) (colsAt m c (t.val - 1) (Nat.lt_of_le_of_lt (Nat.sub_le _ _) t.isLt)) := by
  obtain ⟨n, hn⟩ := t
  cases n with
  | zero => exact absurd (Nat.zero_mod _) h0
  | succ n => exact (if_neg h0)

/-- The region invariant before position `n`: before the first point the launch's (the scratch at anything); afterwards
    the scratch at SOME contents whose five statistic columns are what the point before left, and the generator register
    at some state. (Columns 5 to 7 of the scratch are never stored, so its whole contents are not a function of the
    arguments; its first five columns are.) -/
def PhiS (c : Dev nD) : (n : ℕ) → n ≤ cfg0.N → sProp 𝕄
  | 0, _ => Pipeline.ΦA spec0 c
  | n + 1, hn => iprop(iprop(∃ xs, owns (c : Thread nD τ) scM fullShare xs ∗ ⌜colsOf xs = colsAt m c n hn⌝) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(∃ xs, owns (c : Thread nD τ) scM fullShare xs ∗ ⌜colsOf xs = colsAt m c n hn⌝) ∗ (∃ r, prngReg c r)) := rfl

theorem PhiS_pos (c : Dev nD) (n : ℕ) (h : n ≤ cfg0.N) (hz : n ≠ 0) :
    PhiS m c n h = iprop(iprop(∃ xs, owns (c : Thread nD τ) scM fullShare xs ∗ ⌜colsOf xs = colsAt m c (n - 1) (by omega)⌝) ∗ (∃ r, prngReg c r)) := by
  cases n with
  | zero => exact absurd rfl hz
  | succ n => rfl

/-! ## The pipeline's proof data -/

/-- The arrays as the region finds them; after the body each input's buffer at its block, the output's at the result of
    the statistics so far (meaningful at chunk 124, where it is stored and written back; elsewhere the window is idle). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outOf (colsAt m c t.val t.isLt)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = outOf (colsAt m c t.val t.isLt) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem leaves0 (c : Dev nD) (t : Fin cfg0.N) : (dats m 0 c).leavesExact 0 t = owns (c : Thread nD τ) (ms0 t) fullShare (iblk m c 0 t) := by
  unfold Dat.leavesExact; rw [live0 t, after0]
theorem leaves1 (c : Dev nD) (t : Fin cfg0.N) : (dats m 0 c).leavesExact 1 t = owns (c : Thread nD τ) (ms1 t) fullShare (iblk m c 1 t) := by
  unfold Dat.leavesExact; rw [live1 t, after1]
theorem leaves2 (c : Dev nD) (t : Fin cfg0.N) : (dats m 0 c).leavesExact 2 t = owns (c : Thread nD τ) (ms2 t) fullShare (iblk m c 2 t) := by
  unfold Dat.leavesExact; rw [live2 t, after2]
theorem leaves3 (c : Dev nD) (t : Fin cfg0.N) : (dats m 0 c).leavesExact 3 t = owns (c : Thread nD τ) (ms3 t) fullShare (iblk m c 3 t) := by
  unfold Dat.leavesExact; rw [live3 t, after3]

set_option maxHeartbeats 4800000 in
/-- The body at any point, case by case on the chunk: chunk 0 resets and updates (whatever the scratch held), a middle chunk
    and chunk 124 update what the point before left; chunk 124 also stores the result; elsewhere the output window is idle
    and its buffer handed back untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves3]
  have hN : t.val < 250 := lt_of_lt_of_eq t.isLt (show cfg0.N = 250 from N_0)
  by_cases h0 : t.val % 125 = 0
  · have h1 : ¬t.val % 125 = 124 := by omega
    have hc0 : cond0 (grid0.coords t) := (hcond0 t).mpr h0
    have hc1 : ¬cond1 (grid0.coords t) := fun h => h1 ((hcond1 t).mp h)
    rw [Dat.leavesExact_idle (dats m 0 c) 4 t (idle4 t hc1) (noFlush4 t hc1)]
    by_cases hz : t.val = 0
    · rw [PhiS_castSucc m c t, PhiS_zero m c _ _ hz, PhiA_eq]
      iintro ⟨⟨⟨%ds, HS0⟩, Hg⟩, Ho, ⟨%d0, H0⟩, ⟨%d1, H1⟩, ⟨%d2, H2⟩, ⟨%d3, H3⟩, ⟨%d4, H4⟩⟩
      iapply ((runA c (grid0.coords t) _ _ _ _ _ _ _ _ _ _ _ _ hc0 hc1 (iblk m c 0 t) (iblk m c 1 t) (iblk m c 2 t) (iblk m c 3 t) ds).2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, HS0⟩
      isplitl [HS0 Hg]
      · isplitl [HS0]
        · iexists _; isplitl [HS0]
          · unfold owns; iexists _; isplitr
            swap; · iexact HS0
            ipureintro; rfl
          ipureintro
          exact (runA_cols c (grid0.coords t) _ _ _ _ _ _ _ _ _ _ _ _ hc0 hc1 (iblk m c 0 t) (iblk m c 1 t) (iblk m c 2 t) (iblk m c 3 t) ds).trans (colsAt_first m c t h0).symm
        iexact Hg
      isplitl [Ho]; · iexact Ho
      isplitl [H0]; · iexact H0
      isplitl [H1]; · iexact H1
      isplitl [H2]; · iexact H2
      isplitl [H3]; · iexact H3
      iexists _; iexact H4
    · rw [PhiS_castSucc m c t, PhiS_pos m c _ _ hz]
      iintro ⟨⟨⟨%ds, HS0, %hds⟩, Hg⟩, Ho, ⟨%d0, H0⟩, ⟨%d1, H1⟩, ⟨%d2, H2⟩, ⟨%d3, H3⟩, ⟨%d4, H4⟩⟩
      iapply ((runA c (grid0.coords t) _ _ _ _ _ _ _ _ _ _ _ _ hc0 hc1 (iblk m c 0 t) (iblk m c 1 t) (iblk m c 2 t) (iblk m c 3 t) ds).2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, HS0⟩
      isplitl [HS0 Hg]
      · isplitl [HS0]
        · iexists _; isplitl [HS0]
          · unfold owns; iexists _; isplitr
            swap; · iexact HS0
            ipureintro; rfl
          ipureintro
          exact (runA_cols c (grid0.coords t) _ _ _ _ _ _ _ _ _ _ _ _ hc0 hc1 (iblk m c 0 t) (iblk m c 1 t) (iblk m c 2 t) (iblk m c 3 t) ds).trans (colsAt_first m c t h0).symm
        iexact Hg
      isplitl [Ho]; · iexact Ho
      isplitl [H0]; · iexact H0
      isplitl [H1]; · iexact H1
      isplitl [H2]; · iexact H2
      isplitl [H3]; · iexact H3
      iexists _; iexact H4
  · have hc0 : ¬cond0 (grid0.coords t) := fun h => h0 ((hcond0 t).mp h)
    have hz : t.val ≠ 0 := fun hz => h0 (by rw [hz])
    rw [PhiS_castSucc m c t, PhiS_pos m c _ _ hz]
    by_cases h1 : t.val % 125 = 124
    · have hc1 : cond1 (grid0.coords t) := (hcond1 t).mpr h1
      rw [show (dats m 0 c).leavesExact 4 t = owns (c : Thread nD τ) (ms4 t) fullShare ((dats m 0 c).after 4 t) from by
        unfold Dat.leavesExact; rw [live4 t hc1], after4]
      iintro ⟨⟨⟨%ds, HS0, %hds⟩, Hg⟩, Ho, ⟨%d0, H0⟩, ⟨%d1, H1⟩, ⟨%d2, H2⟩, ⟨%d3, H3⟩, ⟨%d4, H4⟩⟩
      iapply ((runC c (grid0.coords t) _ _ _ _ _ _ _ _ _ _ _ _ hc0 hc1 (iblk m c 0 t) (iblk m c 1 t) (iblk m c 2 t) (iblk m c 3 t) ds _).2.2 Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, HS0⟩
      isplitl [HS0 Hg]
      · isplitl [HS0]
        · iexists _; isplitl [HS0]
          · unfold owns; iexists _; isplitr
            swap; · iexact HS0
            ipureintro; rfl
          ipureintro
          exact (runC_cols c (grid0.coords t) _ _ _ _ _ _ _ _ _ _ _ _ hc0 hc1 (iblk m c 0 t) (iblk m c 1 t) (iblk m c 2 t) (iblk m c 3 t) ds _).trans
            ((congrArg (next (iblk m c 0 t) (iblk m c 1 t) (iblk m c 2 t) (iblk m c 3 t)) hds).trans (colsAt_later m c t h0).symm)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro
      exact (runC_out c (grid0.coords t) _ _ _ _ _ _ _ _ _ _ _ _ hc0 hc1 (iblk m c 0 t) (iblk m c 1 t) (iblk m c 2 t) (iblk m c 3 t) ds _).trans
        (congrArg outOf ((congrArg (next (iblk m c 0 t) (iblk m c 1 t) (iblk m c 2 t) (iblk m c 3 t)) hds).trans (colsAt_later m c t h0).symm))
    · have hc1 : ¬cond1 (grid0.coords t) := fun h => h1 ((hcond1 t).mp h)
      rw [Dat.leavesExact_idle (dats m 0 c) 4 t (idle4 t hc1) (noFlush4 t hc1)]
      iintro ⟨⟨⟨%ds, HS0, %hds⟩, Hg⟩, Ho, ⟨%d0, H0⟩, ⟨%d1, H1⟩, ⟨%d2, H2⟩, ⟨%d3, H3⟩, ⟨%d4, H4⟩⟩
      iapply ((runB c (grid0.coords t) _ _ _ _ _ _ _ _ _ _ _ _ hc0 hc1 (iblk m c 0 t) (iblk m c 1 t) (iblk m c 2 t) (iblk m c 3 t) ds).2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, HS0⟩
      isplitl [HS0 Hg]
      · isplitl [HS0]
        · iexists _; isplitl [HS0]
          · unfold owns; iexists _; isplitr
            swap; · iexact HS0
            ipureintro; rfl
          ipureintro
          exact (runB_cols c (grid0.coords t) _ _ _ _ _ _ _ _ _ _ _ _ hc0 hc1 (iblk m c 0 t) (iblk m c 1 t) (iblk m c 2 t) (iblk m c 3 t) ds).trans
            ((congrArg (next (iblk m c 0 t) (iblk m c 1 t) (iblk m c 2 t) (iblk m c 3 t)) hds).trans (colsAt_later m c t h0).symm)
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨⟨%xs, HS0, -⟩, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 250 := N_0; omega)

/-! ## The run and the frame -/

set_option backward.isDefEq.respectTransparency.types false in
/-- Every weakly fair execution of @main terminates, nothing faulting, with every array of the pipeline at what the proof data
    says and every other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs to the end, faults nowhere, and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Body

end
-- ==== Proof.KLSpec.lean ====
/-
  The mathematics of the claim, with no program in sight.

  A row of logits is a function on a vocabulary; the Kullback–Leibler divergence of a teacher row from a student row is
  computed two ways.  The plain way (`refKL`): each row's log-softmax is the row shifted by its maximum, less the
  logarithm of the sum of the exponentials of the shifted row; the divergence is the sum over the vocabulary of
  exp(log p_t) · (log p_t − log p_s).  The streaming way (`run`, `out`): the vocabulary is cut into K chunks of B
  entries; five running statistics per row — the student's running maximum and rescaled sum of exponentials, the teacher's
  running maximum, rescaled sum of exponentials and rescaled sum of exp(t − m)·(t − s) — are updated chunk by chunk, each
  sum rescaled by exp(old maximum − new maximum) when the maximum moves, starting from maximum −∞ and sums 0; the
  divergence is acc / l_t − (m_t + log l_t) + (m_s + log l_s).  All arithmetic is the extended reals'.
-/
import Idealize.ShloMosaic.PureOps.Ideal
import Idealize.ShloMosaic.Lib.ValueIdx

noncomputable section

open scoped BigOperators

namespace Cert.OnlineKL

open Idealize.ShloMosaic Idealize.ShloMosaic.ValueIdx

/-- The five running statistics of one row. -/
structure Stats where
  ms : EReal
  ls : EReal
  mt : EReal
  lt : EReal
  acc : EReal

/-- Before the first chunk: maxima −∞, sums 0. -/
def init : Stats := ⟨⊥, 0, ⊥, 0, 0⟩

/-- One chunk's update of the statistics, from the chunk's student entries `sk` and teacher entries `tk`. -/
def step {B : ℕ} (st : Stats) (sk tk : Fin B → EReal) : Stats where
  ms := max st.ms (Finset.univ.fold max ⊥ sk)
  ls := st.ls * Ideal.exp (st.ms - max st.ms (Finset.univ.fold max ⊥ sk))
          + ∑ j, Ideal.exp (sk j - max st.ms (Finset.univ.fold max ⊥ sk))
  mt := max st.mt (Finset.univ.fold max ⊥ tk)
  lt := st.lt * Ideal.exp (st.mt - max st.mt (Finset.univ.fold max ⊥ tk))
          + ∑ j, Ideal.exp (tk j - max st.mt (Finset.univ.fold max ⊥ tk))
  acc := st.acc * Ideal.exp (st.mt - max st.mt (Finset.univ.fold max ⊥ tk))
          + ∑ j, Ideal.exp (tk j - max st.mt (Finset.univ.fold max ⊥ tk)) * (tk j - sk j)

/-- The statistics after the first `n` chunks. -/
def run {K B : ℕ} (s t : Fin K → Fin B → EReal) : (n : ℕ) → n ≤ K → Stats
  | 0, _ => init
  | n + 1, h => step (run s t n (Nat.le_of_succ_le h)) (s ⟨n, h⟩) (t ⟨n, h⟩)

/-- The divergence read off the final statistics. -/
def out (st : Stats) : EReal :=
  Ideal.div st.acc st.lt - (st.mt + Ideal.log st.lt) + (st.ms + Ideal.log st.ls)

/-- A row's log-softmax at an entry. -/
def logSoftmax {ι : Type} [Fintype ι] (x : ι → EReal) (v : ι) : EReal :=
  (x v - Finset.univ.fold max ⊥ x) - Ideal.log (∑ u, Ideal.exp (x u - Finset.univ.fold max ⊥ x))

/-- The divergence of the teacher row `t` from the student row `s`, the plain way. -/
def refKL {ι : Type} [Fintype ι] (s t : ι → EReal) : EReal :=
  ∑ v, Ideal.exp (logSoftmax t v) * (logSoftmax t v - logSoftmax s v)

/-- Row `r` of the product of an activation matrix [4096, 1024] with the transpose of a weight matrix [32000, 1024]. -/
def logits (a : (⟨2, ![4096, 1024]⟩ : Shape).Idx → EReal) (w : (⟨2, ![32000, 1024]⟩ : Shape).Idx → EReal)
    (r : Fin 4096) (v : Fin 32000) : EReal :=
  ∑ h : Fin 1024, a (ix2 r h) * w (ix2 v h)

/-- The whole result: the mean over the 4096 rows of the rows' divergences (the divisor the f32 word of 4096). -/
def meanKL (x tx : (⟨2, ![4096, 1024]⟩ : Shape).Idx → EReal) (ws wt : (⟨2, ![32000, 1024]⟩ : Shape).Idx → EReal) : EReal :=
  Ideal.div (∑ r : Fin 4096, refKL (logits x ws r) (logits tx wt r)) (Ideal.ofBits .f32 0x45800000#32)

end Cert.OnlineKL

end
-- ==== Proof.LibRowMax.lean ====
/-
  A row maximum read at an index.

  A maximum over the last axis of an [a, b] array, read on the extended reals at row `p`, is the fold of `max`, from
  the value of the accumulator's pattern, over the `b` entries of that row: the reduced index with the dropped
  coordinate put back is `(p, k)`. With the accumulator at the pattern of −∞ — the least extended real, so that a
  maximum against it is the other argument (`max_negInf_f32`) — this is the row's maximum, as a softmax subtracts it.
  The lemmas hold for every extent.
-/
import Idealize.ShloMosaic.Lib.ValueIdx
import Idealize.ShloMosaic.PureOps.Ideal.Laws

noncomputable section

namespace Cert.Lib.RowMax

open Idealize.ShloMosaic Idealize.ShloMosaic.ValueIdx

/-- Over the extended reals the maximum of an [a, b] array along its last axis, read at row `p`, is the fold of
    `max` from the accumulator's value over `k < b` of the array at `(p, k)`. -/
theorem laneMax_apply {a b : ℕ} {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (p : Fin a) :
    multiReduction .maximumf [1] ⟨1, ![a]⟩ v acc h hφ hacc (ix1 p)
      = (Finset.univ : Finset (Fin b)).fold max (Ideal.ofBits φ acc) (fun k => v (ix2 p k)) :=
  (Ideal.multiReduction_maximumf_single v acc h hφ hacc (ix1 p)).trans
    (congrArg (fun f : Fin b → EReal => (Finset.univ : Finset (Fin b)).fold max (Ideal.ofBits φ acc) f)
      (funext fun k => congrArg v (funext fun d => Fin.ext (by
        match d with
        | ⟨0, _⟩ => rfl
        | ⟨1, _⟩ => rfl))))

/-- The f32 pattern of −∞ denotes the least extended real: a maximum against it is the other argument. -/
theorem max_negInf_f32 (y : EReal) : max (Ideal.ofBits .f32 0xFF800000#32) y = y := by
  simp [Ideal.ofBits, Ideal.ieee]

end Cert.Lib.RowMax

end
-- ==== Proof.LibKeepdims.lean ====
/-
  Column layouts and a lane sum read at an index.

  A sum over the last axis that keeps its dimension leaves a column: the [a] vector of row sums viewed as [a, 1],
  then spread along the rows of an [a, b] array. Read at `(p, c)` that array holds the sum of row `p`, whatever the
  column `c`. The lemmas here say so one layout step at a time, for every extent:
  • `shapeCast_a_a1_apply`: a vector [a] viewed as a column [a, 1] reads, at `(p, 0)`, the vector at `p`;
  • `broadcastTo_a1_ab_apply`: a column [a, 1] spread to [a, b] reads, at `(p, c)`, the column at `(p, 0)`;
  • `laneSum_apply`: over the extended reals, the sum of an [a, b] array along its last axis reads, at `p`, the
    finite sum over `k < b` of the array at `(p, k)`.
  Together with the library's row forms ([a] viewed as [1, a], a row [1, b] spread to [a, b]) these read every
  `sum(axis = -1, keepdims = True)` a kernel body broadcasts back over its block.
-/
import Idealize.ShloMosaic.Lib.Pipeline.Value
import Idealize.ShloMosaic.Lib.ValueIdx
import Idealize.ShloMosaic.PureOps.Ideal.Laws

noncomputable section

namespace Cert.Lib.Keepdims

open Idealize.ShloMosaic Idealize.ShloMosaic.ValueIdx

variable {α : Type}

/-- A vector [a] viewed as a column [a, 1]: entry `(p, u)` of the column is entry `p` of the vector (row-major
    position `p · 1 + 0 = p`). -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column [a, 1] spread along the rows of an [a, b] array: entry `(p, c)` is the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Over the extended reals the sum of an [a, b] array along its last axis, read at row `p`, is `∑ k < b` of the
    array at `(p, k)`: the reduced index with the summed coordinate put back is `(p, k)`. -/
theorem laneSum_apply {a b : ℕ} {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ v acc h hφ hacc (ix1 p) = ∑ k : Fin b, v (ix2 p k) :=
  (Ideal.multiReduction_add_single v acc h hφ hacc (ix1 p)).trans
    (Finset.sum_congr rfl fun k _ => congrArg v (funext fun d => Fin.ext (by
      match d with
      | ⟨0, _⟩ => rfl
      | ⟨1, _⟩ => rfl)))

end Cert.Lib.Keepdims

end
-- ==== Proof.LibDotTransposedRhs.lean ====
/-
  A contraction with the right operand transposed, read at an output index, over the extended reals.

  For the dimension numbers "contract the left operand's axis 1 with the right operand's axis 1, no batch axis"
  (an [M,K] array against an [N,K] array: rows against rows, as a query block meets a key block), entry (p, g) of the
  product into a zero accumulator is the sum over k < K of the left operand at (p, k) times the right operand at
  (g, k). At the ideal instance nothing rounds and the order of a finite sum is immaterial. The statements are general
  in the three extents.
-/
import Idealize.ShloMosaic.PureOps.Ideal.Laws
import Idealize.ShloMosaic.Lib.ValueIdx

noncomputable section

namespace Cert.DotTransposedRhs

open Idealize.ShloMosaic Idealize.ShloMosaic.ValueIdx

variable (M K N : ℕ)

/-- Axis 0 of the left operand's index is the output's row. -/
theorem lhs_row (j : (⟨2, ![M, N]⟩ : Shape).Idx) (q : (DotDims.transposedRhs M K N).contr.Idx) :
    ((DotDims.transposedRhs M K N).lhsIdx j q 0).val = (j 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- Axis 1 of the left operand's index is the contraction position. -/
theorem lhs_contr (j : (⟨2, ![M, N]⟩ : Shape).Idx) (q : (DotDims.transposedRhs M K N).contr.Idx) :
    ((DotDims.transposedRhs M K N).lhsIdx j q 1).val = (q ⟨0, Nat.one_pos⟩).val :=
  (DotDims.transposedRhs M K N).lhsIdx_val_of_single rfl j q

/-- Axis 0 of the right operand's index is the output's column. -/
theorem rhs_row (j : (⟨2, ![M, N]⟩ : Shape).Idx) (q : (DotDims.transposedRhs M K N).contr.Idx) :
    ((DotDims.transposedRhs M K N).rhsIdx j q 0).val = (j 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- Axis 1 of the right operand's index is the contraction position. -/
theorem rhs_contr (j : (⟨2, ![M, N]⟩ : Shape).Idx) (q : (DotDims.transposedRhs M K N).contr.Idx) :
    ((DotDims.transposedRhs M K N).rhsIdx j q 1).val = (q ⟨0, Nat.one_pos⟩).val :=
  (DotDims.transposedRhs M K N).rhsIdx_val_of_single rfl j q

/-- The contraction's sum over its one-axis index shape is the sum over k < K of row entry times row entry. -/
theorem sum_eq (l : (⟨2, ![M, K]⟩ : Shape).Idx → EReal) (r : (⟨2, ![N, K]⟩ : Shape).Idx → EReal) (p : Fin M) (g : Fin N) :
    ∑ q : (DotDims.transposedRhs M K N).contr.Idx,
        l ((DotDims.transposedRhs M K N).lhsIdx (ix2 p g) q) * r ((DotDims.transposedRhs M K N).rhsIdx (ix2 p g) q)
      = ∑ k : Fin K, l (ix2 p k) * r (ix2 g k) := by
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p g) ((contrEquiv1 (DotDims.transposedRhs M K N) K rfl rfl).symm k) = ix2 p k :=
    funext fun a => Fin.ext (by
      match a with
      | ⟨0, _⟩ => exact lhs_row M K N _ _
      | ⟨1, _⟩ => exact (lhs_contr M K N _ _).trans hk)
  have er : (DotDims.transposedRhs M K N).rhsIdx (ix2 p g) ((contrEquiv1 (DotDims.transposedRhs M K N) K rfl rfl).symm k) = ix2 g k :=
    funext fun a => Fin.ext (by
      match a with
      | ⟨0, _⟩ => exact rhs_row M K N _ _
      | ⟨1, _⟩ => exact (rhs_contr M K N _ _).trans hk)
  rw [el, er]

variable {M K N}

/-- A matrix unit's product with these dimension numbers into the zero accumulator, at entry (p, g). -/
theorem matmul_zero_apply {φ₁ φ₂ : FTy} (d : DotDims ⟨2, ![M, K]⟩ ⟨2, ![N, K]⟩ ⟨2, ![M, N]⟩) (hd : d = DotDims.transposedRhs M K N)
    (l : FVec Ideal ⟨2, ![M, K]⟩ φ₁) (r : FVec Ideal ⟨2, ![N, K]⟩ φ₂) (p : Fin M) (g : Fin N) :
    matmul (F := Ideal) d none l r (constant ⟨2, ![M, N]⟩ .f32 0x00000000#32) (ix2 p g)
      = ∑ k : Fin K, l (ix2 p k) * r (ix2 g k) := by
  subst hd
  simp only [matmul]
  rw [Ideal.matmul_constant_zero_apply]
  exact sum_eq M K N l r p g

end Cert.DotTransposedRhs

end
-- ==== Proof.KIStep.lean ====
/-
  One grid step of the kernel body, read at one row, is one step of the running statistics.

  The body multiplies the student's and the teacher's activation blocks [2048, 1024] by the transposes of their weight
  blocks [256, 1024] (entry (p, j) of a product is Σ_h x(p, h) · w(j, h)), and updates five columns [2048, 1]: per side
  the running maximum (the old one joined with the row's maximum, a fold of max from −∞ over the 256 lanes) and the
  running sum of exponentials (the old one times exp(old maximum − new maximum), plus the sum over the lanes of
  exp(entry − new maximum)), and the teacher's running sum of exp(t − m)·(t − s), rescaled the same way. Read at row p
  these are the five fields of the specification's `step` applied to the row's old statistics and the two rows of
  products. The value written at the last step is the specification's `out` of the statistics, and the reset values are
  −∞ for the maxima and 0 for the sums.

  The layout operations change nothing at an index: a vector [2048] viewed as a column [2048, 1] reads the vector at
  the row, a column spread over [2048, 256] reads the column at the row, and a cast of an array to its own shape is the
  identity. The student's stored values are the same operations as the teacher's, applied to the student's product.
-/
import proofs.«130548_j68985764708849_2_alg».proof.Proof.Gen.KernelIdeal.Skeleton
import proofs.«130548_j68985764708849_2_alg».proof.Proof.KLSpec
import proofs.«130548_j68985764708849_2_alg».proof.Proof.LibRowMax
import proofs.«130548_j68985764708849_2_alg».proof.Proof.LibKeepdims
import proofs.«130548_j68985764708849_2_alg».proof.Proof.LibDotTransposedRhs
import Idealize.ShloMosaic.Lib.ValueIdx
import Idealize.ShloMosaic.Lib.Pipeline.Value
import Idealize.ShloMosaic.PureOps.Ideal.Laws

noncomputable section

open scoped BigOperators

namespace Cert.KernelIdeal.StepValue

open Cert.KernelIdeal Cert.KernelIdeal.Gen Idealize.ShloMosaic Idealize.ShloMosaic.ValueIdx Cert.OnlineKL
  Cert.Lib.RowMax Cert.Lib.Keepdims Cert.DotTransposedRhs

/-- The f32 pattern 0xFF800000 (sign set, exponent all ones, fraction zero) denotes −∞, the bottom of the extended reals. -/
theorem neg_inf_f32 : Ideal.ofBits .f32 0xFF800000#32 = (⊥ : EReal) := by
  simp [Ideal.ofBits, Ideal.ieee]

/-- Row p of the product of an activation block [2048, 1024] with the transpose of a weight block [256, 1024]:
    entry j is Σ_h x(p, h) · w(j, h). -/
abbrev rowDot (x : Vec Ideal S2048x1024 .bf16) (w : Vec Ideal S256x1024 .bf16) (p : Fin 2048) : Fin 256 → EReal :=
  fun j => ∑ h : Fin 1024, x (ix2 p h) * w (ix2 j h)

/-- The five running statistics of row p, read off the five columns. -/
abbrev stats (c0 c1 c2 c3 c4 : Vec Ideal S2048x1 .f32) (p : Fin 2048) : Stats :=
  ⟨c0 (ix2 p (0 : Fin 1)), c1 (ix2 p (0 : Fin 1)), c2 (ix2 p (0 : Fin 1)), c3 (ix2 p (0 : Fin 1)),
    c4 (ix2 p (0 : Fin 1))⟩

/-! ## The product at an entry -/

/-- The block product into the zero accumulator, at (p, j): Σ_h x(p, h) · w(j, h). The casts of a block to its own shape
    change nothing. -/
theorem pay15_apply (x : Vec Ideal S2048x1024 .bf16) (w : Vec Ideal S256x1024 .bf16) (p : Fin 2048) (j : Fin 256) :
    k0_pay15 (F := Ideal) x w (ix2 p j) = rowDot x w p j := by
  unfold k0_pay15
  have e1 : shapeCast S2048x1024 x shapeCasts_S2048x1024_S2048x1024 = x := shapeCast_self x _
  have e2 : shapeCast S256x1024 w shapeCasts_S256x1024_S256x1024 = w := shapeCast_self w _
  rw [e1, e2]
  exact matmul_zero_apply (φ₁ := .bf16) (φ₂ := .bf16) dot_S2048x1024_S256x1024_S2048x256_1_1_0_0_n_n rfl x w p j

/-- The teacher's product is the same operation on the teacher's blocks. -/
theorem pay16_eq (x : Vec Ideal S2048x1024 .bf16) (w : Vec Ideal S256x1024 .bf16) :
    k0_pay16 (F := Ideal) x w = k0_pay15 (F := Ideal) x w := rfl

/-! ## One side's update, for any product block whose row p is r -/

section Row

variable (z : FVec Ideal S2048x256 .f32) (c : Vec Ideal S2048x1 .f32) (p : Fin 2048) (r : Fin 256 → EReal)

/-- The new running maximum of row p: the old one joined with the fold of max from −∞ over the row. -/
theorem pay1_row (hz : ∀ j, z (ix2 p j) = r j) :
    k0_pay1 (F := Ideal) z c (ix2 p (0 : Fin 1))
      = max (c (ix2 p (0 : Fin 1))) (Finset.univ.fold max ⊥ r) := by
  unfold k0_pay1
  dsimp only
  refine congrArg (max (c (ix2 p (0 : Fin 1)))) ?_
  refine (shapeCast_a_a1_apply _ shapeCasts_S2048_S2048x1 p 0).trans ?_
  refine (laneMax_apply z 0xFF800000#32 reduces_S2048x256_S2048 _ _ p).trans ?_
  rw [neg_inf_f32]
  exact congrArg (Finset.univ.fold max (⊥ : EReal)) (funext hz)

/-- The rescaling factor of the old sums: exp(old maximum − new maximum). -/
theorem pay2_row (hz : ∀ j, z (ix2 p j) = r j) :
    k0_pay2 (F := Ideal) z c (ix2 p (0 : Fin 1))
      = Ideal.exp (c (ix2 p (0 : Fin 1)) - max (c (ix2 p (0 : Fin 1))) (Finset.univ.fold max ⊥ r)) := by
  unfold k0_pay2
  exact congrArg (fun t => Ideal.exp (c (ix2 p (0 : Fin 1)) - t)) (pay1_row z c p r hz)

/-- The exponential of the row shifted by the new maximum, at (p, j). -/
theorem pay3_row (hz : ∀ j, z (ix2 p j) = r j) (j : Fin 256) :
    k0_pay3 (F := Ideal) z c (ix2 p j)
      = Ideal.exp (r j - max (c (ix2 p (0 : Fin 1))) (Finset.univ.fold max ⊥ r)) := by
  unfold k0_pay3
  have eb : broadcastTo S2048x256 (k0_pay1 (F := Ideal) z c) broadcasts_S2048x1_S2048x256 (ix2 p j)
      = max (c (ix2 p (0 : Fin 1))) (Finset.univ.fold max ⊥ r) :=
    (broadcastTo_a1_ab_apply (k0_pay1 (F := Ideal) z c) broadcasts_S2048x1_S2048x256 p j).trans (pay1_row z c p r hz)
  exact congrArg₂ (fun a b => Ideal.exp (a - b)) (hz j) eb

/-- The stored maximum is the new running maximum (the cast of a column to its own shape changes nothing). -/
theorem pay4_row (hz : ∀ j, z (ix2 p j) = r j) :
    k0_pay4 (F := Ideal) z c (ix2 p (0 : Fin 1))
      = max (c (ix2 p (0 : Fin 1))) (Finset.univ.fold max ⊥ r) := by
  unfold k0_pay4
  exact (congrFun (shapeCast_self (k0_pay1 (F := Ideal) z c) shapeCasts_S2048x1_S2048x1) _).trans (pay1_row z c p r hz)

/-- The new running sum of exponentials: the old one rescaled, plus the sum over the row of the shifted exponentials. -/
theorem pay5_row (l : Vec Ideal S2048x1 .f32) (hz : ∀ j, z (ix2 p j) = r j) :
    k0_pay5 (F := Ideal) z c l (ix2 p (0 : Fin 1))
      = l (ix2 p (0 : Fin 1))
          * Ideal.exp (c (ix2 p (0 : Fin 1)) - max (c (ix2 p (0 : Fin 1))) (Finset.univ.fold max ⊥ r))
        + ∑ j, Ideal.exp (r j - max (c (ix2 p (0 : Fin 1))) (Finset.univ.fold max ⊥ r)) := by
  unfold k0_pay5
  dsimp only
  refine (congrFun (shapeCast_self _ shapeCasts_S2048x1_S2048x1) _).trans ?_
  refine congrArg₂ (fun a b : EReal => a + b) (congrArg (fun t => l (ix2 p (0 : Fin 1)) * t) (pay2_row z c p r hz)) ?_
  refine (shapeCast_a_a1_apply _ shapeCasts_S2048_S2048x1 p 0).trans ?_
  refine (laneSum_apply (k0_pay3 (F := Ideal) z c) 0x00000000#32 reduces_S2048x256_S2048 _ _ p).trans ?_
  exact Finset.sum_congr rfl fun j _ => pay3_row z c p r hz j

/-- The new running weighted sum: the old one rescaled, plus the sum over the row of the shifted exponential times the
    difference of this side's row and the other side's row `rs`. -/
theorem pay6_row (s : FVec Ideal S2048x256 .f32) (rs : Fin 256 → EReal) (a : Vec Ideal S2048x1 .f32)
    (hs : ∀ j, s (ix2 p j) = rs j) (hz : ∀ j, z (ix2 p j) = r j) :
    k0_pay6 (F := Ideal) s z c a (ix2 p (0 : Fin 1))
      = a (ix2 p (0 : Fin 1))
          * Ideal.exp (c (ix2 p (0 : Fin 1)) - max (c (ix2 p (0 : Fin 1))) (Finset.univ.fold max ⊥ r))
        + ∑ j, Ideal.exp (r j - max (c (ix2 p (0 : Fin 1))) (Finset.univ.fold max ⊥ r)) * (r j - rs j) := by
  unfold k0_pay6
  dsimp only
  refine (congrFun (shapeCast_self _ shapeCasts_S2048x1_S2048x1) _).trans ?_
  refine congrArg₂ (fun a b : EReal => a + b) (congrArg (fun t => a (ix2 p (0 : Fin 1)) * t) (pay2_row z c p r hz)) ?_
  refine (shapeCast_a_a1_apply _ shapeCasts_S2048_S2048x1 p 0).trans ?_
  refine (laneSum_apply (mulf (k0_pay3 (F := Ideal) z c) (subf z s)) 0x00000000#32 reduces_S2048x256_S2048 _ _ p).trans ?_
  refine Finset.sum_congr rfl fun j _ => ?_
  exact congrArg₂ (fun a b : EReal => a * b) (pay3_row z c p r hz j)
    (congrArg₂ (fun a b : EReal => a - b) (hz j) (hs j))

end Row

/-! ## The student's payloads are the same operations on the student's product -/

theorem pay18_eq (x : Vec Ideal S2048x1024 .bf16) (w : Vec Ideal S256x1024 .bf16) (c : Vec Ideal S2048x1 .f32) :
    k0_pay18 (F := Ideal) x w c = k0_pay4 (F := Ideal) (k0_pay15 (F := Ideal) x w) c := rfl

theorem pay19_eq (x : Vec Ideal S2048x1024 .bf16) (w : Vec Ideal S256x1024 .bf16) (c l : Vec Ideal S2048x1 .f32) :
    k0_pay19 (F := Ideal) x w c l = k0_pay5 (F := Ideal) (k0_pay15 (F := Ideal) x w) c l := rfl

/-! ## One grid step at row p is one step of the running statistics -/

section Step

variable (x0 x1 : Vec Ideal S2048x1024 .bf16) (x2 x3 : Vec Ideal S256x1024 .bf16)
  (c0 c1 c2 c3 c4 : Vec Ideal S2048x1 .f32) (p : Fin 2048)

/-- The stored student maximum. -/
theorem step_ms :
    k0_pay18 (F := Ideal) x0 x2 c0 (ix2 p (0 : Fin 1))
      = (step (stats c0 c1 c2 c3 c4 p) (rowDot x0 x2 p) (rowDot x1 x3 p)).ms := by
  rw [pay18_eq]
  exact pay4_row _ c0 p (rowDot x0 x2 p) (pay15_apply x0 x2 p)

/-- The stored student sum of exponentials. -/
theorem step_ls :
    k0_pay19 (F := Ideal) x0 x2 c0 c1 (ix2 p (0 : Fin 1))
      = (step (stats c0 c1 c2 c3 c4 p) (rowDot x0 x2 p) (rowDot x1 x3 p)).ls := by
  rw [pay19_eq]
  exact pay5_row _ c0 p (rowDot x0 x2 p) c1 (pay15_apply x0 x2 p)

/-- The stored teacher maximum. -/
theorem step_mt :
    k0_pay4 (F := Ideal) (k0_pay16 (F := Ideal) x1 x3) c2 (ix2 p (0 : Fin 1))
      = (step (stats c0 c1 c2 c3 c4 p) (rowDot x0 x2 p) (rowDot x1 x3 p)).mt := by
  rw [pay16_eq]
  exact pay4_row _ c2 p (rowDot x1 x3 p) (pay15_apply x1 x3 p)

/-- The stored teacher sum of exponentials. -/
theorem step_lt :
    k0_pay5 (F := Ideal) (k0_pay16 (F := Ideal) x1 x3) c2 c3 (ix2 p (0 : Fin 1))
      = (step (stats c0 c1 c2 c3 c4 p) (rowDot x0 x2 p) (rowDot x1 x3 p)).lt := by
  rw [pay16_eq]
  exact pay5_row _ c2 p (rowDot x1 x3 p) c3 (pay15_apply x1 x3 p)

/-- The stored weighted sum Σ exp(t − m)·(t − s). -/
theorem step_acc :
    k0_pay6 (F := Ideal) (k0_pay15 (F := Ideal) x0 x2) (k0_pay16 (F := Ideal) x1 x3) c2 c4 (ix2 p (0 : Fin 1))
      = (step (stats c0 c1 c2 c3 c4 p) (rowDot x0 x2 p) (rowDot x1 x3 p)).acc := by
  rw [pay16_eq]
  exact pay6_row _ c2 p (rowDot x1 x3 p) _ (rowDot x0 x2 p) c4 (pay15_apply x0 x2 p) (pay15_apply x1 x3 p)

/-- The value written at the last grid step: the divergence read off the statistics. -/
theorem out_eq :
    k0_pay7 (F := Ideal) c0 c1 c2 c3 c4 (ix2 p (0 : Fin 1)) = out (stats c0 c1 c2 c3 c4 p) := rfl

/-- The reset values: the maxima −∞, the sums 0. -/
theorem init_ms : k0_pay10 (F := Ideal) (ix2 p (0 : Fin 1)) = (⊥ : EReal) := by
  unfold k0_pay10 k0_pay8
  dsimp only
  exact (congrFun (shapeCast_self _ shapeCasts_S2048x1_S2048x1) _).trans neg_inf_f32

theorem init_ls : k0_pay11 (F := Ideal) (ix2 p (0 : Fin 1)) = (0 : EReal) := by
  unfold k0_pay11 k0_pay9
  dsimp only
  exact (congrFun (shapeCast_self _ shapeCasts_S2048x1_S2048x1) _).trans Ideal.ofBits_zero_f32

theorem init_mt : k0_pay12 (F := Ideal) (ix2 p (0 : Fin 1)) = (⊥ : EReal) := by
  unfold k0_pay12 k0_pay8
  dsimp only
  exact (congrFun (shapeCast_self _ shapeCasts_S2048x1_S2048x1) _).trans neg_inf_f32

theorem init_lt : k0_pay13 (F := Ideal) (ix2 p (0 : Fin 1)) = (0 : EReal) := by
  unfold k0_pay13 k0_pay9
  dsimp only
  exact (congrFun (shapeCast_self _ shapeCasts_S2048x1_S2048x1) _).trans Ideal.ofBits_zero_f32

theorem init_acc : k0_pay14 (F := Ideal) (ix2 p (0 : Fin 1)) = (0 : EReal) := by
  unfold k0_pay14 k0_pay9
  dsimp only
  exact (congrFun (shapeCast_self _ shapeCasts_S2048x1_S2048x1) _).trans Ideal.ofBits_zero_f32

end Step

end Cert.KernelIdeal.StepValue

end
-- ==== Proof.KIBlocks.lean ====
/-
  The windows' blocks as rectangles of their arrays, and the host lines around the region.

  The region's grid is 2 × 125 with the chunk coordinate fast: point t is row tile t / 125 and vocabulary chunk t % 125.
  The two activation windows hold rows 2048·(t / 125) … of their [4096, 1024] arrays, the two weight windows rows
  256·(t % 125) … of their [32000, 1024] arrays, and the output window rows 2048·(t / 125) … of the [4096, 1] result.
  The four host lines before the region round to bf16, which is the identity on the extended reals; the host lines
  after it sum the [4096, 1] result over both axes and divide by the f32 word of 4096.
-/
import proofs.«130548_j68985764708849_2_alg».proof.Proof.Gen.KernelIdeal.Frame
import Idealize.ShloMosaic.Lib.ValueIdx
import Idealize.ShloMosaic.Lib.Pipeline.Value
import Idealize.ShloMosaic.Lib.StableHlo.Run
import Idealize.ShloMosaic.PureOps.Ideal.Laws

set_option maxRecDepth 16384

noncomputable section

namespace Cert.KernelIdeal.Blocks

open Cert.KernelIdeal Cert.KernelIdeal.Gen Idealize.ShloMosaic Idealize.ShloMosaic.TcCoe Idealize.SL.Sem

variable (m : (ℓ : Loc nD τ sig) → Buf (Elt Ideal) ℓ) (c : Dev nD)

/-! ### The staged arrays are the arguments: rounding to bf16 is the identity on the extended reals -/

/-- The array window 0 stages is argument 0 as launched. -/
theorem V_v0 : (V m c main_v0 : S4096x1024.Idx → EReal) = m ((c.tc : Thread nD τ).loc main_arg0) := by
  show StableHlo.after hostOps0 (fun b => m (c, b)) (Proc.devRef .tc main_v0) = _
  after_results
  rfl

/-- The array window 1 stages is argument 1 as launched. -/
theorem V_v1 : (V m c main_v1 : S4096x1024.Idx → EReal) = m ((c.tc : Thread nD τ).loc main_arg1) := by
  show StableHlo.after hostOps0 (fun b => m (c, b)) (Proc.devRef .tc main_v1) = _
  after_results
  rfl

/-- The array window 2 stages is argument 2 as launched. -/
theorem V_v2 : (V m c main_v2 : S32000x1024.Idx → EReal) = m ((c.tc : Thread nD τ).loc main_arg2) := by
  show StableHlo.after hostOps0 (fun b => m (c, b)) (Proc.devRef .tc main_v2) = _
  after_results
  rfl

/-- The array window 3 stages is argument 3 as launched. -/
theorem V_v3 : (V m c main_v3 : S32000x1024.Idx → EReal) = m ((c.tc : Thread nD τ).loc main_arg3) := by
  show StableHlo.after hostOps0 (fun b => m (c, b)) (Proc.devRef .tc main_v3) = _
  after_results
  rfl

/-! ### Each input window's block is a rectangle of its array -/

/-- The printed index maps of window 0, decided over the grid. -/
theorem idx0 : ∀ t : Fin cfg0.N, win0_0.index t (0 : Fin 2) = t.val / 125 ∧ win0_0.index t (1 : Fin 2) = 0 :=
  (by decide +kernel : ∀ t : Fin grid0.N, _)

/-- Where an entry of window 0's block at point `t` sits in the array: row 2048·(t / 125) + its row, same column. -/
theorem emb0 (t : Fin cfg0.N) (p : Fin 2048) (h : Fin 1024) :
    ((cfg0.win 0).blk t).view.emb (ValueIdx.ix2 p h)
      = (ValueIdx.ix2 ⟨2048 * (t.val / 125) + p.val, by have := t.isLt; have : cfg0.N = 250 := N_0; omega⟩ h : S4096x1024.Idx) := by
  obtain ⟨e0, e1⟩ := idx0 t
  funext a; apply Fin.ext
  match a with
  | ⟨0, _⟩ => show win0_0.index t (0 : Fin 2) * 2048 + 1 * p.val = 2048 * (t.val / 125) + p.val; omega
  | ⟨1, _⟩ => show win0_0.index t (1 : Fin 2) * 1024 + 1 * h.val = h.val; omega

/-- Window 0's block at point `t` is that rectangle of argument 0. -/
theorem blk0 (t : Fin cfg0.N) (p : Fin 2048) (h : Fin 1024) :
    iblk m c 0 t (ValueIdx.ix2 p h) = m ((c.tc : Thread nD τ).loc main_arg0)
      (ValueIdx.ix2 ⟨2048 * (t.val / 125) + p.val, by have := t.isLt; have : cfg0.N = 250 := N_0; omega⟩ h) := by
  show (V m c main_v0 : S4096x1024.Idx → EReal) (((cfg0.win 0).blk t).view.emb (ValueIdx.ix2 p h)) = _
  rw [emb0, V_v0]

/-- The printed index maps of window 1, decided over the grid. -/
theorem idx1 : ∀ t : Fin cfg0.N, win0_1.index t (0 : Fin 2) = t.val / 125 ∧ win0_1.index t (1 : Fin 2) = 0 :=
  (by decide +kernel : ∀ t : Fin grid0.N, _)

/-- Where an entry of window 1's block at point `t` sits in the array: row 2048·(t / 125) + its row, same column. -/
theorem emb1 (t : Fin cfg0.N) (p : Fin 2048) (h : Fin 1024) :
    ((cfg0.win 1).blk t).view.emb (ValueIdx.ix2 p h)
      = (ValueIdx.ix2 ⟨2048 * (t.val / 125) + p.val, by have := t.isLt; have : cfg0.N = 250 := N_0; omega⟩ h : S4096x1024.Idx) := by
  obtain ⟨e0, e1⟩ := idx1 t
  funext a; apply Fin.ext
  match a with
  | ⟨0, _⟩ => show win0_1.index t (0 : Fin 2) * 2048 + 1 * p.val = 2048 * (t.val / 125) + p.val; omega
  | ⟨1, _⟩ => show win0_1.index t (1 : Fin 2) * 1024 + 1 * h.val = h.val; omega

/-- Window 1's block at point `t` is that rectangle of argument 1. -/
theorem blk1 (t : Fin cfg0.N) (p : Fin 2048) (h : Fin 1024) :
    iblk m c 1 t (ValueIdx.ix2 p h) = m ((c.tc : Thread nD τ).loc main_arg1)
      (ValueIdx.ix2 ⟨2048 * (t.val / 125) + p.val, by have := t.isLt; have : cfg0.N = 250 := N_0; omega⟩ h) := by
  show (V m c main_v1 : S4096x1024.Idx → EReal) (((cfg0.win 1).blk t).view.emb (ValueIdx.ix2 p h)) = _
  rw [emb1, V_v1]

/-- The printed index maps of window 2, decided over the grid. -/
theorem idx2 : ∀ t : Fin cfg0.N, win0_2.index t (0 : Fin 2) = t.val % 125 ∧ win0_2.index t (1 : Fin 2) = 0 :=
  (by decide +kernel : ∀ t : Fin grid0.N, _)

/-- Where an entry of window 2's block at point `t` sits in the array: row 256·(t % 125) + its row, same column. -/
theorem emb2 (t : Fin cfg0.N) (j : Fin 256) (h : Fin 1024) :
    ((cfg0.win 2).blk t).view.emb (ValueIdx.ix2 j h)
      = (ValueIdx.ix2 ⟨256 * (t.val % 125) + j.val, by have := Nat.mod_lt t.val (show 0 < 125 by decide); omega⟩ h : S32000x1024.Idx) := by
  obtain ⟨e0, e1⟩ := idx2 t
  funext a; apply Fin.ext
  match a with
  | ⟨0, _⟩ => show win0_2.index t (0 : Fin 2) * 256 + 1 * j.val = 256 * (t.val % 125) + j.val; omega
  | ⟨1, _⟩ => show win0_2.index t (1 : Fin 2) * 1024 + 1 * h.val = h.val; omega

/-- Window 2's block at point `t` is that rectangle of argument 2. -/
theorem blk2 (t : Fin cfg0.N) (j : Fin 256) (h : Fin 1024) :
    iblk m c 2 t (ValueIdx.ix2 j h) = m ((c.tc : Thread nD τ).loc main_arg2)
      (ValueIdx.ix2 ⟨256 * (t.val % 125) + j.val, by have := Nat.mod_lt t.val (show 0 < 125 by decide); omega⟩ h) := by
  show (V m c main_v2 : S32000x1024.Idx → EReal) (((cfg0.win 2).blk t).view.emb (ValueIdx.ix2 j h)) = _
  rw [emb2, V_v2]

/-- The printed index maps of window 3, decided over the grid. -/
theorem idx3 : ∀ t : Fin cfg0.N, win0_3.index t (0 : Fin 2) = t.val % 125 ∧ win0_3.index t (1 : Fin 2) = 0 :=
  (by decide +kernel : ∀ t : Fin grid0.N, _)

/-- Where an entry of window 3's block at point `t` sits in the array: row 256·(t % 125) + its row, same column. -/
theorem emb3 (t : Fin cfg0.N) (j : Fin 256) (h : Fin 1024) :
    ((cfg0.win 3).blk t).view.emb (ValueIdx.ix2 j h)
      = (ValueIdx.ix2 ⟨256 * (t.val % 125) + j.val, by have := Nat.mod_lt t.val (show 0 < 125 by decide); omega⟩ h : S32000x1024.Idx) := by
  obtain ⟨e0, e1⟩ := idx3 t
  funext a; apply Fin.ext
  match a with
  | ⟨0, _⟩ => show win0_3.index t (0 : Fin 2) * 256 + 1 * j.val = 256 * (t.val % 125) + j.val; omega
  | ⟨1, _⟩ => show win0_3.index t (1 : Fin 2) * 1024 + 1 * h.val = h.val; omega

/-- Window 3's block at point `t` is that rectangle of argument 3. -/
theorem blk3 (t : Fin cfg0.N) (j : Fin 256) (h : Fin 1024) :
    iblk m c 3 t (ValueIdx.ix2 j h) = m ((c.tc : Thread nD τ).loc main_arg3)
      (ValueIdx.ix2 ⟨256 * (t.val % 125) + j.val, by have := Nat.mod_lt t.val (show 0 < 125 by decide); omega⟩ h) := by
  show (V m c main_v3 : S32000x1024.Idx → EReal) (((cfg0.win 3).blk t).view.emb (ValueIdx.ix2 j h)) = _
  rw [emb3, V_v3]

/-! ### The host lines after the region -/

/-- The sum of the [4096, 1] result over both axes from the f32 zero, divided by the f32 word of 4096, is the sum over the
    4096 rows divided by that word. -/
theorem tail_eq (x : Vec Ideal S4096x1 .f32) :
    Host.divf (Host.reduceAdd x (constant S_ .f32 0x00000000#32) reducesTo_S4096x1_S_d0_1 h_S_)
        (constant (F := Ideal) S_ .f32 0x45800000#32)
      = fun _ => Ideal.div (∑ r : Fin 4096, x (ValueIdx.ix2 r (0 : Fin 1))) (Ideal.ofBits .f32 0x45800000#32) := by
  funext i
  show Ideal.div (Ideal.hostReduceAdd reducesTo_S4096x1_S_d0_1 x (Ideal.ofBits .f32 0x00000000#32) i)
    (Ideal.ofBits .f32 0x45800000#32) = _
  rw [Ideal.hostReduceAdd_total reducesTo_S4096x1_S_d0_1 (fun b => b.elim0), Ideal.ofBits_zero_f32, zero_add,
    ValueIdx.sum_idx2]
  simp only [Fin.sum_univ_one]

/-! ### The output window's blocks -/

/-- The printed index maps of window 4, decided over the grid. -/
theorem idx4 : ∀ t : Fin cfg0.N, win0_4.index t (0 : Fin 2) = t.val / 125 ∧ win0_4.index t (1 : Fin 2) = 0 :=
  (by decide +kernel : ∀ t : Fin grid0.N, _)

/-- Where an entry of the output block at point `t` sits in the [4096, 1] result: row 2048·(t / 125) + its row. -/
theorem blk4_emb (t : Fin cfg0.N) (p : Fin 2048) :
    ((cfg0.win 4).blk t).view.emb (ValueIdx.ix2 p (0 : Fin 1))
      = (ValueIdx.ix2 ⟨2048 * (t.val / 125) + p.val, by have := t.isLt; have : cfg0.N = 250 := N_0; omega⟩
          (0 : Fin 1) : S4096x1.Idx) := by
  obtain ⟨e0, e1⟩ := idx4 t
  funext a; apply Fin.ext
  match a with
  | ⟨0, _⟩ => show win0_4.index t (0 : Fin 2) * 2048 + 1 * p.val = 2048 * (t.val / 125) + p.val; omega
  | ⟨1, _⟩ => show win0_4.index t (1 : Fin 2) * 1 + 1 * 0 = 0; omega

/-- An index of the result is in point `t`'s block iff each coordinate is in the block's range on its axis. -/
theorem mem_blk4_axes (t : Fin cfg0.N) (y : S4096x1.Idx) :
    y ∈ ((cfg0.win 4).blk t).view.set ↔ ∀ a : Fin 2, win0_4.index t a * S2048x1.size a ≤ (y a).val
      ∧ (y a).val < win0_4.index t a * S2048x1.size a + S2048x1.size a := by
  show y ∈ ((View.whole main_v4).slice (win0_4.rect t)).set ↔ _
  rw [View.set_slice_whole, Rect.mem_set_unit]
  exact Iff.rfl

/-- So it is in point `t`'s block iff its row lies in row tile t / 125. -/
theorem mem_blk4 (t : Fin cfg0.N) (y : S4096x1.Idx) :
    y ∈ ((cfg0.win 4).blk t).view.set ↔ (y 0).val / 2048 = t.val / 125 := by
  rw [mem_blk4_axes]
  obtain ⟨e0, e1⟩ := idx4 t
  have h1 : (y 1).val < 1 := (y 1).isLt
  constructor
  · intro h
    have b0 : win0_4.index t (0 : Fin 2) * 2048 ≤ (y 0).val
        ∧ (y 0).val < win0_4.index t (0 : Fin 2) * 2048 + 2048 := h 0
    omega
  · intro h a
    match a with
    | ⟨0, _⟩ =>
      show win0_4.index t (0 : Fin 2) * 2048 ≤ (y 0).val ∧ (y 0).val < win0_4.index t (0 : Fin 2) * 2048 + 2048
      omega
    | ⟨1, _⟩ =>
      show win0_4.index t (1 : Fin 2) * 1 ≤ (y 1).val ∧ (y 1).val < win0_4.index t (1 : Fin 2) * 1 + 1
      omega

end Cert.KernelIdeal.Blocks

end
-- ==== Proof.OnlineKL.lean ====
/-
  The streaming computation of the Kullback–Leibler divergence equals the plain one, for real logits.

  Write x for the student row and y for the teacher row, both real.  After the chunks whose entries form the finite
  set F have been seen, the five running statistics are (the coercions of) the real numbers

      Mx = max over F of x,   Lx = Σ_F exp(x − Mx),   My = max over F of y,   Ly = Σ_F exp(y − My),
      A  = Σ_F exp(y − My)·(y − x):

  the first chunk starts from maximum −∞ and sums 0, where the rescaling factor multiplies a zero sum and does not matter;
  every later chunk is an update among reals, where the rescaling identity exp(v − M)·exp(M − M') = exp(v − M') moves every
  term already summed from the old maximum M to the new one M'.  When all chunks have been seen F is the whole vocabulary,
  and A / Ly − (My + log Ly) + (Mx + log Lx) is the plain divergence because the teacher's softmax weights
  exp(y − My) / Ly sum to 1.
-/
import proofs.«130548_j68985764708849_2_alg».proof.Proof.KLSpec

noncomputable section

open scoped BigOperators

namespace Cert.OnlineKL

open Idealize.ShloMosaic

/-! ### Coercions from the reals to the extended reals -/

/-- The coercion of a finite sum of reals is the sum of the coercions. -/
theorem coe_sum {α : Type} (F : Finset α) (f : α → ℝ) :
    ((∑ a ∈ F, f a : ℝ) : EReal) = ∑ a ∈ F, (f a : EReal) := by
  classical
  induction F using Finset.induction_on with
  | empty => simp
  | insert a F ha ih => rw [Finset.sum_insert ha, Finset.sum_insert ha, EReal.coe_add, ih]

/-- The coercion of the greater of two reals is the greater of the coercions. -/
theorem coe_max (a b : ℝ) : ((max a b : ℝ) : EReal) = max (a : EReal) (b : EReal) :=
  EReal.coe_strictMono.monotone.map_max

/-! ### The greatest value of a real function on a finite set -/

/-- `M` is the greatest value of `x` on the finite set `F`. -/
def IsMaxOf {α : Type} (F : Finset α) (x : α → ℝ) (M : ℝ) : Prop :=
  (∀ a ∈ F, x a ≤ M) ∧ ∃ a ∈ F, x a = M

/-- The greatest value is unique. -/
theorem IsMaxOf.unique {α : Type} {F : Finset α} {x : α → ℝ} {M N : ℝ} (hM : IsMaxOf F x M) (hN : IsMaxOf F x N) :
    M = N := by
  obtain ⟨a, ha, rfl⟩ := hM.2
  obtain ⟨b, hb, rfl⟩ := hN.2
  exact le_antisymm (hN.1 a ha) (hM.1 b hb)

/-- The greatest value on a union is the greater of the two greatest values. -/
theorem IsMaxOf.union {α : Type} [DecidableEq α] {F G : Finset α} {x : α → ℝ} {M N : ℝ}
    (hM : IsMaxOf F x M) (hN : IsMaxOf G x N) : IsMaxOf (F ∪ G) x (max M N) := by
  refine ⟨fun a ha => ?_, ?_⟩
  · rcases Finset.mem_union.1 ha with h | h
    · exact (hM.1 a h).trans (le_max_left _ _)
    · exact (hN.1 a h).trans (le_max_right _ _)
  · rcases max_choice M N with h | h
    · obtain ⟨a, ha, hxa⟩ := hM.2
      exact ⟨a, Finset.mem_union_left _ ha, by rw [h, hxa]⟩
    · obtain ⟨a, ha, hxa⟩ := hN.2
      exact ⟨a, Finset.mem_union_right _ ha, by rw [h, hxa]⟩

/-- The greatest value of `x ∘ c` on everything is the greatest value of `x` on the image of `c`. -/
theorem IsMaxOf.map {α β : Type} [Fintype β] {c : β ↪ α} {x : α → ℝ} {M : ℝ}
    (hM : IsMaxOf Finset.univ (fun b => x (c b)) M) : IsMaxOf (Finset.univ.map c) x M := by
  refine ⟨fun a ha => ?_, ?_⟩
  · obtain ⟨b, -, rfl⟩ := Finset.mem_map.1 ha
    exact hM.1 b (Finset.mem_univ b)
  · obtain ⟨b, -, hb⟩ := hM.2
    exact ⟨c b, Finset.mem_map_of_mem c (Finset.mem_univ b), hb⟩

/-- The fold of `max` from −∞ over the coercions of a real function on a nonempty finite set is the coercion of its
    greatest value. -/
theorem fold_max_coe {α : Type} (F : Finset α) (hF : F.Nonempty) (x : α → ℝ) :
    ∃ M, IsMaxOf F x M ∧ F.fold max ⊥ (fun a => (x a : EReal)) = (M : EReal) := by
  obtain ⟨a, ha, hmax⟩ := Finset.exists_max_image F x hF
  refine ⟨x a, ⟨hmax, a, ha, rfl⟩, le_antisymm ?_ ?_⟩
  · exact (Finset.fold_max_le _).2 ⟨bot_le, fun b hb => EReal.coe_le_coe_iff.2 (hmax b hb)⟩
  · exact (Finset.le_fold_max _).2 (Or.inr ⟨a, ha, le_rfl⟩)

/-! ### One update of the statistics, among reals -/

/-- The first update: from maxima −∞ and sums 0 the statistics become the chunk's own. -/
theorem step_init {B : ℕ} (xk yk : Fin B → ℝ) (mx my : ℝ)
    (hx : Finset.univ.fold max ⊥ (fun j => (xk j : EReal)) = (mx : EReal))
    (hy : Finset.univ.fold max ⊥ (fun j => (yk j : EReal)) = (my : EReal)) :
    step init (fun j => (xk j : EReal)) (fun j => (yk j : EReal))
      = ⟨(mx : ℝ), (∑ j, Real.exp (xk j - mx) : ℝ), (my : ℝ), (∑ j, Real.exp (yk j - my) : ℝ),
          (∑ j, Real.exp (yk j - my) * (yk j - xk j) : ℝ)⟩ := by
  simp only [step, init, hx, hy, max_bot_left, zero_mul, zero_add, ← EReal.coe_sub, Ideal.exp_coe, ← EReal.coe_mul,
    ← coe_sum]

/-- A later update: all five statistics real. -/
theorem step_coe {B : ℕ} (a b c d f : ℝ) (xk yk : Fin B → ℝ) (mx my : ℝ)
    (hx : Finset.univ.fold max ⊥ (fun j => (xk j : EReal)) = (mx : EReal))
    (hy : Finset.univ.fold max ⊥ (fun j => (yk j : EReal)) = (my : EReal)) :
    step ⟨(a : ℝ), (b : ℝ), (c : ℝ), (d : ℝ), (f : ℝ)⟩ (fun j => (xk j : EReal)) (fun j => (yk j : EReal))
      = ⟨(max a mx : ℝ), (b * Real.exp (a - max a mx) + ∑ j, Real.exp (xk j - max a mx) : ℝ),
          (max c my : ℝ), (d * Real.exp (c - max c my) + ∑ j, Real.exp (yk j - max c my) : ℝ),
          (f * Real.exp (c - max c my) + ∑ j, Real.exp (yk j - max c my) * (yk j - xk j) : ℝ)⟩ := by
  simp only [step, hx, hy, ← coe_max, ← EReal.coe_sub, Ideal.exp_coe, ← EReal.coe_mul, ← coe_sum, ← EReal.coe_add]

/-! ### The statistics as real sums over the entries seen -/

/-- Moving every term of a weighted sum of exponentials from the maximum `M` to the maximum `M'`. -/
theorem rescale_wsum {α : Type} (F : Finset α) (x w : α → ℝ) (M M' : ℝ) :
    (∑ a ∈ F, Real.exp (x a - M) * w a) * Real.exp (M - M') = ∑ a ∈ F, Real.exp (x a - M') * w a := by
  rw [Finset.sum_mul]
  refine Finset.sum_congr rfl fun a _ => ?_
  rw [mul_right_comm, ← Real.exp_add, sub_add_sub_cancel]

/-- Moving every term of a sum of exponentials from the maximum `M` to the maximum `M'`. -/
theorem rescale_sum {α : Type} (F : Finset α) (x : α → ℝ) (M M' : ℝ) :
    (∑ a ∈ F, Real.exp (x a - M)) * Real.exp (M - M') = ∑ a ∈ F, Real.exp (x a - M') := by
  simpa using rescale_wsum F x (fun _ => 1) M M'

/-- The five statistics of the entries in `F`, for the maxima `Mx` and `My`. -/
def statsOn {α : Type} (F : Finset α) (x y : α → ℝ) (Mx My : ℝ) : Stats :=
  ⟨(Mx : ℝ), (∑ a ∈ F, Real.exp (x a - Mx) : ℝ), (My : ℝ), (∑ a ∈ F, Real.exp (y a - My) : ℝ),
    (∑ a ∈ F, Real.exp (y a - My) * (y a - x a) : ℝ)⟩

/-- The first chunk: the statistics become those of the chunk's entries. -/
theorem step_init_statsOn {α : Type} {B : ℕ} (hB : 0 < B) (c : Fin B ↪ α) (x y : α → ℝ) :
    ∃ Mx My, IsMaxOf (Finset.univ.map c) x Mx ∧ IsMaxOf (Finset.univ.map c) y My ∧
      step init (fun j => (x (c j) : EReal)) (fun j => (y (c j) : EReal)) = statsOn (Finset.univ.map c) x y Mx My := by
  haveI : Nonempty (Fin B) := ⟨⟨0, hB⟩⟩
  obtain ⟨mx, hmx, hfx⟩ := fold_max_coe Finset.univ Finset.univ_nonempty (fun j => x (c j))
  obtain ⟨my, hmy, hfy⟩ := fold_max_coe Finset.univ Finset.univ_nonempty (fun j => y (c j))
  refine ⟨mx, my, hmx.map, hmy.map, ?_⟩
  rw [step_init _ _ mx my hfx hfy, statsOn, Finset.sum_map, Finset.sum_map, Finset.sum_map]

/-- A later chunk: the statistics of `F` become those of `F` and the chunk's entries together. -/
theorem step_statsOn {α : Type} [DecidableEq α] {B : ℕ} (hB : 0 < B) (F : Finset α) (c : Fin B ↪ α)
    (hd : Disjoint F (Finset.univ.map c)) (x y : α → ℝ) (Mx My : ℝ) (hMx : IsMaxOf F x Mx) (hMy : IsMaxOf F y My) :
    ∃ Mx' My', IsMaxOf (F ∪ Finset.univ.map c) x Mx' ∧ IsMaxOf (F ∪ Finset.univ.map c) y My' ∧
      step (statsOn F x y Mx My) (fun j => (x (c j) : EReal)) (fun j => (y (c j) : EReal))
        = statsOn (F ∪ Finset.univ.map c) x y Mx' My' := by
  haveI : Nonempty (Fin B) := ⟨⟨0, hB⟩⟩
  obtain ⟨mx, hmx, hfx⟩ := fold_max_coe Finset.univ Finset.univ_nonempty (fun j => x (c j))
  obtain ⟨my, hmy, hfy⟩ := fold_max_coe Finset.univ Finset.univ_nonempty (fun j => y (c j))
  refine ⟨max Mx mx, max My my, hMx.union hmx.map, hMy.union hmy.map, ?_⟩
  rw [statsOn, step_coe _ _ _ _ _ _ _ mx my hfx hfy, statsOn, Finset.sum_union hd, Finset.sum_union hd,
    Finset.sum_union hd, Finset.sum_map, Finset.sum_map, Finset.sum_map, rescale_sum, rescale_sum, rescale_wsum]

/-! ### The entries of the first chunks -/

/-- The entries of chunk `k`. -/
def chunk {K : ℕ} (B : ℕ) (k : Fin K) : Fin B ↪ Fin K × Fin B :=
  ⟨fun j => (k, j), fun _ _ h => (Prod.mk.inj h).2⟩

/-- The entries of the first `n` chunks. -/
def seen (K B n : ℕ) : Finset (Fin K × Fin B) := Finset.univ.filter fun p => p.1.val < n

/-- Before the first chunk nothing has been seen. -/
theorem seen_zero (K B : ℕ) : seen K B 0 = ∅ := by simp [seen]

/-- After all `K` chunks every entry has been seen. -/
theorem seen_all (K B : ℕ) : seen K B K = Finset.univ := by
  ext p; simp [seen]

/-- An entry has been seen after `n` chunks when its chunk's number is below `n`. -/
theorem mem_seen {K B n : ℕ} (p : Fin K × Fin B) : p ∈ seen K B n ↔ p.1.val < n := by simp [seen]

/-- An entry belongs to chunk `k` when its first coordinate is `k`. -/
theorem mem_chunk {K B : ℕ} (k : Fin K) (p : Fin K × Fin B) : p ∈ Finset.univ.map (chunk B k) ↔ p.1 = k := by
  constructor
  · intro h
    obtain ⟨j, -, rfl⟩ := Finset.mem_map.1 h
    rfl
  · intro h
    subst h
    exact Finset.mem_map.2 ⟨p.2, Finset.mem_univ _, rfl⟩

/-- The entries of the first `n + 1` chunks are those of the first `n` together with those of chunk `n`. -/
theorem seen_succ {K B n : ℕ} (h : n < K) :
    seen K B (n + 1) = seen K B n ∪ Finset.univ.map (chunk B ⟨n, h⟩) := by
  ext p
  rw [Finset.mem_union, mem_seen, mem_seen, mem_chunk, Nat.lt_succ_iff_lt_or_eq, Fin.ext_iff]

/-- Chunk `n` is new: none of its entries is in the first `n` chunks. -/
theorem seen_disjoint {K B n : ℕ} (h : n < K) : Disjoint (seen K B n) (Finset.univ.map (chunk B ⟨n, h⟩)) := by
  rw [Finset.disjoint_left]
  intro p hp hq
  rw [mem_seen] at hp
  rw [mem_chunk] at hq
  rw [hq] at hp
  exact lt_irrefl n hp

/-- After `n + 1` chunks the statistics are those of the entries seen, for their greatest values. -/
theorem run_eq {K B : ℕ} (hB : 0 < B) (x y : Fin K × Fin B → ℝ) :
    ∀ (n : ℕ) (h : n + 1 ≤ K), ∃ Mx My, IsMaxOf (seen K B (n + 1)) x Mx ∧ IsMaxOf (seen K B (n + 1)) y My ∧
      run (fun k j => (x (k, j) : EReal)) (fun k j => (y (k, j) : EReal)) (n + 1) h
        = statsOn (seen K B (n + 1)) x y Mx My := by
  intro n
  induction n with
  | zero =>
    intro h
    have hs : seen K B (0 + 1) = Finset.univ.map (chunk B ⟨0, h⟩) := by
      rw [seen_succ h, seen_zero, Finset.empty_union]
    rw [hs]
    exact step_init_statsOn hB (chunk B ⟨0, h⟩) x y
  | succ n ih =>
    intro h
    obtain ⟨Mx, My, hMx, hMy, hrun⟩ := ih (Nat.le_of_succ_le h)
    rw [seen_succ h]
    have key := step_statsOn hB (seen K B (n + 1)) (chunk B ⟨n + 1, h⟩) (seen_disjoint h) x y Mx My hMx hMy
    rw [← hrun] at key
    exact key

/-! ### Reading the divergence off the final statistics -/

/-- A sum of exponentials over a nonempty finite set is positive. -/
theorem sum_exp_pos {α : Type} (F : Finset α) (hF : F.Nonempty) (x : α → ℝ) (M : ℝ) :
    0 < ∑ a ∈ F, Real.exp (x a - M) :=
  Finset.sum_pos (fun a _ => Real.exp_pos _) hF

/-- The streaming result, as a real number. -/
theorem out_statsOn {α : Type} (F : Finset α) (hF : F.Nonempty) (x y : α → ℝ) (Mx My : ℝ) :
    out (statsOn F x y Mx My)
      = (((∑ a ∈ F, Real.exp (y a - My) * (y a - x a)) / (∑ a ∈ F, Real.exp (y a - My))
          - (My + Real.log (∑ a ∈ F, Real.exp (y a - My)))
          + (Mx + Real.log (∑ a ∈ F, Real.exp (x a - Mx))) : ℝ) : EReal) := by
  have hx := sum_exp_pos F hF x Mx
  have hy := sum_exp_pos F hF y My
  simp only [out, statsOn, Ideal.div_coe hy.ne', Ideal.log_coe, if_neg (not_le.2 hx), if_neg (not_le.2 hy),
    ← EReal.coe_mul, ← EReal.coe_add, ← EReal.coe_sub, mul_one_div]

/-- The log-softmax of a real row, as a real number. -/
theorem logSoftmax_coe {ι : Type} [Fintype ι] [Nonempty ι] (x : ι → ℝ) (M : ℝ) (hM : IsMaxOf Finset.univ x M)
    (v : ι) :
    logSoftmax (fun u => (x u : EReal)) v = ((x v - M - Real.log (∑ u, Real.exp (x u - M)) : ℝ) : EReal) := by
  obtain ⟨M', hM', hf⟩ := fold_max_coe Finset.univ Finset.univ_nonempty x
  have hMM : M' = M := hM'.unique hM
  subst hMM
  have hpos := sum_exp_pos Finset.univ Finset.univ_nonempty x M'
  simp only [logSoftmax, hf, ← EReal.coe_sub, Ideal.exp_coe, ← coe_sum, Ideal.log_coe, if_neg (not_le.2 hpos)]

/-- The plain divergence of two real rows, as a real number. -/
theorem refKL_coe {ι : Type} [Fintype ι] [Nonempty ι] (x y : ι → ℝ) (Mx My : ℝ)
    (hMx : IsMaxOf Finset.univ x Mx) (hMy : IsMaxOf Finset.univ y My) :
    refKL (fun v => (x v : EReal)) (fun v => (y v : EReal))
      = ((∑ v, Real.exp (y v - My - Real.log (∑ u, Real.exp (y u - My))) *
            ((y v - My - Real.log (∑ u, Real.exp (y u - My)))
              - (x v - Mx - Real.log (∑ u, Real.exp (x u - Mx)))) : ℝ) : EReal) := by
  simp only [refKL, logSoftmax_coe x Mx hMx, logSoftmax_coe y My hMy, Ideal.exp_coe, ← EReal.coe_sub,
    ← EReal.coe_mul, ← coe_sum]

/-- The identity among reals: the teacher's softmax weights exp(y − My) / Ly sum to 1, so the constant
    −(My + log Ly) + (Mx + log Lx) comes out of the weighted sum unchanged. -/
theorem kl_identity {ι : Type} [Fintype ι] [Nonempty ι] (x y : ι → ℝ) (Mx My : ℝ) :
    (∑ v, Real.exp (y v - My) * (y v - x v)) / (∑ v, Real.exp (y v - My))
        - (My + Real.log (∑ v, Real.exp (y v - My))) + (Mx + Real.log (∑ v, Real.exp (x v - Mx)))
      = ∑ v, Real.exp (y v - My - Real.log (∑ u, Real.exp (y u - My))) *
            ((y v - My - Real.log (∑ u, Real.exp (y u - My)))
              - (x v - Mx - Real.log (∑ u, Real.exp (x u - Mx)))) := by
  have hy := sum_exp_pos Finset.univ Finset.univ_nonempty y My
  generalize Real.log (∑ v, Real.exp (x v - Mx)) = lx
  generalize hLy : ∑ v, Real.exp (y v - My) = Ly at hy ⊢
  have h1 : ∀ v, Real.exp (y v - My - Real.log Ly) * ((y v - My - Real.log Ly) - (x v - Mx - lx))
      = Real.exp (y v - My) * (y v - x v) / Ly
        + Real.exp (y v - My) / Ly * (-(My + Real.log Ly) + (Mx + lx)) := by
    intro v
    rw [Real.exp_sub, Real.exp_log hy]
    ring
  simp_rw [h1]
  rw [Finset.sum_add_distrib, ← Finset.sum_div, ← Finset.sum_mul, ← Finset.sum_div, hLy, div_self hy.ne']
  ring

/-! ### Re-indexing along a bijection -/

/-- The greatest value of a row does not depend on how its entries are indexed. -/
theorem IsMaxOf.of_equiv {α β : Type} [Fintype α] [Fintype β] (e : α ≃ β) {x : β → ℝ} {M : ℝ}
    (h : IsMaxOf Finset.univ (fun a => x (e a)) M) : IsMaxOf Finset.univ x M := by
  refine ⟨fun b _ => ?_, ?_⟩
  · have := h.1 (e.symm b) (Finset.mem_univ _)
    simpa using this
  · obtain ⟨a, -, ha⟩ := h.2
    exact ⟨e a, Finset.mem_univ _, ha⟩

/-- Nor do the statistics of all entries: each is a sum over all of them. -/
theorem statsOn_equiv {α β : Type} [Fintype α] [Fintype β] (e : α ≃ β) (x y : β → ℝ) (Mx My : ℝ) :
    statsOn Finset.univ (fun a => x (e a)) (fun a => y (e a)) Mx My = statsOn Finset.univ x y Mx My := by
  have h1 : ∑ a, Real.exp (x (e a) - Mx) = ∑ b, Real.exp (x b - Mx) :=
    Equiv.sum_comp e (fun b => Real.exp (x b - Mx))
  have h2 : ∑ a, Real.exp (y (e a) - My) = ∑ b, Real.exp (y b - My) :=
    Equiv.sum_comp e (fun b => Real.exp (y b - My))
  have h3 : ∑ a, Real.exp (y (e a) - My) * (y (e a) - x (e a)) = ∑ b, Real.exp (y b - My) * (y b - x b) :=
    Equiv.sum_comp e (fun b => Real.exp (y b - My) * (y b - x b))
  simp only [statsOn, h1, h2, h3]

/-! ### The streaming divergence is the plain one -/

/-- For real logits cut into `K` chunks of `B` entries along the bijection `e`, the divergence read off the streaming
    statistics after the last chunk is the plain divergence of the two rows. -/
theorem online_eq_ref {K B : ℕ} {ι : Type} [Fintype ι] (e : Fin K × Fin B ≃ ι) (hK : 0 < K) (hB : 0 < B)
    (s t : ι → ℝ) :
    out (run (fun k j => ((s (e (k, j)) : ℝ) : EReal)) (fun k j => ((t (e (k, j)) : ℝ) : EReal)) K le_rfl)
      = refKL (fun v => ((s v : ℝ) : EReal)) (fun v => ((t v : ℝ) : EReal)) := by
  haveI : Nonempty ι := ⟨e (⟨0, hK⟩, ⟨0, hB⟩)⟩
  obtain ⟨n, rfl⟩ : ∃ n, K = n + 1 := ⟨K - 1, by omega⟩
  obtain ⟨Mx, My, hMx, hMy, hrun⟩ := run_eq hB (fun p => s (e p)) (fun p => t (e p)) n le_rfl
  rw [seen_all] at hMx hMy hrun
  rw [hrun, statsOn_equiv e s t Mx My, out_statsOn _ Finset.univ_nonempty,
    refKL_coe s t Mx My (IsMaxOf.of_equiv e hMx) (IsMaxOf.of_equiv e hMy), kl_identity]

end Cert.OnlineKL

end
-- ==== Proof.LibAllEntries.lean ====
/-
  A predicate of the form "all entries of an array satisfy P", computed as the conjunction over the whole array of an
  entrywise comparison, read back entry by entry: when the conjunction is the bit 1, the comparison holds at every index.
  Two comparisons are decoded on the extended reals: |x| < +inf at every entry makes every entry a real number, and
  x ≥ 0 at every entry makes every entry nonnegative. The statements are general in the array's shape; a conjunction of
  two such predicates splits into its two parts.
-/
import Idealize.ShloMosaic.PureOps.Ideal
import Idealize.ShloMosaic.PureOps.Ideal.Laws
import Idealize.ShloMosaic.Lib.ReduceAll
import Idealize.ShloMosaic.Lib.ValueIdx

noncomputable section

namespace Cert.Lib.AllEntries

open Idealize.ShloMosaic Idealize.ShloMosaic.ValueIdx

/-- The scalar shape has exactly one index: two indices are functions on an empty set of axes. -/
instance scalarIdxSubsingleton : Subsingleton (⟨0, ![]⟩ : Shape).Idx :=
  ⟨fun _ _ => funext fun d => d.elim0⟩

/-- A bit made from a Boolean is 1 exactly when the Boolean is true. -/
theorem bit_eq_one {b : Bool} : BitVec.ofBool b = 1#1 ↔ b = true := by cases b <;> decide

/-- An extended real whose absolute value max v (-v) is below +inf is a real number: both infinities have
    absolute value +inf. -/
theorem real_of_abs_lt_top (v : EReal) (h : max v (-v) < ⊤) : ∃ r : ℝ, v = r := by
  induction v using EReal.rec with
  | bot => simp at h
  | coe r => exact ⟨r, rfl⟩
  | top => simp at h

/-- The f32 pattern 0x7F800000 (sign clear, exponent all ones, fraction zero) denotes +inf. -/
theorem inf_f32 : Ideal.ofBits .f32 0x7F800000#32 = (⊤ : EReal) := by
  simp [Ideal.ofBits, Ideal.ieee]

/-- A conjunction of two bit arrays that is 1 at an index has both conjuncts 1 there. -/
theorem and_split {s : Shape} (x y : IVec s 1) (i : s.Idx) (h : andi x y i = 1#1) : x i = 1#1 ∧ y i = 1#1 :=
  IntOp.andi_eq_one.1 h

/-- The splat of the scalar pattern 0x7F800000 over any shape is +inf at every index. -/
theorem splat_inf {s : Shape} (hb : (⟨0, ![]⟩ : Shape).BroadcastsInDim s (![] : Fin 0 → Fin s.rank)) (i : s.Idx) :
    broadcastInDim s ![] hb (constant (F := Ideal) (⟨0, ![]⟩ : Shape) .f32 0x7F800000#32) i = (⊤ : EReal) :=
  inf_f32

/-- "All entries of x have |x| < +inf" holding makes every entry of x a real number: the conjunction over all
    indices being 1 gives the comparison at index i, whose right side is +inf. -/
theorem all_finite_real {s : Shape} (x : FVec Ideal s .f32)
    (hb : (⟨0, ![]⟩ : Shape).BroadcastsInDim s (![] : Fin 0 → Fin s.rank))
    {axes : List (Fin s.rank)} (hr : s.ReducesTo axes (⟨0, ![]⟩ : Shape)) (hu : 0 < (⟨0, ![]⟩ : Shape).numel)
    (e : Host.reduce IntOp.andi
        (cmpf .olt (Host.absf x)
          (broadcastInDim s ![] hb (constant (F := Ideal) (⟨0, ![]⟩ : Shape) .f32 0x7F800000#32)))
        (constantI (⟨0, ![]⟩ : Shape) 1 1#1) hr hu ix0 = 1#1) (i : s.Idx) : ∃ r : ℝ, x i = r := by
  refine real_of_abs_lt_top (x i) ?_
  have h := Host.reduce_andi_all _ _ hr hu ix0 e i
  have h' : Ideal.cmp .olt (max (x i) (-(x i))) (Ideal.ofBits .f32 0x7F800000#32) = 1#1 := h
  rw [inf_f32] at h'
  simpa [Ideal.cmp, bit_eq_one] using h'

/-- "All entries of x have x ≥ 0" holding makes every entry of x nonnegative: the conjunction over all indices
    being 1 gives the comparison at index i, whose right side is the pattern of +0.0, the real 0. -/
theorem all_nonneg {s : Shape} (x : FVec Ideal s .f32)
    (hb : (⟨0, ![]⟩ : Shape).BroadcastsInDim s (![] : Fin 0 → Fin s.rank))
    {axes : List (Fin s.rank)} (hr : s.ReducesTo axes (⟨0, ![]⟩ : Shape)) (hu : 0 < (⟨0, ![]⟩ : Shape).numel)
    (e : Host.reduce IntOp.andi
        (cmpf .oge x (broadcastInDim s ![] hb (constant (F := Ideal) (⟨0, ![]⟩ : Shape) .f32 0x00000000#32)))
        (constantI (⟨0, ![]⟩ : Shape) 1 1#1) hr hu ix0 = 1#1) (i : s.Idx) : (0 : EReal) ≤ x i := by
  have h := Host.reduce_andi_all _ _ hr hu ix0 e i
  have h' : Ideal.cmp .oge (x i) (Ideal.ofBits .f32 0x00000000#32) = 1#1 := h
  rw [Ideal.ofBits_zero_f32] at h'
  simpa [Ideal.cmp, bit_eq_one] using h'

end Cert.Lib.AllEntries

end
-- ==== Proof.PreFinite.lean ====
/-
  The precondition "every entry of the four argument arrays is finite", read back entry by entry.

  The printed predicate is the conjunction of four tests, one per argument array, each the conjunction over the whole
  array of the entrywise comparison |x| < +inf. When the predicate is the bit 1, each of the four tests is the bit 1,
  and a test that is 1 holds at every index; |v| < +inf excludes both infinities, so every entry of every argument is
  (the coercion of) a real number.
-/
import proofs.«130548_j68985764708849_2_alg».proof.Pre_finite_inputs
import proofs.«130548_j68985764708849_2_alg».proof.Proof.LibAllEntries

noncomputable section

namespace Cert.PreFinite

open Idealize.ShloMosaic Idealize.ShloMosaic.ValueIdx Cert.Lib.AllEntries

/-- If the finiteness predicate of the four argument arrays is the bit 1, every entry of each array is a real number:
    the outer conjunctions split into the four per-array tests, and each test gives the comparison at every index. -/
theorem finite_of_pre [Cert.Pre_finite_inputs.Facts]
    (a0 a1 : (⟨2, ![4096, 1024]⟩ : Shape).Idx → EReal) (a2 a3 : (⟨2, ![32000, 1024]⟩ : Shape).Idx → EReal)
    (h : Cert.Pre_finite_inputs.fn (F := Ideal) a0 a1 a2 a3 = fun _ => 1#1) :
    (∀ i, ∃ r : ℝ, a0 i = (r : EReal)) ∧ (∀ i, ∃ r : ℝ, a1 i = (r : EReal)) ∧
      (∀ i, ∃ r : ℝ, a2 i = (r : EReal)) ∧ (∀ i, ∃ r : ℝ, a3 i = (r : EReal)) := by
  have h0 := congrFun h ix0
  dsimp only [Cert.Pre_finite_inputs.fn, Cert.Pre_finite_inputs.fn_part1] at h0
  obtain ⟨h012, e3⟩ := and_split _ _ _ h0
  obtain ⟨h01, e2⟩ := and_split _ _ _ h012
  obtain ⟨e0, e1⟩ := and_split _ _ _ h01
  exact ⟨all_finite_real a0 _ _ _ e0, all_finite_real a1 _ _ _ e1,
    all_finite_real a2 _ _ _ e2, all_finite_real a3 _ _ _ e3⟩

end Cert.PreFinite

end
-- ==== Proof.KIValue.lean ====
/-
  What the idealized kernel computes: the mean over the 4096 rows of the rows' divergences.

  Point t of the grid is chunk t % 125 of row-tile t / 125. By induction on the chunk, after point t row p of the
  row-tile's five statistic columns holds the streaming statistics of row 2048·(t / 125) + p of the two logits matrices
  after chunks 0 … t % 125 — each point's input blocks are rectangles of the argument arrays, and one point of the body
  at one row is one step of the streaming update. At chunk 124 the stored result is the statistics' divergence, which for
  real logits is the plain Kullback–Leibler divergence of the two softmaxes. The blocks written back at the two chunk-124
  points tile the [4096, 1] result array; the host lines after the region sum it and divide by 4096.
-/
import proofs.«130548_j68985764708849_2_alg».proof.Proof.KIFrame
import proofs.«130548_j68985764708849_2_alg».proof.Proof.KIStep
import proofs.«130548_j68985764708849_2_alg».proof.Proof.KIBlocks
import proofs.«130548_j68985764708849_2_alg».proof.Proof.OnlineKL
import proofs.«130548_j68985764708849_2_alg».proof.Proof.PreFinite

set_option maxRecDepth 16384

noncomputable section

open scoped BigOperators

namespace Cert.KernelIdeal.KLValue

open Cert.KernelIdeal Cert.KernelIdeal.Gen Cert.KernelIdeal.Body Cert.KernelIdeal.Blocks Cert.KernelIdeal.StepValue
open Idealize.ShloMosaic Idealize.ShloMosaic.TcCoe Idealize.SL.Sem Idealize.ShloMosaic.ValueIdx Cert.OnlineKL
open Idealize.ShloMosaic.Pipeline (Dat)

variable (m : (ℓ : Loc nD τ sig) → Buf (Elt Ideal) ℓ) (c : Dev nD)

/-- The four argument arrays as launched: student activations, teacher activations, student weights, teacher weights. -/
abbrev A0 : S4096x1024.Idx → EReal := m ((c.tc : Thread nD τ).loc main_arg0)
abbrev A1 : S4096x1024.Idx → EReal := m ((c.tc : Thread nD τ).loc main_arg1)
abbrev A2 : S32000x1024.Idx → EReal := m ((c.tc : Thread nD τ).loc main_arg2)
abbrev A3 : S32000x1024.Idx → EReal := m ((c.tc : Thread nD τ).loc main_arg3)

/-- The row of the arrays that row `p` of point `t`'s row-tile is. -/
def rowOf (n : ℕ) (hn : n < cfg0.N) (p : Fin 2048) : Fin 4096 :=
  ⟨2048 * (n / 125) + p.val, by have : cfg0.N = 250 := N_0; omega⟩

/-- Row `r` of the student logits, chunk by chunk. -/
def sCh (r : Fin 4096) : Fin 125 → Fin 256 → EReal := fun k j => logits (A0 m c) (A2 m c) r ⟨256 * k.val + j.val, by omega⟩
/-- Row `r` of the teacher logits, chunk by chunk. -/
def tCh (r : Fin 4096) : Fin 125 → Fin 256 → EReal := fun k j => logits (A1 m c) (A3 m c) r ⟨256 * k.val + j.val, by omega⟩

theorem Stats.ext' {a b : Stats} (h1 : a.ms = b.ms) (h2 : a.ls = b.ls) (h3 : a.mt = b.mt) (h4 : a.lt = b.lt) (h5 : a.acc = b.acc) :
    a = b := by
  cases a; cases b; simp only [Stats.mk.injEq]; exact ⟨h1, h2, h3, h4, h5⟩

/-- Row `p` of five statistic columns. -/
def statsOf (K : Cols Ideal) (p : Fin 2048) : Stats := stats K.c0 K.c1 K.c2 K.c3 K.c4 p

/-- One point of the body at one row is one step of the streaming update, on the rows of the two products. -/
theorem statsOf_next (x0 x1 : Vec Ideal S2048x1024 .bf16) (x2 x3 : Vec Ideal S256x1024 .bf16) (K : Cols Ideal) (p : Fin 2048) :
    statsOf (next x0 x1 x2 x3 K) p = step (statsOf K p) (rowDot x0 x2 p) (rowDot x1 x3 p) :=
  Stats.ext' (step_ms (x0 := x0) (x1 := x1) (x2 := x2) (x3 := x3) (c0 := K.c0) (c1 := K.c1) (c2 := K.c2) (c3 := K.c3) (c4 := K.c4) (p := p))
    (step_ls (x0 := x0) (x1 := x1) (x2 := x2) (x3 := x3) (c0 := K.c0) (c1 := K.c1) (c2 := K.c2) (c3 := K.c3) (c4 := K.c4) (p := p))
    (step_mt (x0 := x0) (x1 := x1) (x2 := x2) (x3 := x3) (c0 := K.c0) (c1 := K.c1) (c2 := K.c2) (c3 := K.c3) (c4 := K.c4) (p := p))
    (step_lt (x0 := x0) (x1 := x1) (x2 := x2) (x3 := x3) (c0 := K.c0) (c1 := K.c1) (c2 := K.c2) (c3 := K.c3) (c4 := K.c4) (p := p))
    (step_acc (x0 := x0) (x1 := x1) (x2 := x2) (x3 := x3) (c0 := K.c0) (c1 := K.c1) (c2 := K.c2) (c3 := K.c3) (c4 := K.c4) (p := p))

/-- The reset statistics are the streaming update's start. -/
theorem statsOf_init (p : Fin 2048) : statsOf (initCols (F := Ideal)) p = init :=
  Stats.ext' (init_ms (p := p)) (init_ls (p := p)) (init_mt (p := p)) (init_lt (p := p)) (init_acc (p := p))

/-- The rows of the two products at point `n` are chunk `n % 125` of the logits' rows. -/
theorem rowDot_s (n : ℕ) (hn : n < cfg0.N) (p : Fin 2048) :
    rowDot (iblk m c 0 ⟨n, hn⟩) (iblk m c 2 ⟨n, hn⟩) p = sCh m c (rowOf n hn p) ⟨n % 125, Nat.mod_lt _ (by decide)⟩ := by
  funext j
  dsimp only [rowDot]
  unfold sCh logits
  refine Finset.sum_congr rfl fun h _ => ?_
  rw [blk0, blk2]; rfl

theorem rowDot_t (n : ℕ) (hn : n < cfg0.N) (p : Fin 2048) :
    rowDot (iblk m c 1 ⟨n, hn⟩) (iblk m c 3 ⟨n, hn⟩) p = tCh m c (rowOf n hn p) ⟨n % 125, Nat.mod_lt _ (by decide)⟩ := by
  funext j
  dsimp only [rowDot]
  unfold tCh logits
  refine Finset.sum_congr rfl fun h _ => ?_
  rw [blk1, blk3]; rfl

/-- THE INVARIANT: after point `n`, row `p` of the statistic columns is the streaming statistics of its logits rows after
    chunks 0 … n % 125. -/
theorem inv : ∀ (n : ℕ) (hn : n < cfg0.N) (p : Fin 2048) (k : ℕ) (hk : k = n % 125),
    statsOf (colsAt m c n hn) p
      = run (sCh m c (rowOf n hn p)) (tCh m c (rowOf n hn p)) (k + 1) (by omega) := by
  intro n
  induction n with
  | zero =>
    intro hn p k hk
    obtain rfl : k = 0 := by omega
    rw [colsAt_first m c ⟨0, hn⟩ rfl, statsOf_next, statsOf_init, rowDot_s, rowDot_t]
    rfl
  | succ n ih =>
    intro hn p k hk
    by_cases h0 : (n + 1) % 125 = 0
    · obtain rfl : k = 0 := by omega
      rw [colsAt_first m c ⟨n + 1, hn⟩ h0, statsOf_next, statsOf_init, rowDot_s, rowDot_t]
      have e : (⟨(n + 1) % 125, Nat.mod_lt _ (by decide)⟩ : Fin 125) = ⟨0, by decide⟩ := Fin.ext h0
      rw [e]
      rfl
    · have hn' : n < cfg0.N := Nat.lt_of_succ_lt hn
      have hk' : k = n % 125 + 1 := by omega
      subst hk'
      have hrow : rowOf n hn' p = rowOf (n + 1) hn p := by
        apply Fin.ext; show 2048 * (n / 125) + p.val = 2048 * ((n + 1) / 125) + p.val; omega
      have ih' := ih hn' p (n % 125) rfl
      rw [hrow] at ih'
      rw [colsAt_later m c ⟨n + 1, hn⟩ h0, statsOf_next, rowDot_s, rowDot_t]
      have e : (⟨(n + 1) % 125, Nat.mod_lt _ (by decide)⟩ : Fin 125) = ⟨n % 125 + 1, by omega⟩ := Fin.ext (by show (n + 1) % 125 = n % 125 + 1; omega)
      rw [e]
      show step (statsOf (colsAt m c n hn') p) _ _ = _
      rw [ih']
      rfl

/-! ## Real logits: the streaming divergence is the plain one -/

/-- A row of the product of two arrays of real numbers is a row of real numbers. -/
theorem logits_real (a : S4096x1024.Idx → EReal) (w : S32000x1024.Idx → EReal) (ha : ∀ i, ∃ r : ℝ, a i = (r : EReal))
    (hw : ∀ i, ∃ r : ℝ, w i = (r : EReal)) (r : Fin 4096) :
    ∃ f : Fin 32000 → ℝ, logits a w r = fun v => ((f v : ℝ) : EReal) := by
  choose aR haR using ha
  choose wR hwR using hw
  refine ⟨fun v => ∑ h : Fin 1024, aR (ix2 r h) * wR (ix2 v h), ?_⟩
  funext v
  unfold logits
  rw [coe_sum]
  refine Finset.sum_congr rfl fun h _ => ?_
  rw [haR, hwR, EReal.coe_mul]

/-- The vocabulary as 125 chunks of 256: entry `j` of chunk `k` is entry 256·k + j. -/
def eqv : Fin 125 × Fin 256 ≃ Fin 32000 := finProdFinEquiv.trans (finCongr (by norm_num))

theorem eqv_val (k : Fin 125) (j : Fin 256) : (eqv (k, j)).val = j.val + 256 * k.val := rfl

/-- For real arguments, the divergence read off a row's statistics after all 125 chunks is the plain divergence of the
    row's two softmaxes. -/
theorem row_kl (ha0 : ∀ i, ∃ r : ℝ, A0 m c i = (r : EReal)) (ha1 : ∀ i, ∃ r : ℝ, A1 m c i = (r : EReal))
    (ha2 : ∀ i, ∃ r : ℝ, A2 m c i = (r : EReal)) (ha3 : ∀ i, ∃ r : ℝ, A3 m c i = (r : EReal)) (r : Fin 4096) :
    out (run (sCh m c r) (tCh m c r) 125 le_rfl) = refKL (logits (A0 m c) (A2 m c) r) (logits (A1 m c) (A3 m c) r) := by
  obtain ⟨f, hf⟩ := logits_real (A0 m c) (A2 m c) ha0 ha2 r
  obtain ⟨g, hg⟩ := logits_real (A1 m c) (A3 m c) ha1 ha3 r
  have hs : sCh m c r = fun k j => ((f (eqv (k, j)) : ℝ) : EReal) := by
    funext k j
    unfold sCh
    rw [hf]
    show ((f _ : ℝ) : EReal) = ((f _ : ℝ) : EReal)
    congr 2
    apply Fin.ext
    rw [eqv_val]
    show 256 * k.val + j.val = j.val + 256 * k.val
    omega
  have ht : tCh m c r = fun k j => ((g (eqv (k, j)) : ℝ) : EReal) := by
    funext k j
    unfold tCh
    rw [hg]
    show ((g _ : ℝ) : EReal) = ((g _ : ℝ) : EReal)
    congr 2
    apply Fin.ext
    rw [eqv_val]
    show 256 * k.val + j.val = j.val + 256 * k.val
    omega
  rw [hs, ht, hf, hg]
  exact online_eq_ref eqv (by decide) (by decide) f g

/-! ## The result array -/

/-- The [4096, 1] result array: each row's divergence. -/
def G : S4096x1.Idx → EReal := fun y => refKL (logits (A0 m c) (A2 m c) (y 0)) (logits (A1 m c) (A3 m c) (y 0))

/-- The output window's block at a point, read through the window: rows 2048·(t / 125) … of the array. Stated over plain
    functions, so that nothing of the statistics is unfolded to see it. -/
theorem cut_eq_read (t : Fin cfg0.N) (X : S2048x1.Idx → EReal) (Gf : S4096x1.Idx → EReal)
    (h : ∀ p : Fin 2048, X (ix2 p (0 : Fin 1)) = Gf (ix2 (rowOf t.val t.isLt p) (0 : Fin 1))) :
    (cfg0.win 4).cut (grid0.coords t) X = ((cfg0.win 4).blk t).view.read (Elt Ideal) Gf := by
  have key : ∀ j : S2048x1.Idx, X j = Gf (((cfg0.win 4).blk t).view.emb j) := by
    intro j
    obtain ⟨p, q, rfl⟩ : ∃ (p : Fin 2048) (q : Fin 1), j = ix2 p q := ⟨j 0, j 1, eq_ix2 j⟩
    obtain rfl : q = 0 := Subsingleton.elim _ _
    rw [blk4_emb]
    exact h p
  funext j
  exact key j

section Final
variable (ha0 : ∀ i, ∃ r : ℝ, A0 m c i = (r : EReal)) (ha1 : ∀ i, ∃ r : ℝ, A1 m c i = (r : EReal))
  (ha2 : ∀ i, ∃ r : ℝ, A2 m c i = (r : EReal)) (ha3 : ∀ i, ∃ r : ℝ, A3 m c i = (r : EReal))

include ha0 ha1 ha2 ha3 in
/-- What a chunk-124 point stores, at row `p`: the divergence of that row of the arrays. -/
theorem out_row (t : Fin cfg0.N) (h1 : t.val % 125 = 124) (p : Fin 2048) :
    outOf (colsAt m c t.val t.isLt) (ix2 p (0 : Fin 1)) = G m c (ix2 (rowOf t.val t.isLt p) (0 : Fin 1)) := by
  show out (statsOf (colsAt m c t.val t.isLt) p) = _
  rw [inv m c t.val t.isLt p 124 h1.symm]
  exact row_kl m c ha0 ha1 ha2 ha3 (rowOf t.val t.isLt p)

include ha0 ha1 ha2 ha3 in
/-- What a chunk-124 point writes back is its block of the result array. -/
theorem flushed_eq (t : Fin cfg0.N) (hf : (cfg0.win 4).flush t = true) :
    (dats m 0 c).flushed 4 t = ((cfg0.win 4).blk t).view.read (Elt Ideal) (G m c) := by
  have h1 : t.val % 125 = 124 := (flush0_4 t).mp hf
  show (cfg0.win 4).cut (grid0.coords t) ((dats m 0 c).after 4 t) = _
  rw [after4]
  exact cut_eq_read t _ _ (out_row m c ha0 ha1 ha2 ha3 t h1)

include ha0 ha1 ha2 ha3 in
/-- The two chunk-124 points' blocks tile the result array, so it ends holding every row's divergence. -/
theorem final : (dats m 0 c).arrAt 4 cfg0.N = G m c :=
  (dats m 0 c).arrAt_eq_of_cover 4 (G m c) (flushed_eq m c ha0 ha1 ha2 ha3) fun i => by
    have hi : (i 0).val < 4096 := (i 0).isLt
    have hN : cfg0.N = 250 := N_0
    refine ⟨⟨125 * ((i 0).val / 2048) + 124, by omega⟩, (flush0_4 _).mpr (by show (125 * ((i 0).val / 2048) + 124) % 125 = 124; omega), ?_⟩
    rw [mem_blk4]
    show (i 0).val / 2048 = (125 * ((i 0).val / 2048) + 124) / 125
    omega

include ha0 ha1 ha2 ha3 in
/-- The host lines after the region: the result is the mean of the rows' divergences. -/
theorem tail_v6 :
    Pipeline.afterTail₀ cfgs (dats m) 0 (V0 m) [hostOps1] c main_v6
      = fun _ => meanKL (A0 m c) (A1 m c) (A2 m c) (A3 m c) := by
  unfold Pipeline.afterTail₀
  show StableHlo.after hostOps1 _ (Proc.devRef .tc main_v6) = _
  after_results
  have e : Pipeline.withArrays (cfgs 0).spec c (V0 m c) (fun w => (dats m 0 c).arrAt w (cfgs 0).N) (Proc.tc.devRef main_v4) = G m c :=
    (Pipeline.withArrays_arr spec0 launch0.win.arr_inj c _ _ 4).trans (final m c ha0 ha1 ha2 ha3)
  rw [e, tail_eq]
  rfl

end Final

end Cert.KernelIdeal.KLValue

end
-- ==== Proof.LibHostCalls.lean ====
/-
  Values passed through a called function's buffers, and the host's exponential and logarithm read at an entry.

  A host function that the program calls (an outlined relu, softmax, log-softmax …) runs its operations on buffers
  typed by the tensor values they hold: every value written into such a buffer is carried along the equation
  "the buffer's type is the value's type", and carried back when the next operation reads it. The two transports
  cancel: what is read back is what was written (`ofBuf_toBuf`). Rewriting with this lemma first leaves the called
  function's operations applied to one another directly, as the program's own top-level operations are.

  Over the extended reals the host's exponential and logarithm act entry by entry (`hostExp_apply`, `hostLog_apply`):
  stated as equations to rewrite with, so that a goal is never compared against the logarithm by unfolding it.
-/
import Idealize.ShloMosaic.Lib.StableHlo
import Idealize.ShloMosaic.PureOps.Ideal

noncomputable section

namespace Cert.Lib.HostCalls

open Idealize.ShloMosaic Idealize.ShloMosaic.StableHlo

/-- A value carried into a called function's buffer and read back out of it is the value. -/
theorem ofBuf_toBuf {sig : RefSig} {Val : EltTy → Type} {T : BufTy} (x : TRef sig T) (v : T.Contents Val) :
    x.ofBuf (x.toBuf v) = v := by
  obtain ⟨r, h, h1, h2⟩ := x
  subst h
  rfl

/-- The host's logarithm at an entry. -/
theorem hostLog_apply {s : Shape} {φ : FTy} (x : FVec Ideal s φ) (i : s.Idx) : Host.log x i = Ideal.log (x i) := rfl

/-- The host's exponential at an entry. -/
theorem hostExp_apply {s : Shape} {φ : FTy} (x : FVec Ideal s φ) (i : s.Idx) : Host.exp x i = Ideal.exp (x i) := rfl

end Cert.Lib.HostCalls

end
-- ==== Proof.LibAxisFolds.lean ====
/-
  Sums and maxima along one axis, and the layouts of a pairwise difference, read at an index.

  A pairwise operation between the rows of two matrices is written by spreading each over a third axis: the [a, c] matrix
  viewed as [a, 1, c] and repeated along the middle axis, the [b, c] matrix viewed as [1, b, c] and repeated along the
  first, both [a, b, c]; a reduction over the last axis then leaves one number per pair. The lemmas here read each of
  those steps at an index given by coordinates, for every extent:
  • `shapeCast_ab_a1b_apply`: [a, c] viewed as [a, 1, c] reads, at `(p, u, k)`, the matrix at `(p, k)`;
  • `broadcastTo_a1c_abc_apply`: [a, 1, c] repeated to [a, b, c] reads, at `(p, q, k)`, the operand at `(p, 0, k)`;
  • `broadcastTo_1bc_abc_apply`: [1, b, c] repeated to [a, b, c] reads, at `(p, q, k)`, the operand at `(0, q, k)`;
  • `lastSum3_apply`: over the extended reals the sum of an [a, b, c] array along its last axis reads, at `(p, q)`,
    `∑ k < c` of the array at `(p, q, k)`.
  And for a matrix [a, b] reduced along either axis, over the extended reals:
  • `firstSum_apply`: the sum along the first axis reads, at `q`, `∑ k < a` of the matrix at `(k, q)`;
  • `lastMax_apply` / `firstMax_apply`: the maximum along the last (first) axis is the fold of `max`, from the value of
    the accumulator's word, over the entries of the row (column);
  • `hostLastMax_apply` / `hostFirstMax_apply`: the same for a host reduction with a maximum body, from its initial value.
-/
import Idealize.ShloMosaic.Lib.Pipeline.Value
import Idealize.ShloMosaic.Lib.ValueIdx
import Idealize.ShloMosaic.PureOps.Ideal.Laws

noncomputable section

namespace Cert.Lib.AxisFolds

open Idealize.ShloMosaic Idealize.ShloMosaic.ValueIdx

variable {α : Type}

/-- A matrix [a, c] viewed as [a, 1, c]: entry `(p, u, k)` is entry `(p, k)` of the matrix (the row-major positions
    `(p · 1 + 0) · c + k` and `p · c + k` agree). -/
theorem shapeCast_ab_a1b_apply {a c : ℕ} (x : (⟨2, ![a, c]⟩ : Shape).Idx → α)
    (h : (⟨2, ![a, c]⟩ : Shape).ShapeCasts ⟨3, ![a, 1, c]⟩) (p : Fin a) (u : Fin 1) (k : Fin c) :
    shapeCast ⟨3, ![a, 1, c]⟩ x h (ix3 p u k) = x (ix2 p k) :=
  shapeCast_apply x h _ _ (by
    have hu : u.val = 0 := by omega
    rw [Shape.rowMajor_val_three, Shape.rowMajor_val_two]
    show p.val * c + k.val = (p.val * 1 + u.val) * c + k.val
    rw [hu, Nat.mul_one, Nat.add_zero])

/-- [a, 1, c] repeated along its middle axis: entry `(p, q, k)` is the operand's entry `(p, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (k : Fin c) :
    broadcastTo ⟨3, ![a, b, c]⟩ v h (ix3 p q k) = v (ix3 p (0 : Fin 1) k) := by
  refine broadcastTo_apply v h (ix3 p q k) (ix3 p (0 : Fin 1) k) fun ax => ?_
  match ax with
  | ⟨0, _⟩ =>
    show p.val = if a = 1 then 0 else p.val
    split
    · have := p.isLt; omega
    · rfl
  | ⟨1, _⟩ => rfl
  | ⟨2, _⟩ =>
    show k.val = if c = 1 then 0 else k.val
    split
    · have := k.isLt; omega
    · rfl

/-- [1, b, c] repeated along its first axis: entry `(p, q, k)` is the operand's entry `(0, q, k)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (k : Fin c) :
    broadcastTo ⟨3, ![a, b, c]⟩ v h (ix3 p q k) = v (ix3 (0 : Fin 1) q k) := by
  refine broadcastTo_apply v h (ix3 p q k) (ix3 (0 : Fin 1) q k) fun ax => ?_
  match ax with
  | ⟨0, _⟩ => rfl
  | ⟨1, _⟩ =>
    show q.val = if b = 1 then 0 else q.val
    split
    · have := q.isLt; omega
    · rfl
  | ⟨2, _⟩ =>
    show k.val = if c = 1 then 0 else k.val
    split
    · have := k.isLt; omega
    · rfl

/-- Over the extended reals the sum of an [a, b, c] array along its last axis, read at `(p, q)`, is `∑ k < c` of the array
    at `(p, q, k)`. -/
theorem lastSum3_apply {a b c : ℕ} {φ : FTy} (v : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (p : Fin a) (q : Fin b) :
    multiReduction .add [2] ⟨2, ![a, b]⟩ v acc h hφ hacc (ix2 p q) = ∑ k : Fin c, v (ix3 p q k) :=
  (Ideal.multiReduction_add_single v acc h hφ hacc (ix2 p q)).trans
    (Finset.sum_congr rfl fun k _ => congrArg v (funext fun d => Fin.ext (by
      match d with
      | ⟨0, _⟩ => rfl
      | ⟨1, _⟩ => rfl
      | ⟨2, _⟩ => rfl)))

/-- Over the extended reals the sum of an [a, b] matrix along its first axis, read at column `q`, is `∑ k < a` of the
    matrix at `(k, q)`. -/
theorem firstSum_apply {a b : ℕ} {φ : FTy} (v : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (q : Fin b) :
    multiReduction .add [0] ⟨1, ![b]⟩ v acc h hφ hacc (ix1 q) = ∑ k : Fin a, v (ix2 k q) :=
  (Ideal.multiReduction_add_single v acc h hφ hacc (ix1 q)).trans
    (Finset.sum_congr rfl fun k _ => congrArg v (funext fun d => Fin.ext (by
      match d with
      | ⟨0, _⟩ => rfl
      | ⟨1, _⟩ => rfl)))

/-- Over the extended reals the maximum of an [a, b] matrix along its last axis, read at row `p`, is the fold of `max`,
    from the value of the accumulator's word, over the entries `(p, k)` of the row. -/
theorem lastMax_apply {a b : ℕ} {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (p : Fin a) :
    multiReduction .maximumf [1] ⟨1, ![a]⟩ v acc h hφ hacc (ix1 p)
      = (Finset.univ : Finset (Fin b)).fold max (Ideal.ofBits φ acc) fun k => v (ix2 p k) :=
  (Ideal.multiReduction_maximumf_single v acc h hφ hacc (ix1 p)).trans
    (congrArg (fun f => (Finset.univ : Finset (Fin b)).fold max (Ideal.ofBits φ acc) f) (funext fun k =>
      congrArg v (funext fun d => Fin.ext (by
        match d with
        | ⟨0, _⟩ => rfl
        | ⟨1, _⟩ => rfl))))

/-- The same along the first axis: at column `q`, the fold of `max` over the entries `(k, q)` of the column. -/
theorem firstMax_apply {a b : ℕ} {φ : FTy} (v : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ) (q : Fin b) :
    multiReduction .maximumf [0] ⟨1, ![b]⟩ v acc h hφ hacc (ix1 q)
      = (Finset.univ : Finset (Fin a)).fold max (Ideal.ofBits φ acc) fun k => v (ix2 k q) :=
  (Ideal.multiReduction_maximumf_single v acc h hφ hacc (ix1 q)).trans
    (congrArg (fun f => (Finset.univ : Finset (Fin a)).fold max (Ideal.ofBits φ acc) f) (funext fun k =>
      congrArg v (funext fun d => Fin.ext (by
        match d with
        | ⟨0, _⟩ => rfl
        | ⟨1, _⟩ => rfl))))

/-- A host reduction with a maximum body along the last axis of an [a, b] matrix, over the extended reals: at row `p` the
    fold of `max`, from the initial value, over the entries `(p, k)` of the row. -/
theorem hostLastMax_apply {a b : ℕ} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce (FloatOps.maximumf (F := Ideal) (φ := φ)) x init h' hu (ix1 p)
      = (Finset.univ : Finset (Fin b)).fold max (init (Shape.Idx.first hu)) fun k => x (ix2 p k) :=
  (Host.reduce_eq_fold_single (FloatOps.maximumf (F := Ideal) (φ := φ)) x init h' h hu (ix1 p)).trans
    (congrArg (fun f => (Finset.univ : Finset (Fin b)).fold max (init (Shape.Idx.first hu)) f) (funext fun k =>
      congrArg x (funext fun d => Fin.ext (by
        match d with
        | ⟨0, _⟩ => rfl
        | ⟨1, _⟩ => rfl))))

/-- The same along the first axis: at column `q`, the fold of `max`, from the initial value, over the column's entries. -/
theorem hostFirstMax_apply {a b : ℕ} {φ : FTy} {u : Shape} (x : FVec Ideal ⟨2, ![a, b]⟩ φ) (init : u.Idx → Ideal φ)
    (h' : (⟨2, ![a, b]⟩ : Shape).ReducesTo [0] ⟨1, ![b]⟩) (h : (⟨2, ![a, b]⟩ : Shape).Reduces [0] ⟨1, ![b]⟩)
    (hu : 0 < u.numel) (q : Fin b) :
    Host.reduce (FloatOps.maximumf (F := Ideal) (φ := φ)) x init h' hu (ix1 q)
      = (Finset.univ : Finset (Fin a)).fold max (init (Shape.Idx.first hu)) fun k => x (ix2 k q) :=
  (Host.reduce_eq_fold_single (FloatOps.maximumf (F := Ideal) (φ := φ)) x init h' h hu (ix1 q)).trans
    (congrArg (fun f => (Finset.univ : Finset (Fin a)).fold max (init (Shape.Idx.first hu)) f) (funext fun k =>
      congrArg x (funext fun d => Fin.ext (by
        match d with
        | ⟨0, _⟩ => rfl
        | ⟨1, _⟩ => rfl))))

end Cert.Lib.AxisFolds

end
-- ==== Proof.RefValue.lean ====
/-
  The reference program's result is the mean Kullback–Leibler divergence of the specification.

  The reference multiplies each activation matrix by the transpose of its weight matrix, takes the log-softmax of each
  product along the vocabulary, and sums exp(log p_t) · (log p_t − log p_s) over the vocabulary, then over the rows, and
  divides by the number of rows. Read entry by entry over the extended reals:
  * the product at (r, v) is Σ_h a(r, h) · w(v, h), the specification's `logits`;
  * the row maximum, a fold of max from −∞ followed by a maximum with −∞ (max ⊥ x = x), is the fold of max from ⊥ over
    the row of logits;
  * the shifted row, the sum of its exponentials (from the initial value 0), its logarithm, and their difference are the
    specification's `logSoftmax` of the row;
  * the sum over the vocabulary is `refKL` (student row first, teacher row second), the sum over the rows of those, from
    0, divided by the f32 word of 4096, is `meanKL`.
  The teacher's log-softmax is the same composition of operations as the student's, applied to the other product.
-/
import proofs.«130548_j68985764708849_2_alg».proof.Proof.RefReadP
import proofs.«130548_j68985764708849_2_alg».proof.Proof.KLSpec
import proofs.«130548_j68985764708849_2_alg».proof.Proof.LibAxisFolds
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Run

noncomputable section

open scoped BigOperators

namespace Cert.RefBridge

open Cert.ReferenceIdeal Cert.ReferenceIdeal.Gen Cert.ReferenceIdeal.ReadP Idealize.ShloMosaic Idealize.ShloMosaic.ValueIdx
  Idealize.ShloMosaic.TcCoe Idealize.SL.Sem Idealize.ShloMosaic.StableHlo Cert.OnlineKL Cert.Lib.AxisFolds

/-- An activation matrix [4096, 1024] over the extended reals. -/
abbrev Act : Type := (⟨2, ![4096, 1024]⟩ : Shape).Idx → EReal
/-- A weight matrix [32000, 1024] over the extended reals. -/
abbrev Wgt : Type := (⟨2, ![32000, 1024]⟩ : Shape).Idx → EReal

/-- The f32 pattern 0xFF800000 (sign set, exponent all ones, fraction zero) denotes −∞, the bottom of the extended reals. -/
theorem neg_inf_f32 : Ideal.ofBits .f32 0xFF800000#32 = (⊥ : EReal) := by
  simp [Ideal.ofBits, Ideal.ieee]

/-- A vector index is determined by its one coordinate: the indices of [n] are the numbers below n. -/
def idxEquiv1 {n : ℕ} : (⟨1, ![n]⟩ : Shape).Idx ≃ Fin n where
  toFun j := j 0
  invFun r := ix1 r
  left_inv j := (eq_ix1 j).symm
  right_inv _ := rfl

/-- A sum over the indices of a vector [n] is the sum over the numbers below n. -/
theorem sum_idx1 {n : ℕ} (f : (⟨1, ![n]⟩ : Shape).Idx → EReal) : ∑ j, f j = ∑ r : Fin n, f (ix1 r) :=
  (Equiv.sum_comp idxEquiv1.symm f).symm

/-- The product of an activation matrix with the transpose of a weight matrix, at (r, v): Σ_h a(r, h) · w(v, h). -/
theorem dot_apply (a : Act) (w : Wgt) (r : Fin 4096) (v : Fin 32000) :
    val_main_v0 (F := Ideal) a w (ix2 r v) = logits a w r v := by
  rw [val_main_v0_apply]
  refine Finset.sum_congr rfl fun k _ => ?_
  have el : lidx_main_v0 (ix2 r v) k = ix2 r k := funext fun d => Fin.ext (by
    match d with
    | ⟨0, _⟩ => rfl
    | ⟨1, _⟩ => rfl)
  have er : ridx_main_v0 (ix2 r v) k = ix2 v k := funext fun d => Fin.ext (by
    match d with
    | ⟨0, _⟩ => rfl
    | ⟨1, _⟩ => rfl)
  rw [el, er]

/-- The row maximum the log-softmax subtracts, at row r: the fold of max from −∞ over the row's logits; the further
    maximum with −∞ changes nothing. -/
theorem rowmax_apply (a : Act) (w : Wgt) (r : Fin 4096) :
    val_main_call0_v2 (F := Ideal) a w (ix1 r) = Finset.univ.fold max ⊥ (logits a w r) := by
  have h0 : val_main_call0_v0 (F := Ideal) a w (ix1 r) = Finset.univ.fold max ⊥ (logits a w r) := by
    unfold val_main_call0_v0
    refine (hostLastMax_apply (val_main_v0 (F := Ideal) a w) (val_main_call0_cst (F := Ideal))
      reducesTo_S4096x32000_S4096_d1 (by decide) h_S_ r).trans ?_
    rw [val_main_call0_cst_apply]
    show Finset.univ.fold max (Ideal.ofBits .f32 0xFF800000#32) _ = _
    rw [neg_inf_f32]
    exact congrArg (Finset.univ.fold max (⊥ : EReal)) (funext fun k => dot_apply a w r k)
  rw [val_main_call0_v2_apply, val_main_call0_v1_apply, val_main_call0_cst_0_apply, h0]
  show max (Ideal.ofBits .f32 0xFF800000#32) _ = _
  rw [neg_inf_f32, bot_sup_eq]

/-- The shifted logits: at (r, u), the logit less its row's maximum. -/
theorem shift_apply (a : Act) (w : Wgt) (r : Fin 4096) (u : Fin 32000) :
    val_main_call0_v5 (F := Ideal) a w (ix2 r u)
      = logits a w r u - Finset.univ.fold max ⊥ (logits a w r) := by
  have e : idx_main_call0_v3 (idx_main_call0_v4 (ix2 r u)) = ix1 r := funext fun d => Fin.ext (by
    match d with
    | ⟨0, _⟩ => rfl)
  rw [val_main_call0_v5_apply, val_main_call0_v4_apply, val_main_call0_v3_apply, e, rowmax_apply, dot_apply]
  rfl

/-- The sum of the exponentials of the shifted row r (the initial value is the word of 0). -/
theorem expsum_apply (a : Act) (w : Wgt) (r : Fin 4096) :
    val_main_call0_v7 (F := Ideal) a w (ix1 r)
      = ∑ u, Ideal.exp (logits a w r u - Finset.univ.fold max ⊥ (logits a w r)) := by
  rw [val_main_call0_v7_apply, val_main_call0_cst_1_apply]
  show Ideal.ofBits .f32 0x00000000#32 + _ = _
  rw [Ideal.ofBits_zero_f32, zero_add]
  refine Finset.sum_congr rfl fun k _ => ?_
  have e : idx_main_call0_v7 (ix1 r) k = ix2 r k := funext fun d => Fin.ext (by
    match d with
    | ⟨0, _⟩ => rfl
    | ⟨1, _⟩ => rfl)
  rw [e, val_main_call0_v6_apply, shift_apply]
  rfl

/-- The student's log-softmax at (r, v) is the specification's log-softmax of row r of the logits. -/
theorem lsm_apply (a : Act) (w : Wgt) (r : Fin 4096) (v : Fin 32000) :
    val_main_v2 (F := Ideal) a w (ix2 r v) = logSoftmax (logits a w r) v := by
  have e : idx_main_call0_v8 (idx_main_call0_v10 (ix2 r v)) = ix1 r := funext fun d => Fin.ext (by
    match d with
    | ⟨0, _⟩ => rfl)
  rw [val_main_v2_apply, shift_apply, val_main_call0_v10_apply, val_main_call0_v9_apply, val_main_call0_v8_apply, e,
    expsum_apply]
  unfold logSoftmax
  simp only [Ideal.subf_def, Ideal.hostUnary_log_def]

/-- The teacher's log-softmax is the same composition of operations, applied to the other product. -/
theorem v3_eq_v2 (a : Act) (w : Wgt) : val_main_v3 (F := Ideal) a w = val_main_v2 (F := Ideal) a w := by
  unfold val_main_v3 val_main_call1_v10 val_main_call1_v9 val_main_call1_v8 val_main_call1_v7 val_main_call1_cst_1
    val_main_call1_v6 val_main_call1_v5 val_main_call1_v4 val_main_call1_v3 val_main_call1_v2 val_main_call1_v1
    val_main_call1_cst_0 val_main_call1_v0 val_main_call1_cst val_main_v1
  unfold val_main_v2 val_main_call0_v10 val_main_call0_v9 val_main_call0_v8 val_main_call0_v7 val_main_call0_cst_1
    val_main_call0_v6 val_main_call0_v5 val_main_call0_v4 val_main_call0_v3 val_main_call0_v2 val_main_call0_v1
    val_main_call0_cst_0 val_main_call0_v0 val_main_call0_cst val_main_v0
  rfl

/-- The divergence of row r: the sum over the vocabulary (from the word of 0) of exp(log p_t) · (log p_t − log p_s). -/
theorem row_apply (x tx : Act) (ws wt : Wgt) (r : Fin 4096) :
    val_main_v7 (F := Ideal) x tx ws wt (ix1 r) = refKL (logits x ws r) (logits tx wt r) := by
  rw [val_main_v7_apply, val_main_cst_apply]
  show Ideal.ofBits .f32 0x00000000#32 + _ = _
  rw [Ideal.ofBits_zero_f32, zero_add]
  refine Finset.sum_congr rfl fun v _ => ?_
  have e : idx_main_v7 (ix1 r) v = ix2 r v := funext fun d => Fin.ext (by
    match d with
    | ⟨0, _⟩ => rfl
    | ⟨1, _⟩ => rfl)
  rw [e, val_main_v6_apply, val_main_v4_apply, val_main_v5_apply, v3_eq_v2, lsm_apply, lsm_apply]
  rfl

/-- The reference's result: the sum over the rows (from the word of 0) of the rows' divergences, divided by the f32 word
    of 4096. -/
theorem res_eq (m : (ℓ : Loc Cert.ReferenceIdeal.nD Cert.ReferenceIdeal.τ Cert.ReferenceIdeal.sig) → Buf (Elt Ideal) ℓ)
    (c : Dev Cert.ReferenceIdeal.nD) :
    Cert.ReferenceIdeal.ValueP.res_main_v9 (F := Ideal) m c
      = fun _ => Cert.OnlineKL.meanKL (m ((c.tc : Thread _ _).loc Cert.ReferenceIdeal.main_arg0))
          (m ((c.tc : Thread _ _).loc Cert.ReferenceIdeal.main_arg1))
          (m ((c.tc : Thread _ _).loc Cert.ReferenceIdeal.main_arg2))
          (m ((c.tc : Thread _ _).loc Cert.ReferenceIdeal.main_arg3)) := by
  rw [val_main_v9_eq]
  funext i
  rw [val_main_v9_apply, val_main_cst_1_apply, val_main_v8_apply, val_main_cst_0_apply]
  show Ideal.div (Ideal.ofBits .f32 0x00000000#32 + _) (Ideal.ofBits .f32 0x45800000#32) = _
  rw [Ideal.ofBits_zero_f32, zero_add, sum_idx1]
  unfold meanKL
  exact congrArg (fun s => Ideal.div s (Ideal.ofBits .f32 0x45800000#32))
    (Finset.sum_congr rfl fun r _ => row_apply _ _ _ _ r)

end Cert.RefBridge

end
-- ==== Proof.lean ====
/-
  The certificate of a fused knowledge-distillation loss kernel against its jnp reference.

  Both programs compute, for 4096 rows, the Kullback–Leibler divergence KL(softmax(t) ‖ softmax(s)) of a teacher row
  t = target_x · W_teacherᵀ from a student row s = x · W_studentᵀ over a vocabulary of 32000, and return the mean over the rows.
  The reference forms both log-softmaxes whole. The kernel streams the vocabulary in 125 chunks of 256 and keeps five running
  statistics per row in a scratch buffer (running maxima, and sums rescaled by exp(old maximum − new maximum) whenever a
  maximum moves), reading the divergence off them after the last chunk: acc / l_t − (m_t + log l_t) + (m_s + log l_s).
  Over the extended reals, for finite inputs, every logit is a real number and the two are one function: the statistics
  after all chunks are the maxima and the sums Σ exp(x − max) over the whole row, and
  Σ_v (e^{t_v − M_t} / L_t) · ((t_v − M_t − log L_t) − (s_v − M_s − log L_s)) = A / L_t − (M_t + log L_t) + (M_s + log L_s),
  because Σ_v e^{t_v − M_t} / L_t = 1. The rounding of the inputs to bf16 before the kernel is the identity on the extended
  reals, and the ideal pass rewrote nothing, so the idealization's side condition is trivial.

  The frames: the kernel body is run once per case of its two conditionals (reset at chunk 0, result at chunk 124); the region
  invariant holds the scratch at some contents whose first five columns are the statistics so far.
-/
import proofs.«130548_j68985764708849_2_alg».proof.Defs
import proofs.«130548_j68985764708849_2_alg».proof.Proof.Gen.Kernel
import proofs.«130548_j68985764708849_2_alg».proof.Proof.Gen.KernelIdeal
import proofs.«130548_j68985764708849_2_alg».proof.Proof.Gen.ReferenceIdeal
import proofs.«130548_j68985764708849_2_alg».proof.Proof.Gen.Pre_finite_inputs
import proofs.«130548_j68985764708849_2_alg».proof.Proof.KFrame
import proofs.«130548_j68985764708849_2_alg».proof.Proof.KIValue
import proofs.«130548_j68985764708849_2_alg».proof.Proof.RefValue
import Idealize.ShloMosaic.Adequacy
import Idealize.ShloMosaic.Init

set_option maxRecDepth 16384

noncomputable section

namespace Cert.Proof

open Idealize.ShloMosaic Idealize.SL.Sem Idealize.ShloMosaic.TcCoe

/-- The word-level kernel runs to the end, faults nowhere, and leaves its arguments unchanged. -/
theorem frame_k : Cert.frame_Kernel :=
  fun m ρ _ => Cert.Kernel.Body.frame m ρ

/-- So does the idealized kernel. -/
theorem frame_ki : Cert.frame_KernelIdeal :=
  fun m ρ _ => Cert.KernelIdeal.Body.frame m ρ

/-- The reference is host operations only: its run, the result dropped. -/
theorem frame_ri : Cert.frame_ReferenceIdeal :=
  fun m ρ _ => (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

open Cert.KernelIdeal.KLValue in
/-- For finite inputs both programs end at the mean over the rows of the rows' divergences. -/
theorem algebraic : Cert.algebraic_KernelIdeal_ReferenceIdeal := by
  intro m ρ m' ρ' hpre hagree
  have hfin := fun c => Cert.PreFinite.finite_of_pre _ _ _ _ (hpre c)
  refine ⟨fun c => fun _ => Cert.OnlineKL.meanKL (A0 m c) (A1 m c) (A2 m c) (A3 m c), ?_, ?_⟩
  · refine (θ_run Cert.KernelIdeal.defs _ _).mono (fun r h c => ?_) (Cert.KernelIdeal.Body.run_main (F := Ideal) m ρ)
    exact ⟨((h c).2 Cert.KernelIdeal.main_v6 (Pipeline.mem_restRefs_of Cert.KernelIdeal.main_v6 (by decide) (by decide))).trans
        (tail_v6 m c (hfin c).1 (hfin c).2.1 (hfin c).2.2.1 (hfin c).2.2.2),
      ((h c).2 Cert.KernelIdeal.main_arg0 (Pipeline.mem_restRefs_of Cert.KernelIdeal.main_arg0 (by decide) (by decide))).trans
        (Cert.KernelIdeal.Gen.W_main_arg0 m (Cert.KernelIdeal.Body.dats m) c),
      ((h c).2 Cert.KernelIdeal.main_arg1 (Pipeline.mem_restRefs_of Cert.KernelIdeal.main_arg1 (by decide) (by decide))).trans
        (Cert.KernelIdeal.Gen.W_main_arg1 m (Cert.KernelIdeal.Body.dats m) c),
      ((h c).2 Cert.KernelIdeal.main_arg2 (Pipeline.mem_restRefs_of Cert.KernelIdeal.main_arg2 (by decide) (by decide))).trans
        (Cert.KernelIdeal.Gen.W_main_arg2 m (Cert.KernelIdeal.Body.dats m) c),
      ((h c).2 Cert.KernelIdeal.main_arg3 (Pipeline.mem_restRefs_of Cert.KernelIdeal.main_arg3 (by decide) (by decide))).trans
        (Cert.KernelIdeal.Gen.W_main_arg3 m (Cert.KernelIdeal.Body.dats m) c)⟩
  · refine (θ_run Cert.ReferenceIdeal.defs _ _).mono (fun _ h c => ⟨?_, (h c).2⟩) (Cert.ReferenceIdeal.ValueP.run (F := Ideal) m' ρ')
    rw [(h c).1, Cert.RefBridge.res_eq, (hagree c).1, (hagree c).2.1, (hagree c).2.2.1, (hagree c).2.2.2]
    rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
